-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S3072x1024 .f32) (main_arg2 : FVec F S3072 .f32) (main_arg3 : FVec F S1024x1024 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S16384x1024 : Shape := ⟨2, ![16384, 1024]⟩
abbrev S1024x3072 : Shape := ⟨2, ![1024, 3072]⟩
abbrev S1x3072 : Shape := ⟨2, ![1, 3072]⟩
abbrev S16384x3072 : Shape := ⟨2, ![16384, 3072]⟩
abbrev S1x1024 : Shape := ⟨2, ![1, 1024]⟩
abbrev S4x4096x3072 : Shape := ⟨3, ![4, 4096, 3072]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024x512 : Shape := ⟨3, ![1, 1024, 512]⟩

abbrev nBuf : Space → Nat
  | .hbm => 16
  | .vmem => 25
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S1024x3072, .f32⟩
  | .hbm, ⟨7, _⟩ => ⟨S1x3072, .f32⟩
  | .hbm, ⟨8, _⟩ => ⟨S16384x3072, .bf16⟩
  | .hbm, ⟨9, _⟩ => ⟨S4x4096x3072, .bf16⟩
  | .hbm, ⟨10, _⟩ => ⟨S4x4096x1024, .bf16⟩
  | .hbm, ⟨11, _⟩ => ⟨S16384x1024, .bf16⟩
  | .hbm, ⟨12, _⟩ => ⟨S1024x1024, .f32⟩
  | .hbm, ⟨13, _⟩ => ⟨S1x1024, .f32⟩
  | .hbm, ⟨14, _⟩ => ⟨S16384x1024, .f32⟩
  | .hbm, ⟨15, _⟩ => ⟨S4x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1, .f32⟩
  | .local _ .vmem, ⟨17, _⟩ => ⟨S1x1024x1, .f32⟩
  | .local _ .vmem, ⟨18, _⟩ => ⟨S1x1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_34 : BitVec 32 := 0#32
  let v44 : BitVec 1 := Scalar.cmpi .ne v43 c0_i32_34
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![1, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S4x4096x1024_S16384x1024 : S4x4096x1024.ShapeCasts S16384x1024
  transposes_S3072x1024_S1024x3072_1_0 : S3072x1024.Transposes [1, 0] S1024x3072
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S16384x3072_S4x4096x3072 : S16384x3072.ShapeCasts S4x4096x3072
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  transposes_S1024x1024_S1024x1024_1_0 : S1024x1024.Transposes [1, 0] S1024x1024
  shapeCasts_S1024_S1x1024 : S1024.ShapeCasts S1x1024
  shapeCasts_S16384x1024_S4x4096x1024 : S16384x1024.ShapeCasts S4x4096x1024
  dot_S1024x1024_S1024x1024_S1024x1024_1_0_0_1_n_n_wf : DotDims.WF S1024x1024 S1024x1024 S1024x1024 [1] [0] [0] [1] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x3072.size a
  hwx0_1 : ∀ i : grid0.Coords, EltTy.bits .f32 = 32 ∨ (Rect.block (s := S1024x3072) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x3072.size a
  hwx0_3 : ∀ i : grid0.Coords, EltTy.bits .bf16 = 32 ∨ (Rect.block (s := S16384x3072) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x3072.size a
  hwx1_0 : ∀ i : grid1.Coords, EltTy.bits .bf16 = 32 ∨ (Rect.block (s := S4x4096x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x3072.size a
  hwx1_1 : ∀ i : grid1.Coords, EltTy.bits .bf16 = 32 ∨ (Rect.block (s := S4x4096x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x3072.size a
  hwx1_2 : ∀ i : grid1.Coords, EltTy.bits .bf16 = 32 ∨ (Rect.block (s := S4x4096x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .bf16 = 32 ∨ (Rect.block (s := S4x4096x1024) S1x1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .bf16 = 32 ∨ (Rect.block (s := S16384x1024) S1024x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x1024.size a
  hwx2_3 : ∀ i : grid2.Coords, EltTy.bits .f32 = 32 ∨ (Rect.block (s := S16384x1024) S1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v4) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v6) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4x4096x3072 : Shape := ⟨3, ![4, 4096, 3072]⟩
abbrev S1x1x3072 : Shape := ⟨3, ![1, 1, 3072]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4x4096x3072, .f32⟩
  | .hbm, ⟨6, _⟩ => ⟨S1x1x3072, .f32⟩
  | .hbm, ⟨7, _⟩ => ⟨S4x4096x3072, .f32⟩
  | .hbm, ⟨8, _⟩ => ⟨S4x4096x3072, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x4096, .f32⟩
  | .hbm, ⟨13, _⟩ => ⟨S_, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S4x4096, .f32⟩
  | .hbm, ⟨19, _⟩ => ⟨S_, .f32⟩
  | .hbm, ⟨20, _⟩ => ⟨S4x4096, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x4096x3072_0_1_2 : S1x1x3072.BroadcastsInDim S4x4096x3072 (![0, 1, 2] : Fin 3 → Fin S4x4096x3072.rank)
  slices_S4x4096x3072_S4x4096x1024_0_0_0 : S4x4096x3072.Slices ![0, 0, 0] S4x4096x1024
  slices_S4x4096x3072_S4x4096x1024_0_0_1024 : S4x4096x3072.Slices ![0, 0, 1024] S4x4096x1024
  slices_S4x4096x3072_S4x4096x1024_0_0_2048 : S4x4096x3072.Slices ![0, 0, 2048] S4x4096x1024
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S3072x1024_S4x4096x3072_2_1_01_0_n_n_wf : DotDims.WF S4x4096x1024 S3072x1024 S4x4096x3072 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]
  dot_S4x4096x1024_S1024x1024_S4x4096x1024_2_1_01_0_n_n_wf : DotDims.WF S4x4096x1024 S1024x1024 S4x4096x1024 [2] [1] [0, 1] [0] [] []

variable [Facts₀]

def dot_S4x4096x1024_S3072x1024_S4x4096x3072_2_1_01_0_n_n : DotDims S4x4096x1024 S3072x1024 S4x4096x3072 where
  lhsContracting := [2]
  rhsContracting := [1]
  lhsNonContracting := [0, 1]
  rhsNonContracting := [0]
  lhsBatch := []
  rhsBatch := []
  wf := dot_S4x4096x1024_S3072x1024_S4x4096x3072_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf
def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf

class Facts : Prop extends Facts₀ where

variable [Facts]
-- ==== Proof.KReg0.lean ====
/- The per-region half of the frame proof for custom_call 0 (a tiled matrix product plus bias row): at arbitrary
   buffer contents `V` found when the region is entered, the block every window holds at a grid point, what the
   body leaves in the output window's buffer, the body's triple, the pipeline's proof data and its body obligation. -/
import proofs.«131970_j54589034332684_2_alg».proof.Proof.Gen.Kernel.Launch
import proofs.«131970_j54589034332684_2_alg».proof.Proof.Gen.Kernel.Skeleton
import proofs.«131970_j54589034332684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's array, at the contents `V` the region starts from,
    read through the block's view. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles of the body's accesses: every load and the store take a whole staging buffer -/

/-- All of a 1024×1024 buffer: offsets zero, the buffer's own extents. -/
abbrev sqAll0 : Rect S1024x1024 := Rect.unit (s := S1024x1024) ![0, 0] S1024x1024.size inb_S1024x1024_S1024x1024_0_0

/-- All of a 1×1024 buffer. -/
abbrev rowAll0 : Rect S1x1024 := Rect.unit (s := S1x1024) ![0, 0] S1x1024.size inb_S1x1024_S1x1024_0_0

/-- The offsets `![0, 0]` are the zero function. -/
theorem offs_zero0 : (![0, 0] : Fin 2 → ℕ) = fun _ => 0 := by
  funext a; fin_cases a <;> rfl

/-! ## What the body leaves in the output window's buffer -/

/-- The output buffer after the body, as a function of the three input buffers' contents: its single store, of
    the product-plus-bias payload of the three loads, seen as a one-piece list of writes. -/
def res0 (x0 : Vec F S1024x1024 .f32) (x1 : Vec F S1024x1024 .f32) (x2 : Vec F S1x1024 .f32) : Vec F S1024x1024 .bf16 :=
  View.canon [⟨sqAll0, k0_pay1 (View.ld x0 sqAll0) (View.ld x1 sqAll0) (View.ld x2 rowAll0)⟩]

/-- The store is of the whole buffer and each load reads a whole buffer, so the buffer ends at the payload of the
    three buffers' contents themselves. -/
theorem res0_eq (x0 : Vec F S1024x1024 .f32) (x1 : Vec F S1024x1024 .f32) (x2 : Vec F S1x1024 .f32) :
    res0 x0 x1 x2 = k0_pay1 x0 x1 x2 := by
  unfold res0
  rw [View.canon_unit_zero offs_zero0]
  rw [View.ld_unit_zero (S := S1024x1024) offs_zero0, View.ld_unit_zero (S := S1024x1024) offs_zero0,
    View.ld_unit_zero (S := S1x1024) offs_zero0]

/-- The one store reaches every index of the buffer. -/
theorem store_covers0 (p : Vec F S1024x1024 .bf16) (y : S1024x1024.Idx) :
    ∃ pc ∈ ([⟨sqAll0, p⟩] : List (View.Piece (Elt F) S1024x1024 .bf16)), y ∈ pc.1.set :=
  ⟨_, List.mem_singleton_self _, View.mem_set_unit_zero offs_zero0 inb_S1024x1024_S1024x1024_0_0 y⟩

/-! ## The body's triple -/

set_option maxHeartbeats 1000000 in
/-- The body on four whole staging buffers — the three inputs' reading `x0`, `x1`, `x2`, the output's at any
    contents — reaches its continuation with the inputs' unchanged and the output's reading `res0 x0 x1 x2`:
    three loads, one more load whose value nothing reads, and the store of the payload. -/
theorem kernel0_triple (c : Dev nD) (E : Set ℕ) (i : grid0.Coords)
    (a0 : Memref sig .tc .vmem S1024x1024 .f32) (h0 : a0.IsWhole) (a1 : Memref sig .tc .vmem S1024x1024 .f32) (h1 : a1.IsWhole)
    (a2 : Memref sig .tc .vmem S1x1024 .f32) (h2 : a2.IsWhole) (a3 : Memref sig .tc .vmem S1024x1024 .bf16) (h3 : a3.IsWhole)
    (x0 : Vec F S1024x1024 .f32) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (res0 x0 x1 x2)) -∗ K ⟨⟩))
      ⊢ wp frame (wpE (defs₀ (F := F)) Variants.none c none) E (cc0__matmul_bias_kernel i a0 h0 a1 h1 a2 h2 a3 h3) K := by
  simp only [cc0__matmul_bias_kernel_eq_skeleton]; unfold cc0__matmul_bias_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers0 _)

/-! ## The pipeline's proof data -/

/-- The proof data of this pipeline on core `c`: every windowed array at the contents `V`; after the body at point
    `t` each input window's buffer at its block and the output window's at `res0` of the three input blocks; the
    invariant that of a body touching only its windows (the scoped rest and the generator register kept); whole
    shares, nothing owed. -/
def dat0 (c : Dev nD) : Pipeline.Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

/-- The data's arrays are `V`'s. -/
theorem dat0_A (c : Dev nD) (w : Fin cfg0.W) : (dat0 V c).A w = V c (Pipeline.arrRef spec0 w) := by
  dsimp only [dat0]

/-- After the body the output window's buffer reads `res0` of the input blocks. -/
theorem dat0_after3 (c : Dev nD) (t : Fin cfg0.N) :
    (dat0 V c).after 3 t = res0 (blk0 V c 0 t) (blk0 V c 1 t) (blk0 V c 2 t) := by
  dsimp only [dat0]

/-- After the body each input window's buffer still reads its block. -/
theorem dat0_after_in (c : Dev nD) (t : Fin cfg0.N) :
    (dat0 V c).after 0 t = blk0 V c 0 t ∧ (dat0 V c).after 1 t = blk0 V c 1 t ∧ (dat0 V c).after 2 t = blk0 V c 2 t := by
  refine ⟨?_, ?_, ?_⟩ <;> dsimp only [dat0]

/-! ## What the body finds in the input windows' buffers

An input window is not fetched at every point (the weight's column block and the bias row only when the column
index moves); where it is not, its block index is that of the point before and the body left the block in place,
so the buffer reads the point's block all the same. -/

theorem found0_0 (c : Dev nD) (t : Fin cfg0.N) (d) : (dat0 V c).before 0 t d = blk0 V c 0 t :=
  ((dat0 V c).before_in_eq_fetched 0 rfl (fun _ => rfl) (fun _ _ _ => rfl)
      (fun t => by rw [(dat0_after_in V c t).1]; unfold Pipeline.Dat.blockOf blk0; rw [dat0_A]; try rfl) t d).trans
    (by unfold Pipeline.Dat.fetched Pipeline.Dat.blockOf blk0; rw [dat0_A]; try rfl)

theorem found0_1 (c : Dev nD) (t : Fin cfg0.N) (d) : (dat0 V c).before 1 t d = blk0 V c 1 t :=
  ((dat0 V c).before_in_eq_fetched 1 rfl (fun _ => rfl) (fun _ _ _ => rfl)
      (fun t => by rw [(dat0_after_in V c t).2.1]; unfold Pipeline.Dat.blockOf blk0; rw [dat0_A]; try rfl) t d).trans
    (by unfold Pipeline.Dat.fetched Pipeline.Dat.blockOf blk0; rw [dat0_A]; try rfl)

theorem found0_2 (c : Dev nD) (t : Fin cfg0.N) (d) : (dat0 V c).before 2 t d = blk0 V c 2 t :=
  ((dat0 V c).before_in_eq_fetched 2 rfl (fun _ => rfl) (fun _ _ _ => rfl)
      (fun t => by rw [(dat0_after_in V c t).2.2]; unfold Pipeline.Dat.blockOf blk0; rw [dat0_A]; try rfl) t d).trans
    (by unfold Pipeline.Dat.fetched Pipeline.Dat.blockOf blk0; rw [dat0_A]; try rfl)

/-! ## The body obligation -/

/-- The precondition the pipeline calls the body under at point `t`, its four windows written out, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and the postcondition it must return. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: its input buffers read their blocks (`found0_*`), so the triple applies; the invariant
    and what the core owes are not touched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    (dat0_after_in V c t).1, (dat0_after_in V c t).2.1, (dat0_after_in V c t).2.2, dat0_after3]
  iintro ⟨HΦ, Ho, ⟨%d0, H0⟩, ⟨%d1, H1⟩, ⟨%d2, H2⟩, ⟨%d3, H3⟩⟩
  iapply (kernel0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for this proof data. -/
theorem body0 (c : Dev nD) : Pipeline.BodyObligation (dat0 (F := F) V c) (defs₀ (F := F)) Variants.none () Set.univ := fun t => by
  rw [bigSep_W0, bigSep_W0]
  exact body0_at V c t

end Cert.Kernel.Hand

end
-- ==== Proof.KReg2.lean ====
/- The per-region half of the frame proof for custom_call 2 (a tiled matrix product plus bias row): at arbitrary
   buffer contents `V` found when the region is entered, the block every window holds at a grid point, what the
   body leaves in the output window's buffer, the body's triple, the pipeline's proof data and its body obligation. -/
import proofs.«131970_j54589034332684_2_alg».proof.Proof.Gen.Kernel.Launch
import proofs.«131970_j54589034332684_2_alg».proof.Proof.Gen.Kernel.Skeleton
import proofs.«131970_j54589034332684_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's array, at the contents `V` the region starts from,
    read through the block's view. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles of the body's accesses: every load and the store take a whole staging buffer -/

/-- All of a 1024×1024 buffer: offsets zero, the buffer's own extents. -/
abbrev sqAll2 : Rect S1024x1024 := Rect.unit (s := S1024x1024) ![0, 0] S1024x1024.size inb_S1024x1024_S1024x1024_0_0

/-- All of a 1×1024 buffer. -/
abbrev rowAll2 : Rect S1x1024 := Rect.unit (s := S1x1024) ![0, 0] S1x1024.size inb_S1x1024_S1x1024_0_0

/-- The offsets `![0, 0]` are the zero function. -/
theorem offs_zero2 : (![0, 0] : Fin 2 → ℕ) = fun _ => 0 := by
  funext a; fin_cases a <;> rfl

/-! ## What the body leaves in the output window's buffer -/

/-- The output buffer after the body, as a function of the three input buffers' contents: its single store, of
    the product-plus-bias payload of the three loads, seen as a one-piece list of writes. -/
def res2 (x0 : Vec F S1024x1024 .bf16) (x1 : Vec F S1024x1024 .f32) (x2 : Vec F S1x1024 .f32) : Vec F S1024x1024 .f32 :=
  View.canon [⟨sqAll2, k2_pay1 (View.ld x0 sqAll2) (View.ld x1 sqAll2) (View.ld x2 rowAll2)⟩]

/-- The store is of the whole buffer and each load reads a whole buffer, so the buffer ends at the payload of the
    three buffers' contents themselves. -/
theorem res2_eq (x0 : Vec F S1024x1024 .bf16) (x1 : Vec F S1024x1024 .f32) (x2 : Vec F S1x1024 .f32) :
    res2 x0 x1 x2 = k2_pay1 x0 x1 x2 := by
  unfold res2
  rw [View.canon_unit_zero offs_zero2]
  rw [View.ld_unit_zero (S := S1024x1024) offs_zero2, View.ld_unit_zero (S := S1024x1024) offs_zero2,
    View.ld_unit_zero (S := S1x1024) offs_zero2]

/-- The one store reaches every index of the buffer. -/
theorem store_covers2 (p : Vec F S1024x1024 .f32) (y : S1024x1024.Idx) :
    ∃ pc ∈ ([⟨sqAll2, p⟩] : List (View.Piece (Elt F) S1024x1024 .f32)), y ∈ pc.1.set :=
  ⟨_, List.mem_singleton_self _, View.mem_set_unit_zero offs_zero2 inb_S1024x1024_S1024x1024_0_0 y⟩

/-! ## The body's triple -/

set_option maxHeartbeats 1000000 in
/-- The body on four whole staging buffers — the three inputs' reading `x0`, `x1`, `x2`, the output's at any
    contents — reaches its continuation with the inputs' unchanged and the output's reading `res2 x0 x1 x2`:
    three loads, one more load whose value nothing reads, and the store of the payload. -/
theorem kernel2_triple (c : Dev nD) (E : Set ℕ) (i : grid2.Coords)
    (a0 : Memref sig .tc .vmem S1024x1024 .bf16) (h0 : a0.IsWhole) (a1 : Memref sig .tc .vmem S1024x1024 .f32) (h1 : a1.IsWhole)
    (a2 : Memref sig .tc .vmem S1x1024 .f32) (h2 : a2.IsWhole) (a3 : Memref sig .tc .vmem S1024x1024 .f32) (h3 : a3.IsWhole)
    (x0 : Vec F S1024x1024 .bf16) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (res2 x0 x1 x2)) -∗ K ⟨⟩))
      ⊢ wp frame (wpE (defs₀ (F := F)) Variants.none c none) E (cc2__matmul_bias_kernel i a0 h0 a1 h1 a2 h2 a3 h3) K := by
  simp only [cc2__matmul_bias_kernel_eq_skeleton]; unfold cc2__matmul_bias_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers2 _)

/-! ## The pipeline's proof data -/

/-- The proof data of this pipeline on core `c`: every windowed array at the contents `V`; after the body at point
    `t` each input window's buffer at its block and the output window's at `res2` of the three input blocks; the
    invariant that of a body touching only its windows (the scoped rest and the generator register kept); whole
    shares, nothing owed. -/
def dat2 (c : Dev nD) : Pipeline.Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

/-- The data's arrays are `V`'s. -/
theorem dat2_A (c : Dev nD) (w : Fin cfg2.W) : (dat2 V c).A w = V c (Pipeline.arrRef spec2 w) := by
  dsimp only [dat2]

/-- After the body the output window's buffer reads `res2` of the input blocks. -/
theorem dat2_after3 (c : Dev nD) (t : Fin cfg2.N) :
    (dat2 V c).after 3 t = res2 (blk2 V c 0 t) (blk2 V c 1 t) (blk2 V c 2 t) := by
  dsimp only [dat2]

/-- After the body each input window's buffer still reads its block. -/
theorem dat2_after_in (c : Dev nD) (t : Fin cfg2.N) :
    (dat2 V c).after 0 t = blk2 V c 0 t ∧ (dat2 V c).after 1 t = blk2 V c 1 t ∧ (dat2 V c).after 2 t = blk2 V c 2 t := by
  refine ⟨?_, ?_, ?_⟩ <;> dsimp only [dat2]

/-! ## What the body finds in the input windows' buffers

An input window is not fetched at every point (the weight's column block and the bias row only when the column
index moves); where it is not, its block index is that of the point before and the body left the block in place,
so the buffer reads the point's block all the same. -/

theorem found2_0 (c : Dev nD) (t : Fin cfg2.N) (d) : (dat2 V c).before 0 t d = blk2 V c 0 t :=
  ((dat2 V c).before_in_eq_fetched 0 rfl (fun _ => rfl) (fun _ _ _ => rfl)
      (fun t => by rw [(dat2_after_in V c t).1]; unfold Pipeline.Dat.blockOf blk2; rw [dat2_A]; try rfl) t d).trans
    (by unfold Pipeline.Dat.fetched Pipeline.Dat.blockOf blk2; rw [dat2_A]; try rfl)

theorem found2_1 (c : Dev nD) (t : Fin cfg2.N) (d) : (dat2 V c).before 1 t d = blk2 V c 1 t :=
  ((dat2 V c).before_in_eq_fetched 1 rfl (fun _ => rfl) (fun _ _ _ => rfl)
      (fun t => by rw [(dat2_after_in V c t).2.1]; unfold Pipeline.Dat.blockOf blk2; rw [dat2_A]; try rfl) t d).trans
    (by unfold Pipeline.Dat.fetched Pipeline.Dat.blockOf blk2; rw [dat2_A]; try rfl)

theorem found2_2 (c : Dev nD) (t : Fin cfg2.N) (d) : (dat2 V c).before 2 t d = blk2 V c 2 t :=
  ((dat2 V c).before_in_eq_fetched 2 rfl (fun _ => rfl) (fun _ _ _ => rfl)
      (fun t => by rw [(dat2_after_in V c t).2.2]; unfold Pipeline.Dat.blockOf blk2; rw [dat2_A]; try rfl) t d).trans
    (by unfold Pipeline.Dat.fetched Pipeline.Dat.blockOf blk2; rw [dat2_A]; try rfl)

/-! ## The body obligation -/

/-- The precondition the pipeline calls the body under at point `t`, its four windows written out, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the postcondition it must return. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at a point: its input buffers read their blocks (`found2_*`), so the triple applies; the invariant
    and what the core owes are not touched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2]
  rw [show (dat2 V c).Φ t.succ = (dat2 V c).Φ t.castSucc from rfl,
    show (dat2 V c).owesAt () t.succ = (dat2 V c).owesAt () t.castSucc from rfl,
    (dat2_after_in V c t).1, (dat2_after_in V c t).2.1, (dat2_after_in V c t).2.2, dat2_after3]
  iintro ⟨HΦ, Ho, ⟨%d0, H0⟩, ⟨%d1, H1⟩, ⟨%d2, H2⟩, ⟨%d3, H3⟩⟩
  iapply (kernel2_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for this proof data. -/
theorem body2 (c : Dev nD) : Pipeline.BodyObligation (dat2 (F := F) V c) (defs₀ (F := F)) Variants.none () Set.univ := fun t => by
  rw [bigSep_W2, bigSep_W2]
  exact body2_at V c t

end Cert.Kernel.Hand

end
-- ==== Proof.KRegs02.lean ====
/- Facts about the proof data of custom_call 0 and custom_call 2 that the run's region records use: shares, the
   input arrays' contents through the write-backs, the invariant and the owed tallies. -/
import proofs.«131970_j54589034332684_2_alg».proof.Proof.KReg0
import proofs.«131970_j54589034332684_2_alg».proof.Proof.KReg2
import Idealize.ShloMosaic.Lib.Pipeline.Kit
import Idealize.ShloMosaic.Lib.Pipeline.Cells

noncomputable section

namespace Cert.Kernel.Hand

open Idealize.ShloMosaic Idealize.ShloMosaic.TcCoe
open Idealize.SL Idealize.SL.RA Idealize.SL.BI
open scoped Idealize.SL.BI
open Idealize.SL.Sem
open Cert.Kernel Cert.Kernel.Gen

variable {F : FTy → Type} [FloatOps F]

variable (V : (c : Dev nD) → (b : Ref sig .tc) → Buf (Elt F) ((c : Thread nD τ).loc b))

/-! ## custom_call 0 -/

/-- Every windowed array is held at the whole share: the inputs' by the proof data's choice, the output's always. -/
theorem dat0_share (c : Dev nD) : ∀ w, (dat0 V c).share w = fullShare :=
  (dat0 V c).share_full fun _ => rfl

/-- An input window's array is never written back: at every point count it is still what the region found. -/
theorem dat0_arrAt_in (c : Dev nD) (w : Fin cfg0.W) (hw : w ≠ 3) (n : ℕ) :
    (dat0 V c).arrAt w n = V c (Pipeline.arrRef spec0 w) := by
  have hin : (cfg0.win w).isOut = false := by
    revert hw; revert w; decide
  exact ((dat0 V c).arrAt_in w hin n).trans (dat0_A V c w)

/-- The invariant is the same at every point: that of a body touching only its windows. -/
theorem dat0_Phi (c : Dev nD) (t : Fin (cfg0.N + 1)) : (dat0 V c).Φ t = Pipeline.ΦA spec0 c := rfl

/-- Nothing is ever owed. -/
theorem dat0_owed (c : Dev nD) (t : Fin (cfg0.N + 1)) : (dat0 V c).owed t = 0 := rfl

/-! ## custom_call 2 -/

/-- Every windowed array is held at the whole share: the inputs' by the proof data's choice, the output's always. -/
theorem dat2_share (c : Dev nD) : ∀ w, (dat2 V c).share w = fullShare :=
  (dat2 V c).share_full fun _ => rfl

/-- An input window's array is never written back: at every point count it is still what the region found. -/
theorem dat2_arrAt_in (c : Dev nD) (w : Fin cfg2.W) (hw : w ≠ 3) (n : ℕ) :
    (dat2 V c).arrAt w n = V c (Pipeline.arrRef spec2 w) := by
  have hin : (cfg2.win w).isOut = false := by
    revert hw; revert w; decide
  exact ((dat2 V c).arrAt_in w hin n).trans (dat2_A V c w)

/-- The invariant is the same at every point: that of a body touching only its windows. -/
theorem dat2_Phi (c : Dev nD) (t : Fin (cfg2.N + 1)) : (dat2 V c).Φ t = Pipeline.ΦA spec2 c := rfl

/-- Nothing is ever owed. -/
theorem dat2_owed (c : Dev nD) (t : Fin (cfg2.N + 1)) : (dat2 V c).owed t = 0 := rfl

end Cert.Kernel.Hand

end
-- ==== Proof.KFlashDefs.lean ====
/-
  The attention pallas_call (a flash-attention body over a grid of batch × query tile × key block): what its three
  control cases are stated over. The body branches twice on the key-block coordinate: at the first key block it
  resets the running maximum, the running denominator and the running numerator it keeps in scratch; at the last
  key block it divides the numerator by the denominator and stores the quotient into the output block. Between the
  two it only updates the three running quantities. So a grid point is in one of three cases: first block,
  middle block, last block.
-/
import proofs.«131970_j54589034332684_2_alg».proof.Proof.Gen.Kernel.Launch
import proofs.«131970_j54589034332684_2_alg».proof.Proof.Gen.Kernel.Skeleton
import proofs.«131970_j54589034332684_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch is taken exactly when the key-block coordinate is 0 (the scalar chain of the printed
    condition, over the grid coordinates). -/
abbrev isFirst (i : grid1.Coords) : Prop :=
  (Scalar.cmpi .ne (Scalar.extui (Scalar.cmpi .eq (BitVec.ofNat 32 (i 2).val) 0#32)) 0#32) = 1#1
/-- Over the grid of 4 × 4 × 8 points, in row-major order, that is the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- The body's second branch is taken exactly when the key-block coordinate is 7, the last. -/
abbrev isLast (i : grid1.Coords) : Prop := k1_cond2 i = 1#1
/-- That is the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-- The input windows are never idle. -/
theorem live_in : ∀ t : Fin cfg1.N, cfg1.idle 0 (grid1.coords t) = false ∧ cfg1.idle 1 (grid1.coords t) = false ∧ cfg1.idle 2 (grid1.coords t) = false := by decide +kernel
/-- Away from the last key block the output window is idle, and its block is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last key block it is live. -/
theorem live_out : ∀ t : Fin cfg1.N, isLast (grid1.coords t) → cfg1.idle 3 (grid1.coords t) = false := by decide +kernel

/-- Each window's current staging memref at a point, as the pipeline passes it, and its wholeness. -/
abbrev mq (t : Fin cfg1.N) : Memref sig .tc .vmem S1x1024x1024 .bf16 := win1_0.stage (cfg1.slots t 0)
abbrev hq (t : Fin cfg1.N) : (mq t).IsWhole := hstage1_0 ((cfg1.slots t 0).cast nbuf1_0)
abbrev mk (t : Fin cfg1.N) : Memref sig .tc .vmem S1x512x1024 .bf16 := win1_1.stage (cfg1.slots t 1)
abbrev hk (t : Fin cfg1.N) : (mk t).IsWhole := hstage1_1 ((cfg1.slots t 1).cast nbuf1_1)
abbrev mv (t : Fin cfg1.N) : Memref sig .tc .vmem S1x512x1024 .bf16 := win1_2.stage (cfg1.slots t 2)
abbrev hv (t : Fin cfg1.N) : (mv t).IsWhole := hstage1_2 ((cfg1.slots t 2).cast nbuf1_2)
abbrev mo (t : Fin cfg1.N) : Memref sig .tc .vmem S1x1024x1024 .bf16 := win1_3.stage (cfg1.slots t 3)
abbrev ho (t : Fin cfg1.N) : (mo t).IsWhole := hstage1_3 ((cfg1.slots t 3).cast nbuf1_3)
/-- The three scratch operands: the running maximum, the running denominator, the running numerator. -/
abbrev sM : Memref sig .tc .vmem S1x1024x1 .f32 := Memref.whole cc1_scratch0
abbrev sL : Memref sig .tc .vmem S1x1024x1 .f32 := Memref.whole cc1_scratch1
abbrev sA : Memref sig .tc .vmem S1x1024x1024 .f32 := Memref.whole cc1_scratch2
/-- One staging buffer of the output window, through which its contents are stated. -/
abbrev vO : View sig .tc .vmem S1x1024x1024 .bf16 := (Memref.whole cc1_stg3_0 : Memref sig .tc .vmem S1x1024x1024 .bf16).view

end Cert.Kernel.Flash

end
-- ==== Proof.KFlashFirst.lean ====
/-
  The attention body at the FIRST key block of a query tile: it resets the running maximum to -inf and the running
  denominator and numerator to 0 in scratch, whatever they held, and then updates the three from the query, key and
  value blocks. Stated as the
  body's triple on whole memrefs; what each scratch buffer ends holding is the list of pieces the run finds.
-/
import proofs.«131970_j54589034332684_2_alg».proof.Proof.KFlashDefs

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first key block: from the three input blocks at their contents, the output buffer at given contents and the
    three scratch buffers at anything, the body runs to the continuation with the inputs
    as they were, the output buffer untouched, and each scratch buffer with the pieces found written. -/
noncomputable def runFirst (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16) :
    Σ' (L0 : List (View.Piece (Elt F) S1x1024x1 .f32)) (L1 : List (View.Piece (Elt F) S1x1024x1 .f32)), { L2 : List (View.Piece (Elt F) S1x1024x1024 .f32) //
      ∀ (xo : Vec F S1x1024x1024 .bf16) (E : Set ℕ) (K : PUnit → sProp 𝕄),
        iprop(owns (c : Thread nD τ) arg3 fullShare xq ∗ owns (c : Thread nD τ) arg4 fullShare xk ∗ owns (c : Thread nD τ) arg5 fullShare xv
            ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv
                ∗ owns (c : Thread nD τ) arg6 fullShare xo
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Flash

end
-- ==== Proof.KFlashMid.lean ====
/-
  The attention body at a MIDDLE key block (neither the first nor the last): it only updates the running maximum, the
  running denominator and the running numerator in scratch from the query, key and value blocks. Stated as the
  body's triple on whole memrefs; what each scratch buffer ends holding is the list of pieces the run finds.
-/
import proofs.«131970_j54589034332684_2_alg».proof.Proof.KFlashDefs

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle key block: from the three input blocks at their contents, the output buffer at given contents and the
    three scratch buffers at the contents the point before left, the body runs to the continuation with the inputs
    as they were, the output buffer untouched, and each scratch buffer with the pieces found written. -/
noncomputable def runMid (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16)
    (s0 : Vec F S1x1024x1 .f32) (s1 : Vec F S1x1024x1 .f32) (s2 : Vec F S1x1024x1024 .f32) :
    Σ' (L0 : List (View.Piece (Elt F) S1x1024x1 .f32)) (L1 : List (View.Piece (Elt F) S1x1024x1 .f32)), { L2 : List (View.Piece (Elt F) S1x1024x1024 .f32) //
      ∀ (xo : Vec F S1x1024x1024 .bf16) (E : Set ℕ) (K : PUnit → sProp 𝕄),
        iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare s0 ∗ owns (c : Thread nD τ) arg8 fullShare s1 ∗ owns (c : Thread nD τ) arg9 fullShare s2
            ∗ (iprop(owns (c : Thread nD τ) arg3 fullShare xq ∗ owns (c : Thread nD τ) arg4 fullShare xk ∗ owns (c : Thread nD τ) arg5 fullShare xv
                ∗ owns (c : Thread nD τ) arg6 fullShare xo
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.Kernel.Flash

end
-- ==== Proof.KFlashLast.lean ====
/-
  The attention body at the LAST key block of a query tile: it updates the running maximum, denominator and numerator
  in scratch from the query, key and value blocks, and then stores the numerator divided by the denominator into the
  output block. Stated as the
  body's triple on whole memrefs; what each scratch buffer ends holding is the list of pieces the run finds.
-/
import proofs.«131970_j54589034332684_2_alg».proof.Proof.KFlashDefs

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the last key block: from the three input blocks at their contents, the output buffer at anything and the
    three scratch buffers at the contents the point before left, the body runs to the continuation with the inputs
    as they were, and the output buffer and each scratch buffer with the pieces found written. -/
noncomputable def runLast (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16)
    (s0 : Vec F S1x1024x1 .f32) (s1 : Vec F S1x1024x1 .f32) (s2 : Vec F S1x1024x1024 .f32) :
    Σ' (L6 : List (View.Piece (Elt F) S1x1024x1024 .bf16)) (L0 : List (View.Piece (Elt F) S1x1024x1 .f32)) (L1 : List (View.Piece (Elt F) S1x1024x1 .f32)), { L2 : List (View.Piece (Elt F) S1x1024x1024 .f32) //
      ∀ (E : Set ℕ) (K : PUnit → sProp 𝕄),
        iprop(owns (c : Thread nD τ) arg3 fullShare xq ∗ owns (c : Thread nD τ) arg4 fullShare xk ∗ owns (c : Thread nD τ) arg5 fullShare xv
            ∗ (∃ d, owns (c : Thread nD τ) arg6 fullShare d)
            ∗ owns (c : Thread nD τ) arg7 fullShare s0 ∗ owns (c : Thread nD τ) arg8 fullShare s1 ∗ owns (c : Thread nD τ) arg9 fullShare s2
            ∗ (iprop(owns (c : Thread nD τ) arg3 fullShare xq ∗ owns (c : Thread nD τ) arg4 fullShare xk ∗ owns (c : Thread nD τ) arg5 fullShare xv
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]; · iexists _; iexact H7
    isplitl [H8]; · iexists _; iexact H8
    iexists _; iexact H9

end Cert.Kernel.Flash

end
-- ==== Proof.KFlashData.lean ====
/-
  The attention pallas_call point by point: what the output buffer and the three scratch buffers (running maximum,
  running denominator, running numerator) hold after each grid point, by recursion on the point — at the first key
  block of a query tile the scratch restarts from the reset values, at every later block it continues from what the
  point before left, and at the last block the output buffer receives the quotient —, the pipeline's proof data over
  it, and the body obligation: at every point the body, called on the blocks the pipeline staged and on the scratch
  as the point before left it, leaves exactly that.
-/
import proofs.«131970_j54589034332684_2_alg».proof.Proof.KFlashFirst
import proofs.«131970_j54589034332684_2_alg».proof.Proof.KFlashMid
import proofs.«131970_j54589034332684_2_alg».proof.Proof.KFlashLast

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output buffer (`o`) and the scratch buffers — running maximum `m`, running denominator `l`, running
    numerator `a` — hold after a point. -/
structure St (F : FTy → Type) where
  o : Vec F S1x1024x1024 .bf16
  m : Vec F S1x1024x1 .f32
  l : Vec F S1x1024x1 .f32
  a : Vec F S1x1024x1024 .f32

/-- Contents nothing reads: the output buffer's at a point that stores nothing into it. -/
def noO : Vec F S1x1024x1024 .bf16 := View.canon []
def noSt : St F := ⟨noO, View.canon [], View.canon [], View.canon []⟩

/-- After a first key block: the scratch restarted and updated from the point's blocks. -/
def stFirst (c : Dev nD) (t : Fin cfg1.N) (h0 : t.val % 8 = 0) : St F :=
  ⟨noO,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).1,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.1,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.1⟩

/-- After a middle key block: the scratch updated from the point's blocks over what the point before left. -/
def stMid (c : Dev nD) (t : Fin cfg1.N) (h0 : ¬t.val % 8 = 0) (h7 : ¬t.val % 8 = 7) (p : St F) : St F :=
  ⟨noO,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).1,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).2.1,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).2.2.1⟩

/-- After a last key block: the same update, and the output buffer at the quotient the body stored. -/
def stLast (c : Dev nD) (t : Fin cfg1.N) (h0 : ¬t.val % 8 = 0) (h7 : t.val % 8 = 7) (p : St F) : St F :=
  ⟨View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.2.1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.2.2.1⟩

/-- One point's effect on the state, by the point's case. -/
def stStep (c : Dev nD) (t : Fin cfg1.N) (p : St F) : St F :=
  if h0 : t.val % 8 = 0 then stFirst V c t h0
  else if h7 : t.val % 8 = 7 then stLast V c t h0 h7 p else stMid V c t h0 h7 p

/-- The state after point `n`, by recursion on the point. -/
def stAt (c : Dev nD) : (n : ℕ) → n < cfg1.N → St F
  | 0, h => stStep V c ⟨0, h⟩ noSt
  | n + 1, h => stStep V c ⟨n + 1, h⟩ (stAt c n (Nat.lt_of_succ_lt h))

theorem stAt_first (c : Dev nD) (t : Fin cfg1.N) (h0 : t.val % 8 = 0) : stAt V c t.val t.isLt = stFirst V c t h0 := by
  obtain ⟨n, hn⟩ := t
  cases n with
  | zero => exact (show stStep V c ⟨0, hn⟩ noSt = stFirst V c ⟨0, hn⟩ h0 from dif_pos h0)
  | succ n => exact (show stStep V c ⟨n + 1, hn⟩ _ = stFirst V c ⟨n + 1, hn⟩ h0 from dif_pos h0)

theorem stAt_mid (c : Dev nD) (t : Fin cfg1.N) (h0 : ¬t.val % 8 = 0) (h7 : ¬t.val % 8 = 7) :
    stAt V c t.val t.isLt = stMid V c t h0 h7 (stAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)

theorem stAt_last (c : Dev nD) (t : Fin cfg1.N) (h0 : ¬t.val % 8 = 0) (h7 : t.val % 8 = 7) :
    stAt V c t.val t.isLt = stLast V c t h0 h7 (stAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

end Cert.Kernel.Flash

end
-- ==== Proof.KFlashBody.lean ====
/-
  The attention pallas_call's proof data and body obligation. The region's invariant between two points is the
  scoped buffers no window stages and the generator register, with the three scratch buffers at what the point
  before left in them; before the first point they are at anything. At a point the body finds the query, key and
  value blocks in the input windows' buffers (fetched there or kept from an earlier point with the same block
  index), runs in the point's case, and leaves the scratch at the recursion's next value; the output window's
  buffer is touched at a last key block only, where it receives the block that is then written back.
-/
import proofs.«131970_j54589034332684_2_alg».proof.Proof.KFlashData

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor one of its three scratch buffers (the other
    two calls' staging buffers), each at some contents, and the generator register at some state. -/
def others (c : Dev nD) : sProp 𝕄 :=
  iprop((someAt (F := F) c cc0_stg0_0 ∗ someAt (F := F) c cc0_stg0_1 ∗ someAt (F := F) c cc0_stg1_0 ∗ someAt (F := F) c cc0_stg1_1 ∗ someAt (F := F) c cc0_stg2_0 ∗ someAt (F := F) c cc0_stg2_1 ∗ someAt (F := F) c cc0_stg3_0 ∗ someAt (F := F) c cc0_stg3_1
      ∗ someAt (F := F) c cc2_stg0_0 ∗ someAt (F := F) c cc2_stg0_1 ∗ someAt (F := F) c cc2_stg1_0 ∗ someAt (F := F) c cc2_stg2_0 ∗ someAt (F := F) c cc2_stg3_0 ∗ someAt (F := F) c cc2_stg3_1)
    ∗ ∃ r, prngReg c r)

/-- The invariant with the scratch buffers at named contents. -/
def inv (c : Dev nD) (f0 : Vec F S1x1024x1 .f32) (f1 : Vec F S1x1024x1 .f32) (f2 : Vec F S1x1024x1024 .f32) : sProp 𝕄 :=
  iprop(owns (c : Thread nD τ) sM fullShare f0 ∗ owns (c : Thread nD τ) sL fullShare f1 ∗ owns (c : Thread nD τ) sA fullShare f2 ∗ others (F := F) c)

/-- What the region is entered with gives the scratch buffers at some contents beside the rest. -/
theorem phiA_open (c : Dev nD) :
    (Pipeline.ΦA spec1 c : sProp 𝕄) ⊢ iprop((∃ d, owns (c : Thread nD τ) sM fullShare d) ∗ (∃ d, owns (c : Thread nD τ) sL fullShare d) ∗ (∃ d, owns (c : Thread nD τ) sA fullShare d) ∗ others (F := F) c) := by
  unfold Pipeline.ΦA others; rw [scopedRest1_eq]; simp only [sM, sL, sA, owns_whole]
  iintro ⟨⟨R1, R2, R3, R4, R5, R6, R7, R8, ⟨%f0, S0⟩, ⟨%f1, S1⟩, ⟨%f2, S2⟩, R12, R13, R14, R15, R16, R17⟩, Hg⟩
  isplitl [S0]; · iexists f0; iexact S0
  isplitl [S1]; · iexists f1; iexact S1
  isplitl [S2]; · iexists f2; iexact S2
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R12]; · iexact R12
    isplitl [R13]; · iexact R13
    isplitl [R14]; · iexact R14
    isplitl [R15]; · iexact R15
    isplitl [R16]; · iexact R16
    iexact R17
  iexact Hg

/-- And the invariant at any contents of the scratch gives it back. -/
theorem phiA_close (c : Dev nD) (f0 : Vec F S1x1024x1 .f32) (f1 : Vec F S1x1024x1 .f32) (f2 : Vec F S1x1024x1024 .f32) :
    inv c f0 f1 f2 ⊢ (Pipeline.ΦA spec1 c : sProp 𝕄) := by
  unfold Pipeline.ΦA inv others; rw [scopedRest1_eq]; simp only [sM, sL, sA, owns_whole]
  iintro ⟨S0, S1, S2, ⟨R1, R2, R3, R4, R5, R6, R7, R8, R12, R13, R14, R15, R16, R17⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [S0]; · iexists _; iexact S0
    isplitl [S1]; · iexists _; iexact S1
    isplitl [S2]; · iexists _; iexact S2
    isplitl [R12]; · iexact R12
    isplitl [R13]; · iexact R13
    isplitl [R14]; · iexact R14
    isplitl [R15]; · iexact R15
    isplitl [R16]; · iexact R16
    iexact R17
  iexact Hg

/-- The invariant before position `n`: at entry what the region is handed; afterwards the scratch at what the point
    before left. -/
def PhiS (c : Dev nD) : (n : ℕ) → n ≤ cfg1.N → sProp 𝕄
  | 0, _ => Pipeline.ΦA spec1 c
  | n + 1, hn => inv c (stAt V c n hn).m (stAt V c n hn).l (stAt V c n hn).a

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = inv c (stAt V c n hn).m (stAt V c n hn).l (stAt V c n hn).a := rfl

theorem PhiS_pos (c : Dev nD) (n : ℕ) (h : n ≤ cfg1.N) (hz : n ≠ 0) :
    PhiS V c n h = inv c (stAt V c (n - 1) (by omega)).m (stAt V c (n - 1) (by omega)).l (stAt V c (n - 1) (by omega)).a := by
  cases n with
  | zero => exact absurd rfl hz
  | succ n => rfl

/-! ## The proof data -/

/-- The pipeline's proof data on core `c`: the arrays as the region finds them; after the body each input's buffer at
    its block and the output's at the recursion's output component; the invariant above; nothing owed; each of the
    three input windows (all three read ONE array, the fused projection) at a third part of that array's share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).o
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem dat1_A (c : Dev nD) (w : Fin cfg1.W) : (dat1 V c).A w = V c (Pipeline.arrRef spec1 w) := by
  dsimp only [dat1]

theorem dat1_Phi (c : Dev nD) (t : Fin cfg1.N) : (dat1 V c).Φ t.castSucc = PhiS V c t.val (Nat.le_of_lt t.isLt) := by
  dsimp only [dat1]; simp only [Fin.coe_castSucc]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (stAt V c t.val t.isLt).o := by dsimp only [dat1]

/-- Each input window's current buffer holds its block at every point, fetched there or not: where it is not fetched
    the block index has not moved since the fetch, and the body leaves the block in place. -/
theorem found0 (c : Dev nD) (t : Fin cfg1.N) (d) : (dat1 V c).before 0 t d = blk1 V c 0 t :=
  ((dat1 V c).before_in_eq_fetched 0 rfl (fun _ => rfl) (fun _ _ _ => rfl) (fun t => by rw [dat1_after0]; unfold Dat.blockOf blk1; rw [dat1_A]; try rfl) t d).trans
    (by unfold Dat.fetched Dat.blockOf blk1; rw [dat1_A]; try rfl)
theorem found1 (c : Dev nD) (t : Fin cfg1.N) (d) : (dat1 V c).before 1 t d = blk1 V c 1 t :=
  ((dat1 V c).before_in_eq_fetched 1 rfl (fun _ => rfl) (fun _ _ _ => rfl) (fun t => by rw [dat1_after1]; unfold Dat.blockOf blk1; rw [dat1_A]; try rfl) t d).trans
    (by unfold Dat.fetched Dat.blockOf blk1; rw [dat1_A]; try rfl)
theorem found2 (c : Dev nD) (t : Fin cfg1.N) (d) : (dat1 V c).before 2 t d = blk1 V c 2 t :=
  ((dat1 V c).before_in_eq_fetched 2 rfl (fun _ => rfl) (fun _ _ _ => rfl) (fun t => by rw [dat1_after2]; unfold Dat.blockOf blk1; rw [dat1_A]; try rfl) t d).trans
    (by unfold Dat.fetched Dat.blockOf blk1; rw [dat1_A]; try rfl)

end Cert.Kernel.Flash

end
-- ==== Proof.KFlashCovers.lean ====
/-
  In each of the attention body's three cases the stores into a scratch buffer (and, at a last key block, into the
  output buffer) cover it: each list of pieces the run found tiles the buffer's shape. So what the buffer reads back
  afterwards is determined by the pieces alone, whatever it held before.
-/
import proofs.«131970_j54589034332684_2_alg».proof.Proof.KFlashFirst
import proofs.«131970_j54589034332684_2_alg».proof.Proof.KFlashMid
import proofs.«131970_j54589034332684_2_alg».proof.Proof.KFlashLast

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

theorem coverFirstM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1.Idx) :
    ∃ pc ∈ (runFirst c i arg3 harg3 arg4 harg4 arg5 harg5 arg6 harg6 arg7 harg7 arg8 harg8 arg9 harg9 hf hl xq xk xv ).1, y ∈ pc.1.set :=
  View.cover_of_tiledL (runFirst c i arg3 harg3 arg4 harg4 arg5 harg5 arg6 harg6 arg7 harg7 arg8 harg8 arg9 harg9 hf hl xq xk xv ).1 S1x1024x1.size (by sl_kernel_rfl) y
theorem coverFirstL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1.Idx) :
    ∃ pc ∈ (runFirst c i arg3 harg3 arg4 harg4 arg5 harg5 arg6 harg6 arg7 harg7 arg8 harg8 arg9 harg9 hf hl xq xk xv ).2.1, y ∈ pc.1.set :=
  View.cover_of_tiledL (runFirst c i arg3 harg3 arg4 harg4 arg5 harg5 arg6 harg6 arg7 harg7 arg8 harg8 arg9 harg9 hf hl xq xk xv ).2.1 S1x1024x1.size (by sl_kernel_rfl) y
theorem coverFirstA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1024.Idx) :
    ∃ pc ∈ (runFirst c i arg3 harg3 arg4 harg4 arg5 harg5 arg6 harg6 arg7 harg7 arg8 harg8 arg9 harg9 hf hl xq xk xv ).2.2.1, y ∈ pc.1.set :=
  View.cover_of_tiledL (runFirst c i arg3 harg3 arg4 harg4 arg5 harg5 arg6 harg6 arg7 harg7 arg8 harg8 arg9 harg9 hf hl xq xk xv ).2.2.1 S1x1024x1024.size (by sl_kernel_rfl) y
theorem coverMidM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hf hl xq xk xv s0 s1 s2).1, y ∈ pc.1.set :=
  View.cover_of_tiledL (runMid c i arg3 harg3 arg4 harg4 arg5 harg5 arg6 harg6 arg7 harg7 arg8 harg8 arg9 harg9 hf hl xq xk xv s0 s1 s2).1 S1x1024x1.size (by sl_kernel_rfl) y
theorem coverMidL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hf hl xq xk xv s0 s1 s2).2.1, y ∈ pc.1.set :=
  View.cover_of_tiledL (runMid c i arg3 harg3 arg4 harg4 arg5 harg5 arg6 harg6 arg7 harg7 arg8 harg8 arg9 harg9 hf hl xq xk xv s0 s1 s2).2.1 S1x1024x1.size (by sl_kernel_rfl) y
theorem coverMidA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runMid c i arg3 harg3 arg4 harg4 arg5 harg5 arg6 harg6 arg7 harg7 arg8 harg8 arg9 harg9 hf hl xq xk xv s0 s1 s2).2.2.1, y ∈ pc.1.set :=
  View.cover_of_tiledL (runMid c i arg3 harg3 arg4 harg4 arg5 harg5 arg6 harg6 arg7 harg7 arg8 harg8 arg9 harg9 hf hl xq xk xv s0 s1 s2).2.2.1 S1x1024x1024.size (by sl_kernel_rfl) y
theorem coverLastO (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hf hl xq xk xv s0 s1 s2).1, y ∈ pc.1.set :=
  View.cover_of_tiledL (runLast c i arg3 harg3 arg4 harg4 arg5 harg5 arg6 harg6 arg7 harg7 arg8 harg8 arg9 harg9 hf hl xq xk xv s0 s1 s2).1 S1x1024x1024.size (by sl_kernel_rfl) y
theorem coverLastM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hf hl xq xk xv s0 s1 s2).2.1, y ∈ pc.1.set :=
  View.cover_of_tiledL (runLast c i arg3 harg3 arg4 harg4 arg5 harg5 arg6 harg6 arg7 harg7 arg8 harg8 arg9 harg9 hf hl xq xk xv s0 s1 s2).2.1 S1x1024x1.size (by sl_kernel_rfl) y
theorem coverLastL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hf hl xq xk xv s0 s1 s2).2.2.1, y ∈ pc.1.set :=
  View.cover_of_tiledL (runLast c i arg3 harg3 arg4 harg4 arg5 harg5 arg6 harg6 arg7 harg7 arg8 harg8 arg9 harg9 hf hl xq xk xv s0 s1 s2).2.2.1 S1x1024x1.size (by sl_kernel_rfl) y
theorem coverLastA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hf hl xq xk xv s0 s1 s2).2.2.2.1, y ∈ pc.1.set :=
  View.cover_of_tiledL (runLast c i arg3 harg3 arg4 harg4 arg5 harg5 arg6 harg6 arg7 harg7 arg8 harg8 arg9 harg9 hf hl xq xk xv s0 s1 s2).2.2.2.1 S1x1024x1024.size (by sl_kernel_rfl) y

end Cert.Kernel.Flash

end
-- ==== Proof.KFlashOblig.lean ====
/-
  The attention pallas_call's body obligation: at every grid point, from the invariant before the point, the core
  owing nothing, and the four windows' current buffers holding what the pipeline left in them, the body runs to the
  invariant after the point and the buffers at what the proof data says it leaves — by cases on the point (first,
  middle or last key block of its query tile), each case that case's run.
-/
import proofs.«131970_j54589034332684_2_alg».proof.Proof.KFlashBody
import proofs.«131970_j54589034332684_2_alg».proof.Proof.KFlashCovers

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (mq t) fullShare ((dat1 V c).after 0 t) from by
    unfold Dat.leavesExact; rw [(live_in t).1], dat1_after0]
  rw [show (dat1 V c).leavesExact 1 t = owns (c : Thread nD τ) (mk t) fullShare ((dat1 V c).after 1 t) from by
    unfold Dat.leavesExact; rw [(live_in t).2.1], dat1_after1]
  rw [show (dat1 V c).leavesExact 2 t = owns (c : Thread nD τ) (mv t) fullShare ((dat1 V c).after 2 t) from by
    unfold Dat.leavesExact; rw [(live_in t).2.2], dat1_after2]
  have hN : t.val < 128 := lt_of_lt_of_eq t.isLt (show cfg1.N = 128 from N_1)
  by_cases h0 : t.val % 8 = 0
  · rw [Dat.leavesExact_idle (dat1 V c) 3 t (idle_out t (fun h => by have := (isLast_iff t).mp h; omega)) (noFlush_out t (fun h => by have := (isLast_iff t).mp h; omega))]
    rw [stAt_first V c t h0]
    unfold stFirst; dsimp only
    by_cases hz : t.val = 0
    · rw [dat1_Phi V c t, PhiS_zero V c _ _ hz]
      iintro ⟨HΦ, Ho, ⟨%d0, H0⟩, ⟨%d1, H1⟩, ⟨%d2, H2⟩, ⟨%d3, H3⟩⟩
      ihave HΦ' := (phiA_open (F := F) c) $$ HΦ
      icases HΦ' with ⟨HS0, HS1, HS2, HR⟩
      iapply ((runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverFirstM _ _ _ _ _ _ _ _ _ _ _ _ _ _ _ _ _ _ _ _ _)
        isplitl [HS1]
        · unfold owns; iexists _; isplitr
          swap; · iexact HS1
          ipureintro; exact View.read_writes_eq_canon _ _ _ (coverFirstL _ _ _ _ _ _ _ _ _ _ _ _ _ _ _ _ _ _ _ _ _)
        isplitl [HS2]
        · unfold owns; iexists _; isplitr
          swap; · iexact HS2
          ipureintro; exact View.read_writes_eq_canon _ _ _ (coverFirstA _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverFirstM _ _ _ _ _ _ _ _ _ _ _ _ _ _ _ _ _ _ _ _ _)
        isplitl [HS1]
        · unfold owns; iexists _; isplitr
          swap; · iexact HS1
          ipureintro; exact View.read_writes_eq_canon _ _ _ (coverFirstL _ _ _ _ _ _ _ _ _ _ _ _ _ _ _ _ _ _ _ _ _)
        isplitl [HS2]
        · unfold owns; iexists _; isplitr
          swap; · iexact HS2
          ipureintro; exact View.read_writes_eq_canon _ _ _ (coverFirstA _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
  · by_cases h7 : t.val % 8 = 7
    · rw [show (dat1 V c).leavesExact 3 t = owns (c : Thread nD τ) (mo t) fullShare ((dat1 V c).after 3 t) from by
            unfold Dat.leavesExact; rw [live_out t ((isLast_iff t).mpr h7)], dat1_after3]
      rw [stAt_last V c t h0 h7]
      unfold stLast; dsimp only
      have hz : t.val ≠ 0 := fun hz => h0 (by rw [hz])
      rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) (stAt V c (t.val - 1) (Nat.lt_of_le_of_lt (Nat.sub_le _ _) t.isLt)).m (stAt V c (t.val - 1) (Nat.lt_of_le_of_lt (Nat.sub_le _ _) t.isLt)).l (stAt V c (t.val - 1) (Nat.lt_of_le_of_lt (Nat.sub_le _ _) t.isLt)).a).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverLastM _ _ _ _ _ _ _ _ _ _ _ _ _ _ _ _ _ _ _ _ _ _ _ _)
        isplitl [HS1]
        · unfold owns; iexists _; isplitr
          swap; · iexact HS1
          ipureintro; exact View.read_writes_eq_canon _ _ _ (coverLastL _ _ _ _ _ _ _ _ _ _ _ _ _ _ _ _ _ _ _ _ _ _ _ _)
        isplitl [HS2]
        · unfold owns; iexists _; isplitr
          swap; · iexact HS2
          ipureintro; exact View.read_writes_eq_canon _ _ _ (coverLastA _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastO _ _ _ _ _ _ _ _ _ _ _ _ _ _ _ _ _ _ _ _ _ _ _ _)
    · rw [Dat.leavesExact_idle (dat1 V c) 3 t (idle_out t (fun h => h7 ((isLast_iff t).mp h))) (noFlush_out t (fun h => h7 ((isLast_iff t).mp h)))]
      rw [stAt_mid V c t h0 h7]
      unfold stMid; dsimp only
      have hz : t.val ≠ 0 := fun hz => h0 (by rw [hz])
      rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) (stAt V c (t.val - 1) (Nat.lt_of_le_of_lt (Nat.sub_le _ _) t.isLt)).m (stAt V c (t.val - 1) (Nat.lt_of_le_of_lt (Nat.sub_le _ _) t.isLt)).l (stAt V c (t.val - 1) (Nat.lt_of_le_of_lt (Nat.sub_le _ _) t.isLt)).a).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverMidM _ _ _ _ _ _ _ _ _ _ _ _ _ _ _ _ _ _ _ _ _ _ _ _)
        isplitl [HS1]
        · unfold owns; iexists _; isplitr
          swap; · iexact HS1
          ipureintro; exact View.read_writes_eq_canon _ _ _ (coverMidL _ _ _ _ _ _ _ _ _ _ _ _ _ _ _ _ _ _ _ _ _ _ _ _)
        isplitl [HS2]
        · unfold owns; iexists _; isplitr
          swap; · iexact HS2
          ipureintro; exact View.read_writes_eq_canon _ _ _ (coverMidA _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The pipeline library's body obligation, at every point. -/
theorem body1 (c : Dev nD) : BodyObligation (dat1 (F := F) V c) (defs₀ (F := F)) Variants.none () Set.univ := fun t => by
  rw [bigSep_W1, bigSep_W1]
  exact sound_body V c t

/-- What the region is entered with is the invariant before the first point. -/
theorem phi_in (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the scratch's named contents are forgotten. -/
theorem phi_out (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  exact phiA_close c _ _ _

end Cert.Kernel.Flash

end
-- ==== Proof.KFlashShare.lean ====
/-
  The attention call reads ONE array, the fused projection, through three input windows (the query, key and value
  column blocks). Holding that array whole is holding three parts of it, one per window: its share is halved, and
  one half halved again. On entry the whole is dealt out to the windows; on exit, the inputs unchanged, the three
  parts are joined back into the whole.
-/
import proofs.«131970_j54589034332684_2_alg».proof.Proof.KFlashBody

set_option maxRecDepth 16384

noncomputable section

namespace Cert.Kernel.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the call's arrays are the fused projection and the attention output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- A window's array is a whole buffer: holding it through the window's view is holding the buffer. -/
theorem arr_pt (c : Dev nD) (w : Fin cfg1.W) (n : ℕ) :
    (((cfg1.win w).arr.view.loc (c : Thread nD τ)) ↦[(cfg1.win w).arr.view.set]{(dat1 V c).share w} (dat1 V c).arrAt w n : sProp 𝕄)
      = (((c : Thread nD τ).loc (Pipeline.arrRef spec1 w)) ↦{(dat1 V c).share w} (dat1 V c).arrAt w n) := by
  rw [(arr_whole1 w).set_eq_univ]

/-- The three input windows hold the projection at a half, a quarter and a quarter of its share; the output window holds
    its array whole. -/
theorem sh0 (c : Dev nD) : (dat1 V c).share 0 = fullShare.left := rfl
theorem sh1 (c : Dev nD) : (dat1 V c).share 1 = fullShare.right.left := rfl
theorem sh2 (c : Dev nD) : (dat1 V c).share 2 = fullShare.right.right := rfl
theorem sh3 (c : Dev nD) : (dat1 V c).share 3 = fullShare := rfl

/-- At entry each window's array holds what the region finds in its buffer. -/
theorem at0 (c : Dev nD) (w : Fin cfg1.W) : (dat1 V c).arrAt w 0 = V c (Pipeline.arrRef spec1 w) := dat1_A V c w

set_option maxHeartbeats 2000000 in
/-- ENTRY: the two buffers whole are the call's arrays at the entry contents, the projection dealt among its three windows. -/
theorem arrays_in (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs_eq]
  unfold Dat.arrays
  rw [bigSep_W1]; dsimp only
  rw [arr_pt V c 0 0, arr_pt V c 1 0, arr_pt V c 2 0, arr_pt V c 3 0, sh0, sh1, sh2, sh3, at0 V c 0, at0 V c 1, at0 V c 2, at0 V c 3]
  iintro ⟨H4, H5⟩
  ihave H := (pointsTo_share (PosShare.mem_left_op_right fullShare)).1 $$ H4
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  iexact H5

set_option maxHeartbeats 2000000 in
/-- EXIT: the arrays after the last point — each input's as entered, the output's at what the write-backs left — are
    the two buffers whole again. -/
theorem arrays_out (c : Dev nD) :
    (dat1 V c).arrays ((dat1 V c).arrAt · cfg1.N)
      ⊢ (iprop((((c : Thread nD τ).loc main_v4) ↦{fullShare} V c main_v4) ∗ (((c : Thread nD τ).loc main_v5) ↦{fullShare} (dat1 V c).arrAt 3 cfg1.N)) : sProp 𝕄) := by
  unfold Dat.arrays
  rw [bigSep_W1]; dsimp only
  rw [arr_pt V c 0 cfg1.N, arr_pt V c 1 cfg1.N, arr_pt V c 2 cfg1.N, arr_pt V c 3 cfg1.N, sh0, sh1, sh2, sh3,
    (dat1 V c).arrAt_in 0 rfl, (dat1 V c).arrAt_in 1 rfl, (dat1 V c).arrAt_in 2 rfl, dat1_A V c 0, dat1_A V c 1, dat1_A V c 2]
  iintro ⟨Ha, Hb1, Hb2, H5⟩
  isplitr [H5]
  · iapply (pointsTo_share (PosShare.mem_left_op_right fullShare)).2
    isplitl [Ha]; · iexact Ha
    iapply (pointsTo_share (PosShare.mem_left_op_right fullShare.right)).2
    isplitl [Hb1]; · iexact Hb1
    iexact Hb2
  iexact H5

end Cert.Kernel.Flash

end
-- ==== Proof.KRun.lean ====
/-
  The whole program as a run of segments: host stretch, projection call, host stretch, attention call, host stretch,
  output-projection call, host stretch. Between two segments the core holds every unscoped buffer at contents
  computed from the launch memory by folding the segments before: a host stretch applies its operations; a call
  replaces its output array by what its write-backs leave (the pipeline library's fold over the grid points of the
  proof data) and changes nothing else. Beside the buffers ride the generator register, at some state, and the
  core's debt, which is nothing.
-/
import proofs.«131970_j54589034332684_2_alg».proof.Proof.KRegs02
import proofs.«131970_j54589034332684_2_alg».proof.Proof.KFlashOblig
import proofs.«131970_j54589034332684_2_alg».proof.Proof.KFlashShare
import proofs.«131970_j54589034332684_2_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.Kernel Cert.Kernel.Gen Cert.Kernel.Hand Cert.Kernel.Flash

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents a call is entered with, read at the core's own references. -/
abbrev E0 : (c : Dev nD) → (b : Ref sig .tc) → Buf (Elt F) ((c : Thread nD τ).loc b) := fun c b => V1 m c b
abbrev E1 : (c : Dev nD) → (b : Ref sig .tc) → Buf (Elt F) ((c : Thread nD τ).loc b) := fun c b => V3 m outs c b
abbrev E2 : (c : Dev nD) → (b : Ref sig .tc) → Buf (Elt F) ((c : Thread nD τ).loc b) := fun c b => V5 m outs c b

/-- What each call leaves in its output array is what the contents after it record there. -/
structure Fits : Prop where
  o0 : ∀ c, outs 2 main_v3 c = (dat0 (E0 m) c).arrAt 3 cfg0.N
  o1 : ∀ c, outs 4 main_v5 c = (dat1 (E1 m outs) c).arrAt 3 cfg1.N
  o2 : ∀ c, outs 6 main_v9 c = (dat2 (E2 m outs) c).arrAt 3 cfg2.N

/-- Every call's proof data, each at its call's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

abbrev 𝒱₀ : Variants := Variants.none
abbrev L : GSem nD τ sig → Finset Unit := fun _ => ∅
abbrev lv : GSem nD τ sig → Unit → ℕ := fun _ _ => 0
/-- What rides beside the buffers through every segment. -/
abbrev side (c : Dev nD) : sProp 𝕄 := iprop((∃ r, prngReg c r) ∗ ∃ W, owes (c : Thread nD τ) (0 : CellTallies nD τ sig Unit) W)

/-- Call 0's arrays after the call are what the contents after it hold there: the output array by the record of
    what the call leaves, an input array because the call writes none. -/
theorem fit0 (hf : Fits m outs) (c : Dev nD) (w : Fin cfg0.W) :
    (dat0 (E0 m) c).arrAt w cfg0.N = V2 m outs c (Pipeline.arrRef spec0 w) := by
  by_cases hw : w = 3
  · subst hw
    rw [← hf.o0 c]
    exact (Function.update_self (β := fun b : DevRef τ sig => Buf (Elt F) ((c : Thread nD τ).1, b)) (Proc.devRef .tc main_v3) (outs 2 main_v3 c) (V1 m c)).symm
  · rw [dat0_arrAt_in (E0 m) c w hw]
    refine (V2_of m outs c (Pipeline.arrRef spec0 w) ?_).symm
    fin_cases w <;> first | exact absurd rfl hw | decide

/-- Every other buffer is as the call found it. -/
theorem rest0 (c : Dev nD) : ∀ b, b ∉ Finset.univ.image (Pipeline.arrRef spec0) → V2 m outs c b = V1 m c b :=
  fun b hb => V2_of m outs c b (by
    intro h
    rw [List.mem_singleton] at h
    exact hb (Finset.mem_image.mpr ⟨3, Finset.mem_univ _, h.symm ▸ rfl⟩))

-- the pinned configuration unifies with the printed one only when unification may unfold plain definitions in a
-- metavariable's type
set_option backward.isDefEq.respectTransparency.types false in
/-- Call 0 as a segment: entered from every unscoped buffer at the contents before it, left at those after it; its
    arrays are split out of the unscoped buffers on entry and put back on exit; the generator register goes into the
    call's invariant and comes out; nothing is owed; the kernel has no semaphore of its own. -/
def reg0 (hf : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body0 (E0 m) c).loose
  hwaits := Pipeline.hwaits_of_owed_zero _ _ _ _ L lv 0 fun _ _ => rfl
  pre c := iprop(StableHlo.held (c : Thread nD τ) (Pipeline.ucRefs τ sig) (V1 m c) ∗ side c)
  post c := iprop(StableHlo.held (c : Thread nD τ) (Pipeline.ucRefs τ sig) (V2 m outs c) ∗ side c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E0 m c) (fun b => V2 m outs c b) ((pdats m outs 0 c).arrAt · cfg0.N) (fit0 m outs hf c) (rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2's arrays after the call are what the contents after it hold there: the output array by the record of
    what the call leaves, an input array because the call writes none. -/
theorem fit2 (hf : Fits m outs) (c : Dev nD) (w : Fin cfg2.W) :
    (dat2 (E2 m outs) c).arrAt w cfg2.N = V6 m outs c (Pipeline.arrRef spec2 w) := by
  by_cases hw : w = 3
  · subst hw
    rw [← hf.o2 c]
    exact (Function.update_self (β := fun b : DevRef τ sig => Buf (Elt F) ((c : Thread nD τ).1, b)) (Proc.devRef .tc main_v9) (outs 6 main_v9 c) (V5 m outs c)).symm
  · rw [dat2_arrAt_in (E2 m outs) c w hw]
    refine (V6_of m outs c (Pipeline.arrRef spec2 w) ?_).symm
    fin_cases w <;> first | exact absurd rfl hw | decide

/-- Every other buffer is as the call found it. -/
theorem rest2 (c : Dev nD) : ∀ b, b ∉ Finset.univ.image (Pipeline.arrRef spec2) → V6 m outs c b = V5 m outs c b :=
  fun b hb => V6_of m outs c b (by
    intro h
    rw [List.mem_singleton] at h
    exact hb (Finset.mem_image.mpr ⟨3, Finset.mem_univ _, h.symm ▸ rfl⟩))

-- the pinned configuration unifies with the printed one only when unification may unfold plain definitions in a
-- metavariable's type
set_option backward.isDefEq.respectTransparency.types false in
/-- Call 2 as a segment: entered from every unscoped buffer at the contents before it, left at those after it; its
    arrays are split out of the unscoped buffers on entry and put back on exit; the generator register goes into the
    call's invariant and comes out; nothing is owed; the kernel has no semaphore of its own. -/
def reg2 (hf : Fits m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body2 (E2 m outs) c).loose
  hwaits := Pipeline.hwaits_of_owed_zero _ _ _ _ L lv 2 fun _ _ => rfl
  pre c := iprop(StableHlo.held (c : Thread nD τ) (Pipeline.ucRefs τ sig) (V5 m outs c) ∗ side c)
  post c := iprop(StableHlo.held (c : Thread nD τ) (Pipeline.ucRefs τ sig) (V6 m outs c) ∗ side c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E2 m outs c) (fun b => V6 m outs c b) ((pdats m outs 2 c).arrAt · cfg2.N) (fit2 m outs hf c) (rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention call leaves its output array at what the contents after it record there, -/
theorem fit1 (hf : Fits m outs) (c : Dev nD) : V4 m outs c main_v5 = (dat1 (E1 m outs) c).arrAt 3 cfg1.N := by
  rw [← hf.o1 c]
  exact Function.update_self (β := fun b : DevRef τ sig => Buf (Elt F) ((c : Thread nD τ).1, b)) (Proc.devRef .tc main_v5) (outs 4 main_v5 c) (V3 m outs c)

/-- and every other buffer as it found it. -/
theorem keep1 (c : Dev nD) (b : Ref sig .tc) (hb : b ≠ main_v5) : V4 m outs c b = V3 m outs c b :=
  V4_of m outs c b (by rw [List.mem_singleton]; exact hb)

/-- A core's unscoped buffers are the two buffers behind the attention call's arrays, and the rest. -/
theorem ub_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W ∗ Pipeline.unscopedRest (Ix := Unit) (Name := ℕ) (U := UR sig nD τ) (Lvl := ℕ) spec1 c W) :=
  Pipeline.unscopedBufs_split₀ (cfgs := cfgs) (p := 1) winFacts₀1.arr_unscoped c W

-- the pinned configuration unifies with the printed one only when unification may unfold plain definitions in a
-- metavariable's type
set_option backward.isDefEq.respectTransparency.types false in
set_option maxHeartbeats 2000000 in
/-- The attention call as a segment. Its three input windows read one array: on entry that buffer's share is dealt
    among them, on exit it is joined back, the array unchanged; the output array comes back at what the write-backs
    left. The invariant takes the generator register and the scoped buffers in, and gives them back with the scratch
    buffers' contents forgotten. -/
def reg1 (hf : Fits m outs) : RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body1 (E1 m outs) c).loose
  hwaits := Pipeline.hwaits_of_owed_zero _ _ _ _ L lv 1 fun _ _ => rfl
  pre c := iprop(StableHlo.held (c : Thread nD τ) (Pipeline.ucRefs τ sig) (V3 m outs c) ∗ side c)
  post c := iprop(StableHlo.held (c : Thread nD τ) (Pipeline.ucRefs τ sig) (V4 m outs c) ∗ side c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit : (StableHlo.held (c : Thread nD τ) (Pipeline.ucRefs τ sig) (V3 m outs c) : sProp 𝕄)
        ⊢ iprop((pdats m outs 1 c).arrays ((pdats m outs 1 c).arrAt · 0) ∗ Pipeline.unscopedRest (Ix := Unit) (Name := ℕ) (U := UR sig nD τ) (Lvl := ℕ) spec1 c (E1 m outs c)) := by
      rw [← Pipeline.unscopedBufs_held, ub_split1]
      exact sep_mono (arrays_in (E1 m outs) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (phi_out (E1 m outs) c).trans ?_
    unfold Pipeline.ΦA
    iintro ⟨Hr, Hp⟩
    isplitl [Hp]; · iexact Hp
    isplitr; · iempintro
    iexact Hr
  hexit c := by
    have hjoin : (iprop((pdats m outs 1 c).arrays ((pdats m outs 1 c).arrAt · cfg1.N) ∗ Pipeline.unscopedRest (Ix := Unit) (Name := ℕ) (U := UR sig nD τ) (Lvl := ℕ) spec1 c (E1 m outs c)) : sProp 𝕄)
        ⊢ StableHlo.held (c : Thread nD τ) (Pipeline.ucRefs τ sig) (V4 m outs c) := by
      rw [← Pipeline.unscopedBufs_held, ub_split1, arrBufs_eq]
      refine sep_mono ((arrays_out (E1 m outs) c).trans (Entails.of_eq ?_)) (Entails.of_eq ?_)
      · rw [fit1 m outs hf c, keep1 m outs c main_v4 (by decide)]
      · unfold Pipeline.unscopedRest
        refine bigSep_congr fun b hb => ?_
        dsimp only
        rw [keep1 m outs c b (fun h => (Finset.mem_sdiff.mp hb).2 (Finset.mem_image.mpr ⟨3, Finset.mem_univ _, h.symm ▸ rfl⟩))]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along, the same through every segment. -/
abbrev sides : Fin 4 → Dev nD → sProp 𝕄 := fun _ c => side c

/-- The program's seven segments in order. -/
abbrev parts (hf : Fits m outs) : List (Seg (pcfgs (F := F)) adm (pdats m outs) () defs₀ 𝒱₀ L lv) :=
  [ .host (seg0 m 𝒱₀ L lv sides), .region (reg0 m outs hf), .host (seg2 m outs 𝒱₀ L lv sides), .region (reg1 m outs hf),
    .host (seg4 m outs 𝒱₀ L lv sides), .region (reg2 m outs hf), .host (seg6 m outs 𝒱₀ L lv sides) ]

/-- The last thread state without the debt: every unscoped buffer at the final contents, the generator register at some state. -/
abbrev final (c : Dev nD) : sProp 𝕄 :=
  iprop(StableHlo.held (c : Thread nD τ) (Pipeline.ucRefs τ sig) (V7 m outs c) ∗ ∃ r, prngReg c r)

-- the launch theorem's implicit arguments are found by unifying its conclusion with this one, which takes unfolding
-- plain definitions in a metavariable's type
set_option backward.isDefEq.respectTransparency.types false in
set_option maxHeartbeats 4000000 in
/-- From any memory with zero counters every weakly fair execution of the program terminates, nothing faulting, and
    the final memory holds every unscoped buffer at the last contents of the fold. -/
theorem run_all (hf : Fits m outs) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m outs c b) :=
  Pipeline.θ_run_regions_kit (pcfgs (F := F)) adm (pdats m outs) () cellOf_inj emb₁ defs₀ 𝒱₀ L lv m ρ main (parts m outs hf)
    (fun c Q => by
      rw [main_segs adm (pdats m outs) () 𝒱₀ L lv (seg0 m 𝒱₀ L lv sides) (seg2 m outs 𝒱₀ L lv sides) (seg4 m outs 𝒱₀ L lv sides) (seg6 m outs 𝒱₀ L lv sides)
        (reg0 m outs hf) (reg1 m outs hf) (reg2 m outs hf) rfl rfl rfl rfl c])
    (by simp only [parts, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c)) (Tₙ := final m outs)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (V7 m outs c) ∗ side c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m outs c b)
    (hfin := fun c s' => by
      iintro ⟨⟨Hh, -⟩, HSI⟩
      unfold StableHlo.held
      imodintro
      iapply (pointsTo_read_all (Pipeline.ucRefs τ sig) (fun b => (((c : Thread nD τ)).1, b)) (V7 m outs c) s')
      isplitl [Hh] <;> iassumption)
    (hQ := fun s h c => h c)

end Cert.Kernel.Run

end
-- ==== Proof.KOuts.lean ====
/-
  The contents the three calls leave in their output arrays, chosen one after the other — each call's from the proof
  data at the contents the calls before it left —, and with them the program's run: it terminates, faults nowhere,
  leaves every argument array as launched, and leaves the result array at the last contents of the fold.
-/
import proofs.«131970_j54589034332684_2_alg».proof.Proof.KRun

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.Kernel Cert.Kernel.Gen Cert.Kernel.Hand Cert.Kernel.Flash

variable {F : FTy → Type} [FloatOps F]

variable (m : (ℓ : Loc nD τ sig) → Buf (Elt F) ℓ)

/-- A record of what the calls leave, with the entry for item `j` and buffer `r₀` set to `x`. -/
def put (o : Outs (F := F)) (j : ℕ) (r₀ : Ref sig .tc) (x : (c : Dev nD) → Buf (Elt F) ((c : Thread nD τ).loc r₀)) : Outs (F := F) :=
  fun j' r c => if h : r = r₀ then (if j' = j then h ▸ x c else o j' r c) else o j' r c

theorem put_same (o : Outs (F := F)) (j : ℕ) (r₀ : Ref sig .tc) (x : (c : Dev nD) → Buf (Elt F) ((c : Thread nD τ).loc r₀)) (c : Dev nD) :
    put o j r₀ x j r₀ c = x c := by
  unfold put; rw [dif_pos rfl, if_pos rfl]

theorem put_other (o : Outs (F := F)) (j : ℕ) (r₀ : Ref sig .tc) (x : (c : Dev nD) → Buf (Elt F) ((c : Thread nD τ).loc r₀)) (j' : ℕ) (r : Ref sig .tc) (c : Dev nD)
    (h : j' ≠ j) : put o j r₀ x j' r c = o j' r c := by
  unfold put; split <;> first | rfl | (rw [if_neg h])

/-- A record to start from: the launch contents everywhere (never read). -/
def outs0 : Outs (F := F) := fun _ r c => m ((c : Thread nD τ).loc r)

/-- After the projection call, -/
def outsA : Outs (F := F) := put (outs0 m) 2 main_v3 fun c => (dat0 (E0 m) c).arrAt 3 cfg0.N
/-- after the attention call, -/
def outsB : Outs (F := F) := put (outsA m) 4 main_v5 fun c => (dat1 (E1 m (outsA m)) c).arrAt 3 cfg1.N
/-- after the output-projection call. -/
def outsC : Outs (F := F) := put (outsB m) 6 main_v9 fun c => (dat2 (E2 m (outsB m)) c).arrAt 3 cfg2.N

theorem outsC_2 (c : Dev nD) : outsC m 2 main_v3 c = (dat0 (E0 m) c).arrAt 3 cfg0.N := by
  unfold outsC outsB; rw [put_other _ _ _ _ _ _ _ (by decide), put_other _ _ _ _ _ _ _ (by decide)]; exact put_same _ _ _ _ c
theorem outsB_2 (c : Dev nD) : outsB m 2 main_v3 c = outsA m 2 main_v3 c := by
  unfold outsB; exact put_other _ _ _ _ _ _ _ (by decide)
theorem outsC_2' (c : Dev nD) : outsC m 2 main_v3 c = outsA m 2 main_v3 c := by
  unfold outsC; rw [put_other _ _ _ _ _ _ _ (by decide)]; exact outsB_2 m c
theorem outsC_4 (c : Dev nD) : outsC m 4 main_v5 c = outsB m 4 main_v5 c := by
  unfold outsC; exact put_other _ _ _ _ _ _ _ (by decide)

/-- The contents before the attention call read only the projection call's entry, -/
theorem V3_outsC : V3 m (outsC m) = V3 m (outsA m) := by
  funext c
  show StableHlo.after hostOps1 (Function.update (V1 m c) main_v3 (outsC m 2 main_v3 c)) = StableHlo.after hostOps1 (Function.update (V1 m c) main_v3 (outsA m 2 main_v3 c))
  rw [outsC_2']
/-- and those before the output-projection call only the first two entries. -/
theorem V5_outsC : V5 m (outsC m) = V5 m (outsB m) := by
  funext c
  show StableHlo.after hostOps2 (Function.update (StableHlo.after hostOps1 (Function.update (V1 m c) main_v3 (outsC m 2 main_v3 c))) main_v5 (outsC m 4 main_v5 c))
    = StableHlo.after hostOps2 (Function.update (StableHlo.after hostOps1 (Function.update (V1 m c) main_v3 (outsB m 2 main_v3 c))) main_v5 (outsB m 4 main_v5 c))
  rw [outsC_2', outsB_2, outsC_4]

/-- So the record fits: each entry is what its call leaves from the contents the record itself gives before it. -/
theorem fits : Fits m (outsC m) where
  o0 c := outsC_2 m c
  o1 c := by
    rw [outsC_4]
    unfold outsB; rw [put_same]
    show (dat1 (fun c b => V3 m (outsA m) c b) c).arrAt 3 cfg1.N = (dat1 (fun c b => V3 m (outsC m) c b) c).arrAt 3 cfg1.N
    rw [V3_outsC]
  o2 c := by
    unfold outsC; rw [put_same]
    show (dat2 (fun c b => V5 m (outsB m) c b) c).arrAt 3 cfg2.N = (dat2 (fun c b => V5 m (put (outsB m) 6 main_v9 fun c => (dat2 (E2 m (outsB m)) c).arrAt 3 cfg2.N) c b) c).arrAt 3 cfg2.N
    rw [show put (outsB m) 6 main_v9 (fun c => (dat2 (E2 m (outsB m)) c).arrAt 3 cfg2.N) = outsC m from rfl, V5_outsC]

/-- An unscoped buffer of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at the result and at the arguments: from any memory with zero counters every weakly fair execution
    terminates, nothing faulting; the result array ends at the fold's last contents and every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v10) = V7 m (outsC m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v10 (by decide)),
     (h c _ (mem_uc main_arg0 (by decide))).trans (V7_main_arg0 m (outsC m) c),
     (h c _ (mem_uc main_arg1 (by decide))).trans (V7_main_arg1 m (outsC m) c),
     (h c _ (mem_uc main_arg2 (by decide))).trans (V7_main_arg2 m (outsC m) c),
     (h c _ (mem_uc main_arg3 (by decide))).trans (V7_main_arg3 m (outsC m) c),
     (h c _ (mem_uc main_arg4 (by decide))).trans (V7_main_arg4 m (outsC m) c)⟩)
    (run_all m (outsC m) (fits m) ρ)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.Kernel.Run

end
-- ==== Proof.KIReg0.lean ====
/- The per-region half of the frame proof for custom_call 0 (a tiled matrix product plus bias row): at arbitrary
   buffer contents `V` found when the region is entered, the block every window holds at a grid point, what the
   body leaves in the output window's buffer, the body's triple, the pipeline's proof data and its body obligation. -/
import proofs.«131970_j54589034332684_2_alg».proof.Proof.Gen.KernelIdeal.Launch
import proofs.«131970_j54589034332684_2_alg».proof.Proof.Gen.KernelIdeal.Skeleton
import proofs.«131970_j54589034332684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's array, at the contents `V` the region starts from,
    read through the block's view. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles of the body's accesses: every load and the store take a whole staging buffer -/

/-- All of a 1024×1024 buffer: offsets zero, the buffer's own extents. -/
abbrev sqAll0 : Rect S1024x1024 := Rect.unit (s := S1024x1024) ![0, 0] S1024x1024.size inb_S1024x1024_S1024x1024_0_0

/-- All of a 1×1024 buffer. -/
abbrev rowAll0 : Rect S1x1024 := Rect.unit (s := S1x1024) ![0, 0] S1x1024.size inb_S1x1024_S1x1024_0_0

/-- The offsets `![0, 0]` are the zero function. -/
theorem offs_zero0 : (![0, 0] : Fin 2 → ℕ) = fun _ => 0 := by
  funext a; fin_cases a <;> rfl

/-! ## What the body leaves in the output window's buffer -/

/-- The output buffer after the body, as a function of the three input buffers' contents: its single store, of
    the product-plus-bias payload of the three loads, seen as a one-piece list of writes. -/
def res0 (x0 : Vec F S1024x1024 .f32) (x1 : Vec F S1024x1024 .f32) (x2 : Vec F S1x1024 .f32) : Vec F S1024x1024 .bf16 :=
  View.canon [⟨sqAll0, k0_pay1 (View.ld x0 sqAll0) (View.ld x1 sqAll0) (View.ld x2 rowAll0)⟩]

/-- The store is of the whole buffer and each load reads a whole buffer, so the buffer ends at the payload of the
    three buffers' contents themselves. -/
theorem res0_eq (x0 : Vec F S1024x1024 .f32) (x1 : Vec F S1024x1024 .f32) (x2 : Vec F S1x1024 .f32) :
    res0 x0 x1 x2 = k0_pay1 x0 x1 x2 := by
  unfold res0
  rw [View.canon_unit_zero offs_zero0]
  rw [View.ld_unit_zero (S := S1024x1024) offs_zero0, View.ld_unit_zero (S := S1024x1024) offs_zero0,
    View.ld_unit_zero (S := S1x1024) offs_zero0]

/-- The one store reaches every index of the buffer. -/
theorem store_covers0 (p : Vec F S1024x1024 .bf16) (y : S1024x1024.Idx) :
    ∃ pc ∈ ([⟨sqAll0, p⟩] : List (View.Piece (Elt F) S1024x1024 .bf16)), y ∈ pc.1.set :=
  ⟨_, List.mem_singleton_self _, View.mem_set_unit_zero offs_zero0 inb_S1024x1024_S1024x1024_0_0 y⟩

/-! ## The body's triple -/

set_option maxHeartbeats 1000000 in
/-- The body on four whole staging buffers — the three inputs' reading `x0`, `x1`, `x2`, the output's at any
    contents — reaches its continuation with the inputs' unchanged and the output's reading `res0 x0 x1 x2`:
    three loads, one more load whose value nothing reads, and the store of the payload. -/
theorem kernel0_triple (c : Dev nD) (E : Set ℕ) (i : grid0.Coords)
    (a0 : Memref sig .tc .vmem S1024x1024 .f32) (h0 : a0.IsWhole) (a1 : Memref sig .tc .vmem S1024x1024 .f32) (h1 : a1.IsWhole)
    (a2 : Memref sig .tc .vmem S1x1024 .f32) (h2 : a2.IsWhole) (a3 : Memref sig .tc .vmem S1024x1024 .bf16) (h3 : a3.IsWhole)
    (x0 : Vec F S1024x1024 .f32) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (res0 x0 x1 x2)) -∗ K ⟨⟩))
      ⊢ wp frame (wpE (defs₀ (F := F)) Variants.none c none) E (cc0__matmul_bias_kernel i a0 h0 a1 h1 a2 h2 a3 h3) K := by
  simp only [cc0__matmul_bias_kernel_eq_skeleton]; unfold cc0__matmul_bias_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers0 _)

/-! ## The pipeline's proof data -/

/-- The proof data of this pipeline on core `c`: every windowed array at the contents `V`; after the body at point
    `t` each input window's buffer at its block and the output window's at `res0` of the three input blocks; the
    invariant that of a body touching only its windows (the scoped rest and the generator register kept); whole
    shares, nothing owed. -/
def dat0 (c : Dev nD) : Pipeline.Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => res0 (blk0 V c 0 t) (blk0 V c 1 t) (blk0 V c 2 t)
  Φ _ := Pipeline.ΦA spec0 c
  q _ := fullShare
  owed _ := 0

/-- The data's arrays are `V`'s. -/
theorem dat0_A (c : Dev nD) (w : Fin cfg0.W) : (dat0 V c).A w = V c (Pipeline.arrRef spec0 w) := by
  dsimp only [dat0]

/-- After the body the output window's buffer reads `res0` of the input blocks. -/
theorem dat0_after3 (c : Dev nD) (t : Fin cfg0.N) :
    (dat0 V c).after 3 t = res0 (blk0 V c 0 t) (blk0 V c 1 t) (blk0 V c 2 t) := by
  dsimp only [dat0]

/-- After the body each input window's buffer still reads its block. -/
theorem dat0_after_in (c : Dev nD) (t : Fin cfg0.N) :
    (dat0 V c).after 0 t = blk0 V c 0 t ∧ (dat0 V c).after 1 t = blk0 V c 1 t ∧ (dat0 V c).after 2 t = blk0 V c 2 t := by
  refine ⟨?_, ?_, ?_⟩ <;> dsimp only [dat0]

/-! ## What the body finds in the input windows' buffers

An input window is not fetched at every point (the weight's column block and the bias row only when the column
index moves); where it is not, its block index is that of the point before and the body left the block in place,
so the buffer reads the point's block all the same. -/

theorem found0_0 (c : Dev nD) (t : Fin cfg0.N) (d) : (dat0 V c).before 0 t d = blk0 V c 0 t :=
  ((dat0 V c).before_in_eq_fetched 0 rfl (fun _ => rfl) (fun _ _ _ => rfl)
      (fun t => by rw [(dat0_after_in V c t).1]; unfold Pipeline.Dat.blockOf blk0; rw [dat0_A]; try rfl) t d).trans
    (by unfold Pipeline.Dat.fetched Pipeline.Dat.blockOf blk0; rw [dat0_A]; try rfl)

theorem found0_1 (c : Dev nD) (t : Fin cfg0.N) (d) : (dat0 V c).before 1 t d = blk0 V c 1 t :=
  ((dat0 V c).before_in_eq_fetched 1 rfl (fun _ => rfl) (fun _ _ _ => rfl)
      (fun t => by rw [(dat0_after_in V c t).2.1]; unfold Pipeline.Dat.blockOf blk0; rw [dat0_A]; try rfl) t d).trans
    (by unfold Pipeline.Dat.fetched Pipeline.Dat.blockOf blk0; rw [dat0_A]; try rfl)

theorem found0_2 (c : Dev nD) (t : Fin cfg0.N) (d) : (dat0 V c).before 2 t d = blk0 V c 2 t :=
  ((dat0 V c).before_in_eq_fetched 2 rfl (fun _ => rfl) (fun _ _ _ => rfl)
      (fun t => by rw [(dat0_after_in V c t).2.2]; unfold Pipeline.Dat.blockOf blk0; rw [dat0_A]; try rfl) t d).trans
    (by unfold Pipeline.Dat.fetched Pipeline.Dat.blockOf blk0; rw [dat0_A]; try rfl)

/-! ## The body obligation -/

/-- The precondition the pipeline calls the body under at point `t`, its four windows written out, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and the postcondition it must return. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at a point: its input buffers read their blocks (`found0_*`), so the triple applies; the invariant
    and what the core owes are not touched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [found0_0, found0_1, found0_2]
  rw [show (dat0 V c).Φ t.succ = (dat0 V c).Φ t.castSucc from rfl,
    show (dat0 V c).owesAt () t.succ = (dat0 V c).owesAt () t.castSucc from rfl,
    (dat0_after_in V c t).1, (dat0_after_in V c t).2.1, (dat0_after_in V c t).2.2, dat0_after3]
  iintro ⟨HΦ, Ho, ⟨%d0, H0⟩, ⟨%d1, H1⟩, ⟨%d2, H2⟩, ⟨%d3, H3⟩⟩
  iapply (kernel0_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for this proof data. -/
theorem body0 (c : Dev nD) : Pipeline.BodyObligation (dat0 (F := F) V c) (defs₀ (F := F)) Variants.none () Set.univ := fun t => by
  rw [bigSep_W0, bigSep_W0]
  exact body0_at V c t

end Cert.KernelIdeal.Hand

end
-- ==== Proof.KIReg2.lean ====
/- The per-region half of the frame proof for custom_call 2 (a tiled matrix product plus bias row): at arbitrary
   buffer contents `V` found when the region is entered, the block every window holds at a grid point, what the
   body leaves in the output window's buffer, the body's triple, the pipeline's proof data and its body obligation. -/
import proofs.«131970_j54589034332684_2_alg».proof.Proof.Gen.KernelIdeal.Launch
import proofs.«131970_j54589034332684_2_alg».proof.Proof.Gen.KernelIdeal.Skeleton
import proofs.«131970_j54589034332684_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- The block of window `w` at grid point `t`: the window's array, at the contents `V` the region starts from,
    read through the block's view. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles of the body's accesses: every load and the store take a whole staging buffer -/

/-- All of a 1024×1024 buffer: offsets zero, the buffer's own extents. -/
abbrev sqAll2 : Rect S1024x1024 := Rect.unit (s := S1024x1024) ![0, 0] S1024x1024.size inb_S1024x1024_S1024x1024_0_0

/-- All of a 1×1024 buffer. -/
abbrev rowAll2 : Rect S1x1024 := Rect.unit (s := S1x1024) ![0, 0] S1x1024.size inb_S1x1024_S1x1024_0_0

/-- The offsets `![0, 0]` are the zero function. -/
theorem offs_zero2 : (![0, 0] : Fin 2 → ℕ) = fun _ => 0 := by
  funext a; fin_cases a <;> rfl

/-! ## What the body leaves in the output window's buffer -/

/-- The output buffer after the body, as a function of the three input buffers' contents: its single store, of
    the product-plus-bias payload of the three loads, seen as a one-piece list of writes. -/
def res2 (x0 : Vec F S1024x1024 .bf16) (x1 : Vec F S1024x1024 .f32) (x2 : Vec F S1x1024 .f32) : Vec F S1024x1024 .f32 :=
  View.canon [⟨sqAll2, k2_pay1 (View.ld x0 sqAll2) (View.ld x1 sqAll2) (View.ld x2 rowAll2)⟩]

/-- The store is of the whole buffer and each load reads a whole buffer, so the buffer ends at the payload of the
    three buffers' contents themselves. -/
theorem res2_eq (x0 : Vec F S1024x1024 .bf16) (x1 : Vec F S1024x1024 .f32) (x2 : Vec F S1x1024 .f32) :
    res2 x0 x1 x2 = k2_pay1 x0 x1 x2 := by
  unfold res2
  rw [View.canon_unit_zero offs_zero2]
  rw [View.ld_unit_zero (S := S1024x1024) offs_zero2, View.ld_unit_zero (S := S1024x1024) offs_zero2,
    View.ld_unit_zero (S := S1x1024) offs_zero2]

/-- The one store reaches every index of the buffer. -/
theorem store_covers2 (p : Vec F S1024x1024 .f32) (y : S1024x1024.Idx) :
    ∃ pc ∈ ([⟨sqAll2, p⟩] : List (View.Piece (Elt F) S1024x1024 .f32)), y ∈ pc.1.set :=
  ⟨_, List.mem_singleton_self _, View.mem_set_unit_zero offs_zero2 inb_S1024x1024_S1024x1024_0_0 y⟩

/-! ## The body's triple -/

set_option maxHeartbeats 1000000 in
/-- The body on four whole staging buffers — the three inputs' reading `x0`, `x1`, `x2`, the output's at any
    contents — reaches its continuation with the inputs' unchanged and the output's reading `res2 x0 x1 x2`:
    three loads, one more load whose value nothing reads, and the store of the payload. -/
theorem kernel2_triple (c : Dev nD) (E : Set ℕ) (i : grid2.Coords)
    (a0 : Memref sig .tc .vmem S1024x1024 .bf16) (h0 : a0.IsWhole) (a1 : Memref sig .tc .vmem S1024x1024 .f32) (h1 : a1.IsWhole)
    (a2 : Memref sig .tc .vmem S1x1024 .f32) (h2 : a2.IsWhole) (a3 : Memref sig .tc .vmem S1024x1024 .f32) (h3 : a3.IsWhole)
    (x0 : Vec F S1024x1024 .bf16) (x1 : Vec F S1024x1024 .f32) (x2 : Vec F S1x1024 .f32) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d)
        ∗ (iprop(owns (c : Thread nD τ) a0 fullShare x0 ∗ owns (c : Thread nD τ) a1 fullShare x1 ∗ owns (c : Thread nD τ) a2 fullShare x2
            ∗ owns (c : Thread nD τ) a3 fullShare (res2 x0 x1 x2)) -∗ K ⟨⟩))
      ⊢ wp frame (wpE (defs₀ (F := F)) Variants.none c none) E (cc2__matmul_bias_kernel i a0 h0 a1 h1 a2 h2 a3 h3) K := by
  simp only [cc2__matmul_bias_kernel_eq_skeleton]; unfold cc2__matmul_bias_kernel_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers2 _)

/-! ## The pipeline's proof data -/

/-- The proof data of this pipeline on core `c`: every windowed array at the contents `V`; after the body at point
    `t` each input window's buffer at its block and the output window's at `res2` of the three input blocks; the
    invariant that of a body touching only its windows (the scoped rest and the generator register kept); whole
    shares, nothing owed. -/
def dat2 (c : Dev nD) : Pipeline.Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

/-- The data's arrays are `V`'s. -/
theorem dat2_A (c : Dev nD) (w : Fin cfg2.W) : (dat2 V c).A w = V c (Pipeline.arrRef spec2 w) := by
  dsimp only [dat2]

/-- After the body the output window's buffer reads `res2` of the input blocks. -/
theorem dat2_after3 (c : Dev nD) (t : Fin cfg2.N) :
    (dat2 V c).after 3 t = res2 (blk2 V c 0 t) (blk2 V c 1 t) (blk2 V c 2 t) := by
  dsimp only [dat2]

/-- After the body each input window's buffer still reads its block. -/
theorem dat2_after_in (c : Dev nD) (t : Fin cfg2.N) :
    (dat2 V c).after 0 t = blk2 V c 0 t ∧ (dat2 V c).after 1 t = blk2 V c 1 t ∧ (dat2 V c).after 2 t = blk2 V c 2 t := by
  refine ⟨?_, ?_, ?_⟩ <;> dsimp only [dat2]

/-! ## What the body finds in the input windows' buffers

An input window is not fetched at every point (the weight's column block and the bias row only when the column
index moves); where it is not, its block index is that of the point before and the body left the block in place,
so the buffer reads the point's block all the same. -/

theorem found2_0 (c : Dev nD) (t : Fin cfg2.N) (d) : (dat2 V c).before 0 t d = blk2 V c 0 t :=
  ((dat2 V c).before_in_eq_fetched 0 rfl (fun _ => rfl) (fun _ _ _ => rfl)
      (fun t => by rw [(dat2_after_in V c t).1]; unfold Pipeline.Dat.blockOf blk2; rw [dat2_A]; try rfl) t d).trans
    (by unfold Pipeline.Dat.fetched Pipeline.Dat.blockOf blk2; rw [dat2_A]; try rfl)

theorem found2_1 (c : Dev nD) (t : Fin cfg2.N) (d) : (dat2 V c).before 1 t d = blk2 V c 1 t :=
  ((dat2 V c).before_in_eq_fetched 1 rfl (fun _ => rfl) (fun _ _ _ => rfl)
      (fun t => by rw [(dat2_after_in V c t).2.1]; unfold Pipeline.Dat.blockOf blk2; rw [dat2_A]; try rfl) t d).trans
    (by unfold Pipeline.Dat.fetched Pipeline.Dat.blockOf blk2; rw [dat2_A]; try rfl)

theorem found2_2 (c : Dev nD) (t : Fin cfg2.N) (d) : (dat2 V c).before 2 t d = blk2 V c 2 t :=
  ((dat2 V c).before_in_eq_fetched 2 rfl (fun _ => rfl) (fun _ _ _ => rfl)
      (fun t => by rw [(dat2_after_in V c t).2.2]; unfold Pipeline.Dat.blockOf blk2; rw [dat2_A]; try rfl) t d).trans
    (by unfold Pipeline.Dat.fetched Pipeline.Dat.blockOf blk2; rw [dat2_A]; try rfl)

/-! ## The body obligation -/

/-- The precondition the pipeline calls the body under at point `t`, its four windows written out, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and the postcondition it must return. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at a point: its input buffers read their blocks (`found2_*`), so the triple applies; the invariant
    and what the core owes are not touched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [found2_0, found2_1, found2_2]
  rw [show (dat2 V c).Φ t.succ = (dat2 V c).Φ t.castSucc from rfl,
    show (dat2 V c).owesAt () t.succ = (dat2 V c).owesAt () t.castSucc from rfl,
    (dat2_after_in V c t).1, (dat2_after_in V c t).2.1, (dat2_after_in V c t).2.2, dat2_after3]
  iintro ⟨HΦ, Ho, ⟨%d0, H0⟩, ⟨%d1, H1⟩, ⟨%d2, H2⟩, ⟨%d3, H3⟩⟩
  iapply (kernel2_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation for this proof data. -/
theorem body2 (c : Dev nD) : Pipeline.BodyObligation (dat2 (F := F) V c) (defs₀ (F := F)) Variants.none () Set.univ := fun t => by
  rw [bigSep_W2, bigSep_W2]
  exact body2_at V c t

end Cert.KernelIdeal.Hand

end
-- ==== Proof.KIRegs02.lean ====
/- Facts about the proof data of custom_call 0 and custom_call 2 that the run's region records use: shares, the
   input arrays' contents through the write-backs, the invariant and the owed tallies. -/
import proofs.«131970_j54589034332684_2_alg».proof.Proof.KIReg0
import proofs.«131970_j54589034332684_2_alg».proof.Proof.KIReg2
import Idealize.ShloMosaic.Lib.Pipeline.Kit
import Idealize.ShloMosaic.Lib.Pipeline.Cells

noncomputable section

namespace Cert.KernelIdeal.Hand

open Idealize.ShloMosaic Idealize.ShloMosaic.TcCoe
open Idealize.SL Idealize.SL.RA Idealize.SL.BI
open scoped Idealize.SL.BI
open Idealize.SL.Sem
open Cert.KernelIdeal Cert.KernelIdeal.Gen

variable {F : FTy → Type} [FloatOps F]

variable (V : (c : Dev nD) → (b : Ref sig .tc) → Buf (Elt F) ((c : Thread nD τ).loc b))

/-! ## custom_call 0 -/

/-- Every windowed array is held at the whole share: the inputs' by the proof data's choice, the output's always. -/
theorem dat0_share (c : Dev nD) : ∀ w, (dat0 V c).share w = fullShare :=
  (dat0 V c).share_full fun _ => rfl

/-- An input window's array is never written back: at every point count it is still what the region found. -/
theorem dat0_arrAt_in (c : Dev nD) (w : Fin cfg0.W) (hw : w ≠ 3) (n : ℕ) :
    (dat0 V c).arrAt w n = V c (Pipeline.arrRef spec0 w) := by
  have hin : (cfg0.win w).isOut = false := by
    revert hw; revert w; decide
  exact ((dat0 V c).arrAt_in w hin n).trans (dat0_A V c w)

/-- The invariant is the same at every point: that of a body touching only its windows. -/
theorem dat0_Phi (c : Dev nD) (t : Fin (cfg0.N + 1)) : (dat0 V c).Φ t = Pipeline.ΦA spec0 c := rfl

/-- Nothing is ever owed. -/
theorem dat0_owed (c : Dev nD) (t : Fin (cfg0.N + 1)) : (dat0 V c).owed t = 0 := rfl

/-! ## custom_call 2 -/

/-- Every windowed array is held at the whole share: the inputs' by the proof data's choice, the output's always. -/
theorem dat2_share (c : Dev nD) : ∀ w, (dat2 V c).share w = fullShare :=
  (dat2 V c).share_full fun _ => rfl

/-- An input window's array is never written back: at every point count it is still what the region found. -/
theorem dat2_arrAt_in (c : Dev nD) (w : Fin cfg2.W) (hw : w ≠ 3) (n : ℕ) :
    (dat2 V c).arrAt w n = V c (Pipeline.arrRef spec2 w) := by
  have hin : (cfg2.win w).isOut = false := by
    revert hw; revert w; decide
  exact ((dat2 V c).arrAt_in w hin n).trans (dat2_A V c w)

/-- The invariant is the same at every point: that of a body touching only its windows. -/
theorem dat2_Phi (c : Dev nD) (t : Fin (cfg2.N + 1)) : (dat2 V c).Φ t = Pipeline.ΦA spec2 c := rfl

/-- Nothing is ever owed. -/
theorem dat2_owed (c : Dev nD) (t : Fin (cfg2.N + 1)) : (dat2 V c).owed t = 0 := rfl

end Cert.KernelIdeal.Hand

end
-- ==== Proof.KIFlashDefs.lean ====
/-
  The attention pallas_call (a flash-attention body over a grid of batch × query tile × key block): what its three
  control cases are stated over. The body branches twice on the key-block coordinate: at the first key block it
  resets the running maximum, the running denominator and the running numerator it keeps in scratch; at the last
  key block it divides the numerator by the denominator and stores the quotient into the output block. Between the
  two it only updates the three running quantities. So a grid point is in one of three cases: first block,
  middle block, last block.
-/
import proofs.«131970_j54589034332684_2_alg».proof.Proof.Gen.KernelIdeal.Launch
import proofs.«131970_j54589034332684_2_alg».proof.Proof.Gen.KernelIdeal.Skeleton
import proofs.«131970_j54589034332684_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken exactly when the key-block coordinate is 0 (the scalar chain of the printed
    condition, over the grid coordinates). -/
abbrev isFirst (i : grid1.Coords) : Prop :=
  (Scalar.cmpi .ne (Scalar.extui (Scalar.cmpi .eq (BitVec.ofNat 32 (i 2).val) 0#32)) 0#32) = 1#1
/-- Over the grid of 4 × 4 × 8 points, in row-major order, that is the points ≡ 0 (mod 8). -/
theorem isFirst_iff : ∀ t : Fin cfg1.N, isFirst (grid1.coords t) ↔ t.val % 8 = 0 :=
  (by decide +kernel : ∀ t : Fin grid1.N, isFirst (grid1.coords t) ↔ t.val % 8 = 0)

/-- The body's second branch is taken exactly when the key-block coordinate is 7, the last. -/
abbrev isLast (i : grid1.Coords) : Prop := k1_cond2 i = 1#1
/-- That is the points ≡ 7 (mod 8). -/
theorem isLast_iff : ∀ t : Fin cfg1.N, isLast (grid1.coords t) ↔ t.val % 8 = 7 :=
  (by decide +kernel : ∀ t : Fin grid1.N, isLast (grid1.coords t) ↔ t.val % 8 = 7)

/-- The input windows are never idle. -/
theorem live_in : ∀ t : Fin cfg1.N, cfg1.idle 0 (grid1.coords t) = false ∧ cfg1.idle 1 (grid1.coords t) = false ∧ cfg1.idle 2 (grid1.coords t) = false := by decide +kernel
/-- Away from the last key block the output window is idle, and its block is not written back. -/
theorem idle_out : ∀ t : Fin cfg1.N, ¬isLast (grid1.coords t) → cfg1.idle 3 (grid1.coords t) = true := by decide +kernel
theorem noFlush_out : ∀ t : Fin cfg1.N, ¬isLast (grid1.coords t) → (cfg1.win 3).flush t = false := by decide +kernel
/-- At the last key block it is live. -/
theorem live_out : ∀ t : Fin cfg1.N, isLast (grid1.coords t) → cfg1.idle 3 (grid1.coords t) = false := by decide +kernel

/-- Each window's current staging memref at a point, as the pipeline passes it, and its wholeness. -/
abbrev mq (t : Fin cfg1.N) : Memref sig .tc .vmem S1x1024x1024 .bf16 := win1_0.stage (cfg1.slots t 0)
abbrev hq (t : Fin cfg1.N) : (mq t).IsWhole := hstage1_0 ((cfg1.slots t 0).cast nbuf1_0)
abbrev mk (t : Fin cfg1.N) : Memref sig .tc .vmem S1x512x1024 .bf16 := win1_1.stage (cfg1.slots t 1)
abbrev hk (t : Fin cfg1.N) : (mk t).IsWhole := hstage1_1 ((cfg1.slots t 1).cast nbuf1_1)
abbrev mv (t : Fin cfg1.N) : Memref sig .tc .vmem S1x512x1024 .bf16 := win1_2.stage (cfg1.slots t 2)
abbrev hv (t : Fin cfg1.N) : (mv t).IsWhole := hstage1_2 ((cfg1.slots t 2).cast nbuf1_2)
abbrev mo (t : Fin cfg1.N) : Memref sig .tc .vmem S1x1024x1024 .bf16 := win1_3.stage (cfg1.slots t 3)
abbrev ho (t : Fin cfg1.N) : (mo t).IsWhole := hstage1_3 ((cfg1.slots t 3).cast nbuf1_3)
/-- The three scratch operands: the running maximum, the running denominator, the running numerator. -/
abbrev sM : Memref sig .tc .vmem S1x1024x1 .f32 := Memref.whole cc1_scratch0
abbrev sL : Memref sig .tc .vmem S1x1024x1 .f32 := Memref.whole cc1_scratch1
abbrev sA : Memref sig .tc .vmem S1x1024x1024 .f32 := Memref.whole cc1_scratch2
/-- One staging buffer of the output window, through which its contents are stated. -/
abbrev vO : View sig .tc .vmem S1x1024x1024 .bf16 := (Memref.whole cc1_stg3_0 : Memref sig .tc .vmem S1x1024x1024 .bf16).view

end Cert.KernelIdeal.Flash

end
-- ==== Proof.KIFlashFirst.lean ====
/-
  The attention body at the FIRST key block of a query tile: it resets the running maximum to -inf and the running
  denominator and numerator to 0 in scratch, whatever they held, and then updates the three from the query, key and
  value blocks. Stated as the
  body's triple on whole memrefs; what each scratch buffer ends holding is the list of pieces the run finds.
-/
import proofs.«131970_j54589034332684_2_alg».proof.Proof.KIFlashDefs

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first key block: from the three input blocks at their contents, the output buffer at given contents and the
    three scratch buffers at anything, the body runs to the continuation with the inputs
    as they were, the output buffer untouched, and each scratch buffer with the pieces found written. -/
noncomputable def runFirst (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16) :
    Σ' (L0 : List (View.Piece (Elt F) S1x1024x1 .f32)) (L1 : List (View.Piece (Elt F) S1x1024x1 .f32)), { L2 : List (View.Piece (Elt F) S1x1024x1024 .f32) //
      ∀ (xo : Vec F S1x1024x1024 .bf16) (E : Set ℕ) (K : PUnit → sProp 𝕄),
        iprop(owns (c : Thread nD τ) arg3 fullShare xq ∗ owns (c : Thread nD τ) arg4 fullShare xk ∗ owns (c : Thread nD τ) arg5 fullShare xv
            ∗ owns (c : Thread nD τ) arg6 fullShare xo
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare xq ∗ owns (c : Thread nD τ) arg4 fullShare xk ∗ owns (c : Thread nD τ) arg5 fullShare xv
                ∗ owns (c : Thread nD τ) arg6 fullShare xo
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg3.eq_unread hf3; obtain rfl := harg4.eq_unread hf4; obtain rfl := harg5.eq_unread hf5
    obtain rfl := harg6.eq_unread hf6
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Flash

end
-- ==== Proof.KIFlashMid.lean ====
/-
  The attention body at a MIDDLE key block (neither the first nor the last): it only updates the running maximum, the
  running denominator and the running numerator in scratch from the query, key and value blocks. Stated as the
  body's triple on whole memrefs; what each scratch buffer ends holding is the list of pieces the run finds.
-/
import proofs.«131970_j54589034332684_2_alg».proof.Proof.KIFlashDefs

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle key block: from the three input blocks at their contents, the output buffer at given contents and the
    three scratch buffers at the contents the point before left, the body runs to the continuation with the inputs
    as they were, the output buffer untouched, and each scratch buffer with the pieces found written. -/
noncomputable def runMid (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16)
    (s0 : Vec F S1x1024x1 .f32) (s1 : Vec F S1x1024x1 .f32) (s2 : Vec F S1x1024x1024 .f32) :
    Σ' (L0 : List (View.Piece (Elt F) S1x1024x1 .f32)) (L1 : List (View.Piece (Elt F) S1x1024x1 .f32)), { L2 : List (View.Piece (Elt F) S1x1024x1024 .f32) //
      ∀ (xo : Vec F S1x1024x1024 .bf16) (E : Set ℕ) (K : PUnit → sProp 𝕄),
        iprop(owns (c : Thread nD τ) arg3 fullShare xq ∗ owns (c : Thread nD τ) arg4 fullShare xk ∗ owns (c : Thread nD τ) arg5 fullShare xv
            ∗ owns (c : Thread nD τ) arg6 fullShare xo
            ∗ owns (c : Thread nD τ) arg7 fullShare s0 ∗ owns (c : Thread nD τ) arg8 fullShare s1 ∗ owns (c : Thread nD τ) arg9 fullShare s2
            ∗ (iprop(owns (c : Thread nD τ) arg3 fullShare xq ∗ owns (c : Thread nD τ) arg4 fullShare xk ∗ owns (c : Thread nD τ) arg5 fullShare xv
                ∗ owns (c : Thread nD τ) arg6 fullShare xo
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, fun xo E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8; obtain rfl := harg9.eq_unread hf9
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    iexists _; iexact H9

end Cert.KernelIdeal.Flash

end
-- ==== Proof.KIFlashLast.lean ====
/-
  The attention body at the LAST key block of a query tile: it updates the running maximum, denominator and numerator
  in scratch from the query, key and value blocks, and then stores the numerator divided by the denominator into the
  output block. Stated as the
  body's triple on whole memrefs; what each scratch buffer ends holding is the list of pieces the run finds.
-/
import proofs.«131970_j54589034332684_2_alg».proof.Proof.KIFlashDefs

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the last key block: from the three input blocks at their contents, the output buffer at anything and the
    three scratch buffers at the contents the point before left, the body runs to the continuation with the inputs
    as they were, and the output buffer and each scratch buffer with the pieces found written. -/
noncomputable def runLast (c : Dev nD) (i : grid1.Coords)
    (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16)
    (s0 : Vec F S1x1024x1 .f32) (s1 : Vec F S1x1024x1 .f32) (s2 : Vec F S1x1024x1024 .f32) :
    Σ' (L6 : List (View.Piece (Elt F) S1x1024x1024 .bf16)) (L0 : List (View.Piece (Elt F) S1x1024x1 .f32)) (L1 : List (View.Piece (Elt F) S1x1024x1 .f32)), { L2 : List (View.Piece (Elt F) S1x1024x1024 .f32) //
      ∀ (E : Set ℕ) (K : PUnit → sProp 𝕄),
        iprop(owns (c : Thread nD τ) arg3 fullShare xq ∗ owns (c : Thread nD τ) arg4 fullShare xk ∗ owns (c : Thread nD τ) arg5 fullShare xv
            ∗ (∃ d, owns (c : Thread nD τ) arg6 fullShare d)
            ∗ owns (c : Thread nD τ) arg7 fullShare s0 ∗ owns (c : Thread nD τ) arg8 fullShare s1 ∗ owns (c : Thread nD τ) arg9 fullShare s2
            ∗ (iprop(owns (c : Thread nD τ) arg3 fullShare xq ∗ owns (c : Thread nD τ) arg4 fullShare xk ∗ owns (c : Thread nD τ) arg5 fullShare xv
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L0)
                ∗ (∃ f, arg8.view.loc (c : Thread nD τ) ↦[arg8.view.set]{fullShare} arg8.view.writes (Elt F) f L1)
                ∗ (∃ f, arg9.view.loc (c : Thread nD τ) ↦[arg9.view.set]{fullShare} arg9.view.writes (Elt F) f L2)) -∗ K ⟨⟩))
          ⊢ wp frame (wpE (defs₀ (F := F)) Variants.none c none) E (cc1__flash_kernel i arg3 harg3 arg4 harg4 arg5 harg5 arg6 harg6 arg7 harg7 arg8 harg8 arg9 harg9) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
    obtain rfl := harg3.eq_unread hf3; obtain rfl := harg4.eq_unread hf4; obtain rfl := harg5.eq_unread hf5
    obtain rfl := harg7.eq_unread hf7; obtain rfl := harg8.eq_unread hf8; obtain rfl := harg9.eq_unread hf9
    sl_exec (disch := first | exact hf | exact hl)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; iexact H6
    isplitl [H7]; · iexists _; iexact H7
    isplitl [H8]; · iexists _; iexact H8
    iexists _; iexact H9

end Cert.KernelIdeal.Flash

end
-- ==== Proof.KIFlashData.lean ====
/-
  The attention pallas_call point by point: what the output buffer and the three scratch buffers (running maximum,
  running denominator, running numerator) hold after each grid point, by recursion on the point — at the first key
  block of a query tile the scratch restarts from the reset values, at every later block it continues from what the
  point before left, and at the last block the output buffer receives the quotient —, the pipeline's proof data over
  it, and the body obligation: at every point the body, called on the blocks the pipeline staged and on the scratch
  as the point before left it, leaves exactly that.
-/
import proofs.«131970_j54589034332684_2_alg».proof.Proof.KIFlashFirst
import proofs.«131970_j54589034332684_2_alg».proof.Proof.KIFlashMid
import proofs.«131970_j54589034332684_2_alg».proof.Proof.KIFlashLast

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output buffer (`o`) and the scratch buffers — running maximum `m`, running denominator `l`, running
    numerator `a` — hold after a point. -/
structure St (F : FTy → Type) where
  o : Vec F S1x1024x1024 .bf16
  m : Vec F S1x1024x1 .f32
  l : Vec F S1x1024x1 .f32
  a : Vec F S1x1024x1024 .f32

/-- Contents nothing reads: the output buffer's at a point that stores nothing into it. -/
def noO : Vec F S1x1024x1024 .bf16 := View.canon []
def noSt : St F := ⟨noO, View.canon [], View.canon [], View.canon []⟩

/-- After a first key block: the scratch restarted and updated from the point's blocks. -/
def stFirst (c : Dev nD) (t : Fin cfg1.N) (h0 : t.val % 8 = 0) : St F :=
  ⟨noO,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).1,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.1,
   View.canon (runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.1⟩

/-- After a middle key block: the scratch updated from the point's blocks over what the point before left. -/
def stMid (c : Dev nD) (t : Fin cfg1.N) (h0 : ¬t.val % 8 = 0) (h7 : ¬t.val % 8 = 7) (p : St F) : St F :=
  ⟨noO,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).1,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).2.1,
   View.canon (runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) p.m p.l p.a).2.2.1⟩

/-- After a last key block: the same update, and the output buffer at the quotient the body stored. -/
def stLast (c : Dev nD) (t : Fin cfg1.N) (h0 : ¬t.val % 8 = 0) (h7 : t.val % 8 = 7) (p : St F) : St F :=
  ⟨View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.2.1,
   View.canon (runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) p.m p.l p.a).2.2.2.1⟩

/-- One point's effect on the state, by the point's case. -/
def stStep (c : Dev nD) (t : Fin cfg1.N) (p : St F) : St F :=
  if h0 : t.val % 8 = 0 then stFirst V c t h0
  else if h7 : t.val % 8 = 7 then stLast V c t h0 h7 p else stMid V c t h0 h7 p

/-- The state after point `n`, by recursion on the point. -/
def stAt (c : Dev nD) : (n : ℕ) → n < cfg1.N → St F
  | 0, h => stStep V c ⟨0, h⟩ noSt
  | n + 1, h => stStep V c ⟨n + 1, h⟩ (stAt c n (Nat.lt_of_succ_lt h))

theorem stAt_first (c : Dev nD) (t : Fin cfg1.N) (h0 : t.val % 8 = 0) : stAt V c t.val t.isLt = stFirst V c t h0 := by
  obtain ⟨n, hn⟩ := t
  cases n with
  | zero => exact (show stStep V c ⟨0, hn⟩ noSt = stFirst V c ⟨0, hn⟩ h0 from dif_pos h0)
  | succ n => exact (show stStep V c ⟨n + 1, hn⟩ _ = stFirst V c ⟨n + 1, hn⟩ h0 from dif_pos h0)

theorem stAt_mid (c : Dev nD) (t : Fin cfg1.N) (h0 : ¬t.val % 8 = 0) (h7 : ¬t.val % 8 = 7) :
    stAt V c t.val t.isLt = stMid V c t h0 h7 (stAt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h7)

theorem stAt_last (c : Dev nD) (t : Fin cfg1.N) (h0 : ¬t.val % 8 = 0) (h7 : t.val % 8 = 7) :
    stAt V c t.val t.isLt = stLast V c t h0 h7 (stAt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h7)

end Cert.KernelIdeal.Flash

end
-- ==== Proof.KIFlashBody.lean ====
/-
  The attention pallas_call's proof data and body obligation. The region's invariant between two points is the
  scoped buffers no window stages and the generator register, with the three scratch buffers at what the point
  before left in them; before the first point they are at anything. At a point the body finds the query, key and
  value blocks in the input windows' buffers (fetched there or kept from an earlier point with the same block
  index), runs in the point's case, and leaves the scratch at the recursion's next value; the output window's
  buffer is touched at a last key block only, where it receives the block that is then written back.
-/
import proofs.«131970_j54589034332684_2_alg».proof.Proof.KIFlashData

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The invariant -/

/-- A scoped buffer held whole at some contents. -/
abbrev someAt (c : Dev nD) (b : Ref sig .tc) : sProp 𝕄 :=
  iprop(∃ f : Buf (Elt F) ((c : Thread nD τ).loc b), ((c : Thread nD τ).loc b) ↦{fullShare} f)

/-- The scoped buffers that are neither a staging buffer of this call nor one of its three scratch buffers (the other
    two calls' staging buffers), each at some contents, and the generator register at some state. -/
def others (c : Dev nD) : sProp 𝕄 :=
  iprop((someAt (F := F) c cc0_stg0_0 ∗ someAt (F := F) c cc0_stg0_1 ∗ someAt (F := F) c cc0_stg1_0 ∗ someAt (F := F) c cc0_stg1_1 ∗ someAt (F := F) c cc0_stg2_0 ∗ someAt (F := F) c cc0_stg2_1 ∗ someAt (F := F) c cc0_stg3_0 ∗ someAt (F := F) c cc0_stg3_1
      ∗ someAt (F := F) c cc2_stg0_0 ∗ someAt (F := F) c cc2_stg0_1 ∗ someAt (F := F) c cc2_stg1_0 ∗ someAt (F := F) c cc2_stg2_0 ∗ someAt (F := F) c cc2_stg3_0 ∗ someAt (F := F) c cc2_stg3_1)
    ∗ ∃ r, prngReg c r)

/-- The invariant with the scratch buffers at named contents. -/
def inv (c : Dev nD) (f0 : Vec F S1x1024x1 .f32) (f1 : Vec F S1x1024x1 .f32) (f2 : Vec F S1x1024x1024 .f32) : sProp 𝕄 :=
  iprop(owns (c : Thread nD τ) sM fullShare f0 ∗ owns (c : Thread nD τ) sL fullShare f1 ∗ owns (c : Thread nD τ) sA fullShare f2 ∗ others (F := F) c)

/-- What the region is entered with gives the scratch buffers at some contents beside the rest. -/
theorem phiA_open (c : Dev nD) :
    (Pipeline.ΦA spec1 c : sProp 𝕄) ⊢ iprop((∃ d, owns (c : Thread nD τ) sM fullShare d) ∗ (∃ d, owns (c : Thread nD τ) sL fullShare d) ∗ (∃ d, owns (c : Thread nD τ) sA fullShare d) ∗ others (F := F) c) := by
  unfold Pipeline.ΦA others; rw [scopedRest1_eq]; simp only [sM, sL, sA, owns_whole]
  iintro ⟨⟨R1, R2, R3, R4, R5, R6, R7, R8, ⟨%f0, S0⟩, ⟨%f1, S1⟩, ⟨%f2, S2⟩, R12, R13, R14, R15, R16, R17⟩, Hg⟩
  isplitl [S0]; · iexists f0; iexact S0
  isplitl [S1]; · iexists f1; iexact S1
  isplitl [S2]; · iexists f2; iexact S2
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R12]; · iexact R12
    isplitl [R13]; · iexact R13
    isplitl [R14]; · iexact R14
    isplitl [R15]; · iexact R15
    isplitl [R16]; · iexact R16
    iexact R17
  iexact Hg

/-- And the invariant at any contents of the scratch gives it back. -/
theorem phiA_close (c : Dev nD) (f0 : Vec F S1x1024x1 .f32) (f1 : Vec F S1x1024x1 .f32) (f2 : Vec F S1x1024x1024 .f32) :
    inv c f0 f1 f2 ⊢ (Pipeline.ΦA spec1 c : sProp 𝕄) := by
  unfold Pipeline.ΦA inv others; rw [scopedRest1_eq]; simp only [sM, sL, sA, owns_whole]
  iintro ⟨S0, S1, S2, ⟨R1, R2, R3, R4, R5, R6, R7, R8, R12, R13, R14, R15, R16, R17⟩, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [S0]; · iexists _; iexact S0
    isplitl [S1]; · iexists _; iexact S1
    isplitl [S2]; · iexists _; iexact S2
    isplitl [R12]; · iexact R12
    isplitl [R13]; · iexact R13
    isplitl [R14]; · iexact R14
    isplitl [R15]; · iexact R15
    isplitl [R16]; · iexact R16
    iexact R17
  iexact Hg

/-- The invariant before position `n`: at entry what the region is handed; afterwards the scratch at what the point
    before left. -/
def PhiS (c : Dev nD) : (n : ℕ) → n ≤ cfg1.N → sProp 𝕄
  | 0, _ => Pipeline.ΦA spec1 c
  | n + 1, hn => inv c (stAt V c n hn).m (stAt V c n hn).l (stAt V c n hn).a

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = inv c (stAt V c n hn).m (stAt V c n hn).l (stAt V c n hn).a := rfl

theorem PhiS_pos (c : Dev nD) (n : ℕ) (h : n ≤ cfg1.N) (hz : n ≠ 0) :
    PhiS V c n h = inv c (stAt V c (n - 1) (by omega)).m (stAt V c (n - 1) (by omega)).l (stAt V c (n - 1) (by omega)).a := by
  cases n with
  | zero => exact absurd rfl hz
  | succ n => rfl

/-! ## The proof data -/

/-- The pipeline's proof data on core `c`: the arrays as the region finds them; after the body each input's buffer at
    its block and the output's at the recursion's output component; the invariant above; nothing owed; each of the
    three input windows (all three read ONE array, the fused projection) at a third part of that array's share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).o
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem dat1_A (c : Dev nD) (w : Fin cfg1.W) : (dat1 V c).A w = V c (Pipeline.arrRef spec1 w) := by
  dsimp only [dat1]

theorem dat1_Phi (c : Dev nD) (t : Fin cfg1.N) : (dat1 V c).Φ t.castSucc = PhiS V c t.val (Nat.le_of_lt t.isLt) := by
  dsimp only [dat1]; simp only [Fin.coe_castSucc]

theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = (stAt V c t.val t.isLt).o := by dsimp only [dat1]

/-- Each input window's current buffer holds its block at every point, fetched there or not: where it is not fetched
    the block index has not moved since the fetch, and the body leaves the block in place. -/
theorem found0 (c : Dev nD) (t : Fin cfg1.N) (d) : (dat1 V c).before 0 t d = blk1 V c 0 t :=
  ((dat1 V c).before_in_eq_fetched 0 rfl (fun _ => rfl) (fun _ _ _ => rfl) (fun t => by rw [dat1_after0]; unfold Dat.blockOf blk1; rw [dat1_A]; try rfl) t d).trans
    (by unfold Dat.fetched Dat.blockOf blk1; rw [dat1_A]; try rfl)
theorem found1 (c : Dev nD) (t : Fin cfg1.N) (d) : (dat1 V c).before 1 t d = blk1 V c 1 t :=
  ((dat1 V c).before_in_eq_fetched 1 rfl (fun _ => rfl) (fun _ _ _ => rfl) (fun t => by rw [dat1_after1]; unfold Dat.blockOf blk1; rw [dat1_A]; try rfl) t d).trans
    (by unfold Dat.fetched Dat.blockOf blk1; rw [dat1_A]; try rfl)
theorem found2 (c : Dev nD) (t : Fin cfg1.N) (d) : (dat1 V c).before 2 t d = blk1 V c 2 t :=
  ((dat1 V c).before_in_eq_fetched 2 rfl (fun _ => rfl) (fun _ _ _ => rfl) (fun t => by rw [dat1_after2]; unfold Dat.blockOf blk1; rw [dat1_A]; try rfl) t d).trans
    (by unfold Dat.fetched Dat.blockOf blk1; rw [dat1_A]; try rfl)

end Cert.KernelIdeal.Flash

end
-- ==== Proof.KIFlashCovers.lean ====
/-
  In each of the attention body's three cases the stores into a scratch buffer (and, at a last key block, into the
  output buffer) cover it: each list of pieces the run found tiles the buffer's shape. So what the buffer reads back
  afterwards is determined by the pieces alone, whatever it held before.
-/
import proofs.«131970_j54589034332684_2_alg».proof.Proof.KIFlashFirst
import proofs.«131970_j54589034332684_2_alg».proof.Proof.KIFlashMid
import proofs.«131970_j54589034332684_2_alg».proof.Proof.KIFlashLast

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

theorem coverFirstM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1.Idx) :
    ∃ pc ∈ (runFirst c i arg3 harg3 arg4 harg4 arg5 harg5 arg6 harg6 arg7 harg7 arg8 harg8 arg9 harg9 hf hl xq xk xv ).1, y ∈ pc.1.set :=
  View.cover_of_tiledL (runFirst c i arg3 harg3 arg4 harg4 arg5 harg5 arg6 harg6 arg7 harg7 arg8 harg8 arg9 harg9 hf hl xq xk xv ).1 S1x1024x1.size (by sl_kernel_rfl) y
theorem coverFirstL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1.Idx) :
    ∃ pc ∈ (runFirst c i arg3 harg3 arg4 harg4 arg5 harg5 arg6 harg6 arg7 harg7 arg8 harg8 arg9 harg9 hf hl xq xk xv ).2.1, y ∈ pc.1.set :=
  View.cover_of_tiledL (runFirst c i arg3 harg3 arg4 harg4 arg5 harg5 arg6 harg6 arg7 harg7 arg8 harg8 arg9 harg9 hf hl xq xk xv ).2.1 S1x1024x1.size (by sl_kernel_rfl) y
theorem coverFirstA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : isFirst i) (hl : ¬isLast i)
    (xq : Vec F S1x1024x1024 .bf16) (xk : Vec F S1x512x1024 .bf16) (xv : Vec F S1x512x1024 .bf16)  (y : S1x1024x1024.Idx) :
    ∃ pc ∈ (runFirst c i arg3 harg3 arg4 harg4 arg5 harg5 arg6 harg6 arg7 harg7 arg8 harg8 arg9 harg9 hf hl xq xk xv ).2.2.1, y ∈ pc.1.set :=
  View.cover_of_tiledL (runFirst c i arg3 harg3 arg4 harg4 arg5 harg5 arg6 harg6 arg7 harg7 arg8 harg8 arg9 harg9 hf hl xq xk xv ).2.2.1 S1x1024x1024.size (by sl_kernel_rfl) y
theorem coverMidM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hf hl xq xk xv s0 s1 s2).1, y ∈ pc.1.set :=
  View.cover_of_tiledL (runMid c i arg3 harg3 arg4 harg4 arg5 harg5 arg6 harg6 arg7 harg7 arg8 harg8 arg9 harg9 hf hl xq xk xv s0 s1 s2).1 S1x1024x1.size (by sl_kernel_rfl) y
theorem coverMidL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runMid c i arg3 harg3 arg4 harg4 arg5 harg5 arg6 harg6 arg7 harg7 arg8 harg8 arg9 harg9 hf hl xq xk xv s0 s1 s2).2.1, y ∈ pc.1.set :=
  View.cover_of_tiledL (runMid c i arg3 harg3 arg4 harg4 arg5 harg5 arg6 harg6 arg7 harg7 arg8 harg8 arg9 harg9 hf hl xq xk xv s0 s1 s2).2.1 S1x1024x1.size (by sl_kernel_rfl) y
theorem coverMidA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : ¬isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runMid c i arg3 harg3 arg4 harg4 arg5 harg5 arg6 harg6 arg7 harg7 arg8 harg8 arg9 harg9 hf hl xq xk xv s0 s1 s2).2.2.1, y ∈ pc.1.set :=
  View.cover_of_tiledL (runMid c i arg3 harg3 arg4 harg4 arg5 harg5 arg6 harg6 arg7 harg7 arg8 harg8 arg9 harg9 hf hl xq xk xv s0 s1 s2).2.2.1 S1x1024x1024.size (by sl_kernel_rfl) y
theorem coverLastO (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hf hl xq xk xv s0 s1 s2).1, y ∈ pc.1.set :=
  View.cover_of_tiledL (runLast c i arg3 harg3 arg4 harg4 arg5 harg5 arg6 harg6 arg7 harg7 arg8 harg8 arg9 harg9 hf hl xq xk xv s0 s1 s2).1 S1x1024x1024.size (by sl_kernel_rfl) y
theorem coverLastM (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hf hl xq xk xv s0 s1 s2).2.1, y ∈ pc.1.set :=
  View.cover_of_tiledL (runLast c i arg3 harg3 arg4 harg4 arg5 harg5 arg6 harg6 arg7 harg7 arg8 harg8 arg9 harg9 hf hl xq xk xv s0 s1 s2).2.1 S1x1024x1.size (by sl_kernel_rfl) y
theorem coverLastL (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1.Idx) :
    ∃ pc ∈ (runLast c i arg3 harg3 arg4 harg4 arg5 harg5 arg6 harg6 arg7 harg7 arg8 harg8 arg9 harg9 hf hl xq xk xv s0 s1 s2).2.2.1, y ∈ pc.1.set :=
  View.cover_of_tiledL (runLast c i arg3 harg3 arg4 harg4 arg5 harg5 arg6 harg6 arg7 harg7 arg8 harg8 arg9 harg9 hf hl xq xk xv s0 s1 s2).2.2.1 S1x1024x1.size (by sl_kernel_rfl) y
theorem coverLastA (c : Dev nD) (i : grid1.Coords) (arg3 : Memref sig .tc .vmem S1x1024x1024 .bf16) (harg3 : arg3.IsWhole) (arg4 : Memref sig .tc .vmem S1x512x1024 .bf16) (harg4 : arg4.IsWhole)
    (arg5 : Memref sig .tc .vmem S1x512x1024 .bf16) (harg5 : arg5.IsWhole) (arg6 : Memref sig .tc .vmem S1x1024x1024 .bf16) (harg6 : arg6.IsWhole)
    (arg7 : Memref sig .tc .vmem S1x1024x1 .f32) (harg7 : arg7.IsWhole) (arg8 : Memref sig .tc .vmem S1x1024x1 .f32) (harg8 : arg8.IsWhole)
    (arg9 : Memref sig .tc .vmem S1x1024x1024 .f32) (harg9 : arg9.IsWhole) (hf : ¬isFirst i) (hl : isLast i)
    (xq : Vec F S1x1024x1024 .bf16) (xk : Vec F S1x512x1024 .bf16) (xv : Vec F S1x512x1024 .bf16) (s0 : Vec F S1x1024x1 .f32) (s1 : Vec F S1x1024x1 .f32) (s2 : Vec F S1x1024x1024 .f32) (y : S1x1024x1024.Idx) :
    ∃ pc ∈ (runLast c i arg3 harg3 arg4 harg4 arg5 harg5 arg6 harg6 arg7 harg7 arg8 harg8 arg9 harg9 hf hl xq xk xv s0 s1 s2).2.2.2.1, y ∈ pc.1.set :=
  View.cover_of_tiledL (runLast c i arg3 harg3 arg4 harg4 arg5 harg5 arg6 harg6 arg7 harg7 arg8 harg8 arg9 harg9 hf hl xq xk xv s0 s1 s2).2.2.2.1 S1x1024x1024.size (by sl_kernel_rfl) y

end Cert.KernelIdeal.Flash

end
-- ==== Proof.KIFlashOblig.lean ====
/-
  The attention pallas_call's body obligation: at every grid point, from the invariant before the point, the core
  owing nothing, and the four windows' current buffers holding what the pipeline left in them, the body runs to the
  invariant after the point and the buffers at what the proof data says it leaves — by cases on the point (first,
  middle or last key block of its query tile), each case that case's run.
-/
import proofs.«131970_j54589034332684_2_alg».proof.Proof.KIFlashBody
import proofs.«131970_j54589034332684_2_alg».proof.Proof.KIFlashCovers

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [found0, found1, found2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (mq t) fullShare ((dat1 V c).after 0 t) from by
    unfold Dat.leavesExact; rw [(live_in t).1], dat1_after0]
  rw [show (dat1 V c).leavesExact 1 t = owns (c : Thread nD τ) (mk t) fullShare ((dat1 V c).after 1 t) from by
    unfold Dat.leavesExact; rw [(live_in t).2.1], dat1_after1]
  rw [show (dat1 V c).leavesExact 2 t = owns (c : Thread nD τ) (mv t) fullShare ((dat1 V c).after 2 t) from by
    unfold Dat.leavesExact; rw [(live_in t).2.2], dat1_after2]
  have hN : t.val < 128 := lt_of_lt_of_eq t.isLt (show cfg1.N = 128 from N_1)
  by_cases h0 : t.val % 8 = 0
  · rw [Dat.leavesExact_idle (dat1 V c) 3 t (idle_out t (fun h => by have := (isLast_iff t).mp h; omega)) (noFlush_out t (fun h => by have := (isLast_iff t).mp h; omega))]
    rw [stAt_first V c t h0]
    unfold stFirst; dsimp only
    by_cases hz : t.val = 0
    · rw [dat1_Phi V c t, PhiS_zero V c _ _ hz]
      iintro ⟨HΦ, Ho, ⟨%d0, H0⟩, ⟨%d1, H1⟩, ⟨%d2, H2⟩, ⟨%d3, H3⟩⟩
      ihave HΦ' := (phiA_open (F := F) c) $$ HΦ
      icases HΦ' with ⟨HS0, HS1, HS2, HR⟩
      iapply ((runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverFirstM _ _ _ _ _ _ _ _ _ _ _ _ _ _ _ _ _ _ _ _ _)
        isplitl [HS1]
        · unfold owns; iexists _; isplitr
          swap; · iexact HS1
          ipureintro; exact View.read_writes_eq_canon _ _ _ (coverFirstL _ _ _ _ _ _ _ _ _ _ _ _ _ _ _ _ _ _ _ _ _)
        isplitl [HS2]
        · unfold owns; iexists _; isplitr
          swap; · iexact HS2
          ipureintro; exact View.read_writes_eq_canon _ _ _ (coverFirstA _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
    · rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runFirst c (grid1.coords t) (mq t) (hq t) (mk t) (hk t) (mv t) (hv t) (mo t) (ho t) sM (Memref.isWhole_whole _) sL (Memref.isWhole_whole _) sA (Memref.isWhole_whole _) ((isFirst_iff t).mpr h0) (fun h => by have := (isLast_iff t).mp h; omega) (blk1 V c 0 t) (blk1 V c 1 t) (blk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverFirstM _ _ _ _ _ _ _ _ _ _ _ _ _ _ _ _ _ _ _ _ _)
        isplitl [HS1]
        · unfold owns; iexists _; isplitr
          swap; · iexact HS1
          ipureintro; exact View.read_writes_eq_canon _ _ _ (coverFirstL _ _ _ _ _ _ _ _ _ _ _ _ _ _ _ _ _ _ _ _ _)
        isplitl [HS2]
        · unfold owns; iexists _; isplitr
          swap; · iexact HS2
          ipureintro; exact View.read_writes_eq_canon _ _ _ (coverFirstA _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3
  · by_cases h7 : t.val % 8 = 7
    · rw [show (dat1 V c).leavesExact 3 t = owns (c : Thread nD τ) (mo t) fullShare ((dat1 V c).after 3 t) from by
            unfold Dat.leavesExact; rw [live_out t ((isLast_iff t).mpr h7)], dat1_after3]
      rw [stAt_last V c t h0 h7]
      unfold stLast; dsimp only
      have hz : t.val ≠ 0 := fun hz => h0 (by rw [hz])
      rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runLast c (grid1.coords t) (mq t) (hq t) (mk t) (hk t) (mv t) (hv t) (mo t) (ho t) sM (Memref.isWhole_whole _) sL (Memref.isWhole_whole _) sA (Memref.isWhole_whole _) (fun h => h0 ((isFirst_iff t).mp h)) ((isLast_iff t).mpr h7) (blk1 V c 0 t) (blk1 V c 1 t) (blk1 V c 2 t) (stAt V c (t.val - 1) (Nat.lt_of_le_of_lt (Nat.sub_le _ _) t.isLt)).m (stAt V c (t.val - 1) (Nat.lt_of_le_of_lt (Nat.sub_le _ _) t.isLt)).l (stAt V c (t.val - 1) (Nat.lt_of_le_of_lt (Nat.sub_le _ _) t.isLt)).a).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverLastM _ _ _ _ _ _ _ _ _ _ _ _ _ _ _ _ _ _ _ _ _ _ _ _)
        isplitl [HS1]
        · unfold owns; iexists _; isplitr
          swap; · iexact HS1
          ipureintro; exact View.read_writes_eq_canon _ _ _ (coverLastL _ _ _ _ _ _ _ _ _ _ _ _ _ _ _ _ _ _ _ _ _ _ _ _)
        isplitl [HS2]
        · unfold owns; iexists _; isplitr
          swap; · iexact HS2
          ipureintro; exact View.read_writes_eq_canon _ _ _ (coverLastA _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_eq_canon _ _ _ (coverLastO _ _ _ _ _ _ _ _ _ _ _ _ _ _ _ _ _ _ _ _ _ _ _ _)
    · rw [Dat.leavesExact_idle (dat1 V c) 3 t (idle_out t (fun h => h7 ((isLast_iff t).mp h))) (noFlush_out t (fun h => h7 ((isLast_iff t).mp h)))]
      rw [stAt_mid V c t h0 h7]
      unfold stMid; dsimp only
      have hz : t.val ≠ 0 := fun hz => h0 (by rw [hz])
      rw [dat1_Phi V c t, PhiS_pos V c _ _ hz]; unfold inv
      iintro ⟨⟨HS0, HS1, HS2, HR⟩, Ho, ⟨%d0, H0⟩, ⟨%d1, H1⟩, ⟨%d2, H2⟩, ⟨%d3, H3⟩⟩
      iapply ((runMid c (grid1.coords t) (mq t) (hq t) (mk t) (hk t) (mv t) (hv t) (mo t) (ho t) sM (Memref.isWhole_whole _) sL (Memref.isWhole_whole _) sA (Memref.isWhole_whole _) (fun h => h0 ((isFirst_iff t).mp h)) (fun h => h7 ((isLast_iff t).mp h)) (blk1 V c 0 t) (blk1 V c 1 t) (blk1 V c 2 t) (stAt V c (t.val - 1) (Nat.lt_of_le_of_lt (Nat.sub_le _ _) t.isLt)).m (stAt V c (t.val - 1) (Nat.lt_of_le_of_lt (Nat.sub_le _ _) t.isLt)).l (stAt V c (t.val - 1) (Nat.lt_of_le_of_lt (Nat.sub_le _ _) t.isLt)).a).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [HS0 HS1 HS2 HR]
      · (try unfold inv)
        isplitl [HS0]
        · unfold owns; iexists _; isplitr
          swap; · iexact HS0
          ipureintro; exact View.read_writes_eq_canon _ _ _ (coverMidM _ _ _ _ _ _ _ _ _ _ _ _ _ _ _ _ _ _ _ _ _ _ _ _)
        isplitl [HS1]
        · unfold owns; iexists _; isplitr
          swap; · iexact HS1
          ipureintro; exact View.read_writes_eq_canon _ _ _ (coverMidL _ _ _ _ _ _ _ _ _ _ _ _ _ _ _ _ _ _ _ _ _ _ _ _)
        isplitl [HS2]
        · unfold owns; iexists _; isplitr
          swap; · iexact HS2
          ipureintro; exact View.read_writes_eq_canon _ _ _ (coverMidA _ _ _ _ _ _ _ _ _ _ _ _ _ _ _ _ _ _ _ _ _ _ _ _)
        iexact HR
      isplitl [Ho]; · iexact Ho
      isplitl [H0]; · iexact H0
      isplitl [H1]; · iexact H1
      isplitl [H2]; · iexact H2
      iexists _; iexact H3

/-- The pipeline library's body obligation, at every point. -/
theorem body1 (c : Dev nD) : BodyObligation (dat1 (F := F) V c) (defs₀ (F := F)) Variants.none () Set.univ := fun t => by
  rw [bigSep_W1, bigSep_W1]
  exact sound_body V c t

/-- What the region is entered with is the invariant before the first point. -/
theorem phi_in (c : Dev nD) : (Pipeline.ΦA spec1 c : sProp 𝕄) ⊢ (dat1 V c).Φ 0 := by
  rw [show (dat1 V c).Φ 0 = PhiS V c 0 (Nat.zero_le _) from rfl, PhiS_zero V c 0 _ rfl]
  try exact Idealize.SL.BI.Entails.refl _

/-- After the last point the invariant gives it back: the scratch's named contents are forgotten. -/
theorem phi_out (c : Dev nD) : (dat1 V c).Φ (Fin.last cfg1.N) ⊢ (Pipeline.ΦA spec1 c : sProp 𝕄) := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  exact phiA_close c _ _ _

end Cert.KernelIdeal.Flash

end
-- ==== Proof.KIFlashShare.lean ====
/-
  The attention call reads ONE array, the fused projection, through three input windows (the query, key and value
  column blocks). Holding that array whole is holding three parts of it, one per window: its share is halved, and
  one half halved again. On entry the whole is dealt out to the windows; on exit, the inputs unchanged, the three
  parts are joined back into the whole.
-/
import proofs.«131970_j54589034332684_2_alg».proof.Proof.KIFlashBody

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the call's arrays are the fused projection and the attention output. -/
theorem arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v4) ↦{fullShare} W main_v4) ∗ (((c : Thread nD τ).loc main_v5) ↦{fullShare} W main_v5)) := by
  unfold Pipeline.arrBufs
  exact bigSep_eq_bigSepL_of_eq [main_v4, main_v5] (by decide) (by decide) _

/-- A window's array is a whole buffer: holding it through the window's view is holding the buffer. -/
theorem arr_pt (c : Dev nD) (w : Fin cfg1.W) (n : ℕ) :
    (((cfg1.win w).arr.view.loc (c : Thread nD τ)) ↦[(cfg1.win w).arr.view.set]{(dat1 V c).share w} (dat1 V c).arrAt w n : sProp 𝕄)
      = (((c : Thread nD τ).loc (Pipeline.arrRef spec1 w)) ↦{(dat1 V c).share w} (dat1 V c).arrAt w n) := by
  rw [(arr_whole1 w).set_eq_univ]

/-- The three input windows hold the projection at a half, a quarter and a quarter of its share; the output window holds
    its array whole. -/
theorem sh0 (c : Dev nD) : (dat1 V c).share 0 = fullShare.left := rfl
theorem sh1 (c : Dev nD) : (dat1 V c).share 1 = fullShare.right.left := rfl
theorem sh2 (c : Dev nD) : (dat1 V c).share 2 = fullShare.right.right := rfl
theorem sh3 (c : Dev nD) : (dat1 V c).share 3 = fullShare := rfl

/-- At entry each window's array holds what the region finds in its buffer. -/
theorem at0 (c : Dev nD) (w : Fin cfg1.W) : (dat1 V c).arrAt w 0 = V c (Pipeline.arrRef spec1 w) := dat1_A V c w

set_option maxHeartbeats 2000000 in
/-- ENTRY: the two buffers whole are the call's arrays at the entry contents, the projection dealt among its three windows. -/
theorem arrays_in (c : Dev nD) :
    (Pipeline.arrBufs (Ix := Unit) (Name := ℕ) (U := UR sig nD τ) (Lvl := ℕ) spec1 c (V c) : sProp 𝕄) ⊢ (dat1 V c).arrays ((dat1 V c).arrAt · 0) := by
  rw [arrBufs_eq]
  unfold Dat.arrays
  rw [bigSep_W1]; dsimp only
  rw [arr_pt V c 0 0, arr_pt V c 1 0, arr_pt V c 2 0, arr_pt V c 3 0, sh0, sh1, sh2, sh3, at0 V c 0, at0 V c 1, at0 V c 2, at0 V c 3]
  iintro ⟨H4, H5⟩
  ihave H := (pointsTo_share (PosShare.mem_left_op_right fullShare)).1 $$ H4
  icases H with ⟨Ha, Hb⟩
  ihave H' := (pointsTo_share (PosShare.mem_left_op_right fullShare.right)).1 $$ Hb
  icases H' with ⟨Hb1, Hb2⟩
  isplitl [Ha]; · iexact Ha
  isplitl [Hb1]; · iexact Hb1
  isplitl [Hb2]; · iexact Hb2
  iexact H5

set_option maxHeartbeats 2000000 in
/-- EXIT: the arrays after the last point — each input's as entered, the output's at what the write-backs left — are
    the two buffers whole again. -/
theorem arrays_out (c : Dev nD) :
    (dat1 V c).arrays ((dat1 V c).arrAt · cfg1.N)
      ⊢ (iprop((((c : Thread nD τ).loc main_v4) ↦{fullShare} V c main_v4) ∗ (((c : Thread nD τ).loc main_v5) ↦{fullShare} (dat1 V c).arrAt 3 cfg1.N)) : sProp 𝕄) := by
  unfold Dat.arrays
  rw [bigSep_W1]; dsimp only
  rw [arr_pt V c 0 cfg1.N, arr_pt V c 1 cfg1.N, arr_pt V c 2 cfg1.N, arr_pt V c 3 cfg1.N, sh0, sh1, sh2, sh3,
    (dat1 V c).arrAt_in 0 rfl, (dat1 V c).arrAt_in 1 rfl, (dat1 V c).arrAt_in 2 rfl, dat1_A V c 0, dat1_A V c 1, dat1_A V c 2]
  iintro ⟨Ha, Hb1, Hb2, H5⟩
  isplitr [H5]
  · iapply (pointsTo_share (PosShare.mem_left_op_right fullShare)).2
    isplitl [Ha]; · iexact Ha
    iapply (pointsTo_share (PosShare.mem_left_op_right fullShare.right)).2
    isplitl [Hb1]; · iexact Hb1
    iexact Hb2
  iexact H5

end Cert.KernelIdeal.Flash

end
-- ==== Proof.KIRun.lean ====
/-
  The whole program as a run of segments: host stretch, projection call, host stretch, attention call, host stretch,
  output-projection call, host stretch. Between two segments the core holds every unscoped buffer at contents
  computed from the launch memory by folding the segments before: a host stretch applies its operations; a call
  replaces its output array by what its write-backs leave (the pipeline library's fold over the grid points of the
  proof data) and changes nothing else. Beside the buffers ride the generator register, at some state, and the
  core's debt, which is nothing.
-/
import proofs.«131970_j54589034332684_2_alg».proof.Proof.KIRegs02
import proofs.«131970_j54589034332684_2_alg».proof.Proof.KIFlashOblig
import proofs.«131970_j54589034332684_2_alg».proof.Proof.KIFlashShare
import proofs.«131970_j54589034332684_2_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.KernelIdeal Cert.KernelIdeal.Gen Cert.KernelIdeal.Hand Cert.KernelIdeal.Flash

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents a call is entered with, read at the core's own references. -/
abbrev E0 : (c : Dev nD) → (b : Ref sig .tc) → Buf (Elt F) ((c : Thread nD τ).loc b) := fun c b => V1 m c b
abbrev E1 : (c : Dev nD) → (b : Ref sig .tc) → Buf (Elt F) ((c : Thread nD τ).loc b) := fun c b => V3 m outs c b
abbrev E2 : (c : Dev nD) → (b : Ref sig .tc) → Buf (Elt F) ((c : Thread nD τ).loc b) := fun c b => V5 m outs c b

/-- What each call leaves in its output array is what the contents after it record there. -/
structure Fits : Prop where
  o0 : ∀ c, outs 2 main_v3 c = (dat0 (E0 m) c).arrAt 3 cfg0.N
  o1 : ∀ c, outs 4 main_v5 c = (dat1 (E1 m outs) c).arrAt 3 cfg1.N
  o2 : ∀ c, outs 6 main_v9 c = (dat2 (E2 m outs) c).arrAt 3 cfg2.N

/-- Every call's proof data, each at its call's entry contents. -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c

abbrev 𝒱₀ : Variants := Variants.none
abbrev L : GSem nD τ sig → Finset Unit := fun _ => ∅
abbrev lv : GSem nD τ sig → Unit → ℕ := fun _ _ => 0
/-- What rides beside the buffers through every segment. -/
abbrev side (c : Dev nD) : sProp 𝕄 := iprop((∃ r, prngReg c r) ∗ ∃ W, owes (c : Thread nD τ) (0 : CellTallies nD τ sig Unit) W)

/-- Call 0's arrays after the call are what the contents after it hold there: the output array by the record of
    what the call leaves, an input array because the call writes none. -/
theorem fit0 (hf : Fits m outs) (c : Dev nD) (w : Fin cfg0.W) :
    (dat0 (E0 m) c).arrAt w cfg0.N = V2 m outs c (Pipeline.arrRef spec0 w) := by
  by_cases hw : w = 3
  · subst hw
    rw [← hf.o0 c]
    exact (Function.update_self (β := fun b : DevRef τ sig => Buf (Elt F) ((c : Thread nD τ).1, b)) (Proc.devRef .tc main_v3) (outs 2 main_v3 c) (V1 m c)).symm
  · rw [dat0_arrAt_in (E0 m) c w hw]
    refine (V2_of m outs c (Pipeline.arrRef spec0 w) ?_).symm
    fin_cases w <;> first | exact absurd rfl hw | decide

/-- Every other buffer is as the call found it. -/
theorem rest0 (c : Dev nD) : ∀ b, b ∉ Finset.univ.image (Pipeline.arrRef spec0) → V2 m outs c b = V1 m c b :=
  fun b hb => V2_of m outs c b (by
    intro h
    rw [List.mem_singleton] at h
    exact hb (Finset.mem_image.mpr ⟨3, Finset.mem_univ _, h.symm ▸ rfl⟩))

-- the pinned configuration unifies with the printed one only when unification may unfold plain definitions in a
-- metavariable's type
set_option backward.isDefEq.respectTransparency.types false in
/-- Call 0 as a segment: entered from every unscoped buffer at the contents before it, left at those after it; its
    arrays are split out of the unscoped buffers on entry and put back on exit; the generator register goes into the
    call's invariant and comes out; nothing is owed; the kernel has no semaphore of its own. -/
def reg0 (hf : Fits m outs) : RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body0 (E0 m) c).loose
  hwaits := Pipeline.hwaits_of_owed_zero _ _ _ _ L lv 0 fun _ _ => rfl
  pre c := iprop(StableHlo.held (c : Thread nD τ) (Pipeline.ucRefs τ sig) (V1 m c) ∗ side c)
  post c := iprop(StableHlo.held (c : Thread nD τ) (Pipeline.ucRefs τ sig) (V2 m outs c) ∗ side c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E0 m c) (fun b => V2 m outs c b) ((pdats m outs 0 c).arrAt · cfg0.N) (fit0 m outs hf c) (rest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Call 2's arrays after the call are what the contents after it hold there: the output array by the record of
    what the call leaves, an input array because the call writes none. -/
theorem fit2 (hf : Fits m outs) (c : Dev nD) (w : Fin cfg2.W) :
    (dat2 (E2 m outs) c).arrAt w cfg2.N = V6 m outs c (Pipeline.arrRef spec2 w) := by
  by_cases hw : w = 3
  · subst hw
    rw [← hf.o2 c]
    exact (Function.update_self (β := fun b : DevRef τ sig => Buf (Elt F) ((c : Thread nD τ).1, b)) (Proc.devRef .tc main_v9) (outs 6 main_v9 c) (V5 m outs c)).symm
  · rw [dat2_arrAt_in (E2 m outs) c w hw]
    refine (V6_of m outs c (Pipeline.arrRef spec2 w) ?_).symm
    fin_cases w <;> first | exact absurd rfl hw | decide

/-- Every other buffer is as the call found it. -/
theorem rest2 (c : Dev nD) : ∀ b, b ∉ Finset.univ.image (Pipeline.arrRef spec2) → V6 m outs c b = V5 m outs c b :=
  fun b hb => V6_of m outs c b (by
    intro h
    rw [List.mem_singleton] at h
    exact hb (Finset.mem_image.mpr ⟨3, Finset.mem_univ _, h.symm ▸ rfl⟩))

-- the pinned configuration unifies with the printed one only when unification may unfold plain definitions in a
-- metavariable's type
set_option backward.isDefEq.respectTransparency.types false in
/-- Call 2 as a segment: entered from every unscoped buffer at the contents before it, left at those after it; its
    arrays are split out of the unscoped buffers on entry and put back on exit; the generator register goes into the
    call's invariant and comes out; nothing is owed; the kernel has no semaphore of its own. -/
def reg2 (hf : Fits m outs) : RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body2 (E2 m outs) c).loose
  hwaits := Pipeline.hwaits_of_owed_zero _ _ _ _ L lv 2 fun _ _ => rfl
  pre c := iprop(StableHlo.held (c : Thread nD τ) (Pipeline.ucRefs τ sig) (V5 m outs c) ∗ side c)
  post c := iprop(StableHlo.held (c : Thread nD τ) (Pipeline.ucRefs τ sig) (V6 m outs c) ∗ side c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (E2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (E2 m outs c) (fun b => V6 m outs c b) ((pdats m outs 2 c).arrAt · cfg2.N) (fit2 m outs hf c) (rest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention call leaves its output array at what the contents after it record there, -/
theorem fit1 (hf : Fits m outs) (c : Dev nD) : V4 m outs c main_v5 = (dat1 (E1 m outs) c).arrAt 3 cfg1.N := by
  rw [← hf.o1 c]
  exact Function.update_self (β := fun b : DevRef τ sig => Buf (Elt F) ((c : Thread nD τ).1, b)) (Proc.devRef .tc main_v5) (outs 4 main_v5 c) (V3 m outs c)

/-- and every other buffer as it found it. -/
theorem keep1 (c : Dev nD) (b : Ref sig .tc) (hb : b ≠ main_v5) : V4 m outs c b = V3 m outs c b :=
  V4_of m outs c b (by rw [List.mem_singleton]; exact hb)

/-- A core's unscoped buffers are the two buffers behind the attention call's arrays, and the rest. -/
theorem ub_split1 (c : Dev nD) (W : (b : Ref sig .tc) → Buf (Elt F) ((c : Thread nD τ).loc b)) :
    (unscopedBufs (Ix := Unit) (Name := ℕ) (U := UR sig nD τ) (Lvl := ℕ) c W : sProp 𝕄)
      = iprop(Pipeline.arrBufs (Ix := Unit) (Name := ℕ) (U := UR sig nD τ) (Lvl := ℕ) spec1 c W ∗ Pipeline.unscopedRest (Ix := Unit) (Name := ℕ) (U := UR sig nD τ) (Lvl := ℕ) spec1 c W) :=
  Pipeline.unscopedBufs_split₀ (cfgs := cfgs) (p := 1) winFacts₀1.arr_unscoped c W

-- the pinned configuration unifies with the printed one only when unification may unfold plain definitions in a
-- metavariable's type
set_option backward.isDefEq.respectTransparency.types false in
set_option maxHeartbeats 2000000 in
/-- The attention call as a segment. Its three input windows read one array: on entry that buffer's share is dealt
    among them, on exit it is joined back, the array unchanged; the output array comes back at what the write-backs
    left. The invariant takes the generator register and the scoped buffers in, and gives them back with the scratch
    buffers' contents forgotten. -/
def reg1 (hf : Fits m outs) : RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body1 (E1 m outs) c).loose
  hwaits := Pipeline.hwaits_of_owed_zero _ _ _ _ L lv 1 fun _ _ => rfl
  pre c := iprop(StableHlo.held (c : Thread nD τ) (Pipeline.ucRefs τ sig) (V3 m outs c) ∗ side c)
  post c := iprop(StableHlo.held (c : Thread nD τ) (Pipeline.ucRefs τ sig) (V4 m outs c) ∗ side c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    have hsplit : (StableHlo.held (c : Thread nD τ) (Pipeline.ucRefs τ sig) (V3 m outs c) : sProp 𝕄)
        ⊢ iprop((pdats m outs 1 c).arrays ((pdats m outs 1 c).arrAt · 0) ∗ Pipeline.unscopedRest (Ix := Unit) (Name := ℕ) (U := UR sig nD τ) (Lvl := ℕ) spec1 c (E1 m outs c)) := by
      rw [← Pipeline.unscopedBufs_held, ub_split1]
      exact sep_mono (arrays_in (E1 m outs) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (phi_out (E1 m outs) c).trans ?_
    unfold Pipeline.ΦA
    iintro ⟨Hr, Hp⟩
    isplitl [Hp]; · iexact Hp
    isplitr; · iempintro
    iexact Hr
  hexit c := by
    have hjoin : (iprop((pdats m outs 1 c).arrays ((pdats m outs 1 c).arrAt · cfg1.N) ∗ Pipeline.unscopedRest (Ix := Unit) (Name := ℕ) (U := UR sig nD τ) (Lvl := ℕ) spec1 c (E1 m outs c)) : sProp 𝕄)
        ⊢ StableHlo.held (c : Thread nD τ) (Pipeline.ucRefs τ sig) (V4 m outs c) := by
      rw [← Pipeline.unscopedBufs_held, ub_split1, arrBufs_eq]
      refine sep_mono ((arrays_out (E1 m outs) c).trans (Entails.of_eq ?_)) (Entails.of_eq ?_)
      · rw [fit1 m outs hf c, keep1 m outs c main_v4 (by decide)]
      · unfold Pipeline.unscopedRest
        refine bigSep_congr fun b hb => ?_
        dsimp only
        rw [keep1 m outs c b (fun h => (Finset.mem_sdiff.mp hb).2 (Finset.mem_image.mpr ⟨3, Finset.mem_univ _, h.symm ▸ rfl⟩))]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What rides along, the same through every segment. -/
abbrev sides : Fin 4 → Dev nD → sProp 𝕄 := fun _ c => side c

/-- The program's seven segments in order. -/
abbrev parts (hf : Fits m outs) : List (Seg (pcfgs (F := F)) adm (pdats m outs) () defs₀ 𝒱₀ L lv) :=
  [ .host (seg0 m 𝒱₀ L lv sides), .region (reg0 m outs hf), .host (seg2 m outs 𝒱₀ L lv sides), .region (reg1 m outs hf),
    .host (seg4 m outs 𝒱₀ L lv sides), .region (reg2 m outs hf), .host (seg6 m outs 𝒱₀ L lv sides) ]

/-- The last thread state without the debt: every unscoped buffer at the final contents, the generator register at some state. -/
abbrev final (c : Dev nD) : sProp 𝕄 :=
  iprop(StableHlo.held (c : Thread nD τ) (Pipeline.ucRefs τ sig) (V7 m outs c) ∗ ∃ r, prngReg c r)

-- the launch theorem's implicit arguments are found by unifying its conclusion with this one, which takes unfolding
-- plain definitions in a metavariable's type
set_option backward.isDefEq.respectTransparency.types false in
set_option maxHeartbeats 4000000 in
/-- From any memory with zero counters every weakly fair execution of the program terminates, nothing faulting, and
    the final memory holds every unscoped buffer at the last contents of the fold. -/
theorem run_all (hf : Fits m outs) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V7 m outs c b) :=
  Pipeline.θ_run_regions_kit (pcfgs (F := F)) adm (pdats m outs) () cellOf_inj emb₁ defs₀ 𝒱₀ L lv m ρ main (parts m outs hf)
    (fun c Q => by
      rw [main_segs adm (pdats m outs) () 𝒱₀ L lv (seg0 m 𝒱₀ L lv sides) (seg2 m outs 𝒱₀ L lv sides) (seg4 m outs 𝒱₀ L lv sides) (seg6 m outs 𝒱₀ L lv sides)
        (reg0 m outs hf) (reg1 m outs hf) (reg2 m outs hf) rfl rfl rfl rfl c])
    (by simp only [parts, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ side c)) (Tₙ := final m outs)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (V7 m outs c) ∗ side c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V7 m outs c b)
    (hfin := fun c s' => by
      iintro ⟨⟨Hh, -⟩, HSI⟩
      unfold StableHlo.held
      imodintro
      iapply (pointsTo_read_all (Pipeline.ucRefs τ sig) (fun b => (((c : Thread nD τ)).1, b)) (V7 m outs c) s')
      isplitl [Hh] <;> iassumption)
    (hQ := fun s h c => h c)

end Cert.KernelIdeal.Run

end
-- ==== Proof.KIOuts.lean ====
/-
  The contents the three calls leave in their output arrays, chosen one after the other — each call's from the proof
  data at the contents the calls before it left —, and with them the program's run: it terminates, faults nowhere,
  leaves every argument array as launched, and leaves the result array at the last contents of the fold.
-/
import proofs.«131970_j54589034332684_2_alg».proof.Proof.KIRun

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)
open Cert.KernelIdeal Cert.KernelIdeal.Gen Cert.KernelIdeal.Hand Cert.KernelIdeal.Flash

variable {F : FTy → Type} [FloatOps F]

variable (m : (ℓ : Loc nD τ sig) → Buf (Elt F) ℓ)

/-- A record of what the calls leave, with the entry for item `j` and buffer `r₀` set to `x`. -/
def put (o : Outs (F := F)) (j : ℕ) (r₀ : Ref sig .tc) (x : (c : Dev nD) → Buf (Elt F) ((c : Thread nD τ).loc r₀)) : Outs (F := F) :=
  fun j' r c => if h : r = r₀ then (if j' = j then h ▸ x c else o j' r c) else o j' r c

theorem put_same (o : Outs (F := F)) (j : ℕ) (r₀ : Ref sig .tc) (x : (c : Dev nD) → Buf (Elt F) ((c : Thread nD τ).loc r₀)) (c : Dev nD) :
    put o j r₀ x j r₀ c = x c := by
  unfold put; rw [dif_pos rfl, if_pos rfl]

theorem put_other (o : Outs (F := F)) (j : ℕ) (r₀ : Ref sig .tc) (x : (c : Dev nD) → Buf (Elt F) ((c : Thread nD τ).loc r₀)) (j' : ℕ) (r : Ref sig .tc) (c : Dev nD)
    (h : j' ≠ j) : put o j r₀ x j' r c = o j' r c := by
  unfold put; split <;> first | rfl | (rw [if_neg h])

/-- A record to start from: the launch contents everywhere (never read). -/
def outs0 : Outs (F := F) := fun _ r c => m ((c : Thread nD τ).loc r)

/-- After the projection call, -/
def outsA : Outs (F := F) := put (outs0 m) 2 main_v3 fun c => (dat0 (E0 m) c).arrAt 3 cfg0.N
/-- after the attention call, -/
def outsB : Outs (F := F) := put (outsA m) 4 main_v5 fun c => (dat1 (E1 m (outsA m)) c).arrAt 3 cfg1.N
/-- after the output-projection call. -/
def outsC : Outs (F := F) := put (outsB m) 6 main_v9 fun c => (dat2 (E2 m (outsB m)) c).arrAt 3 cfg2.N

theorem outsC_2 (c : Dev nD) : outsC m 2 main_v3 c = (dat0 (E0 m) c).arrAt 3 cfg0.N := by
  unfold outsC outsB; rw [put_other _ _ _ _ _ _ _ (by decide), put_other _ _ _ _ _ _ _ (by decide)]; exact put_same _ _ _ _ c
theorem outsB_2 (c : Dev nD) : outsB m 2 main_v3 c = outsA m 2 main_v3 c := by
  unfold outsB; exact put_other _ _ _ _ _ _ _ (by decide)
theorem outsC_2' (c : Dev nD) : outsC m 2 main_v3 c = outsA m 2 main_v3 c := by
  unfold outsC; rw [put_other _ _ _ _ _ _ _ (by decide)]; exact outsB_2 m c
theorem outsC_4 (c : Dev nD) : outsC m 4 main_v5 c = outsB m 4 main_v5 c := by
  unfold outsC; exact put_other _ _ _ _ _ _ _ (by decide)

/-- The contents before the attention call read only the projection call's entry, -/
theorem V3_outsC : V3 m (outsC m) = V3 m (outsA m) := by
  funext c
  show StableHlo.after hostOps1 (Function.update (V1 m c) main_v3 (outsC m 2 main_v3 c)) = StableHlo.after hostOps1 (Function.update (V1 m c) main_v3 (outsA m 2 main_v3 c))
  rw [outsC_2']
/-- and those before the output-projection call only the first two entries. -/
theorem V5_outsC : V5 m (outsC m) = V5 m (outsB m) := by
  funext c
  show StableHlo.after hostOps2 (Function.update (StableHlo.after hostOps1 (Function.update (V1 m c) main_v3 (outsC m 2 main_v3 c))) main_v5 (outsC m 4 main_v5 c))
    = StableHlo.after hostOps2 (Function.update (StableHlo.after hostOps1 (Function.update (V1 m c) main_v3 (outsB m 2 main_v3 c))) main_v5 (outsB m 4 main_v5 c))
  rw [outsC_2', outsB_2, outsC_4]

/-- So the record fits: each entry is what its call leaves from the contents the record itself gives before it. -/
theorem fits : Fits m (outsC m) where
  o0 c := outsC_2 m c
  o1 c := by
    rw [outsC_4]
    unfold outsB; rw [put_same]
    show (dat1 (fun c b => V3 m (outsA m) c b) c).arrAt 3 cfg1.N = (dat1 (fun c b => V3 m (outsC m) c b) c).arrAt 3 cfg1.N
    rw [V3_outsC]
  o2 c := by
    unfold outsC; rw [put_same]
    show (dat2 (fun c b => V5 m (outsB m) c b) c).arrAt 3 cfg2.N = (dat2 (fun c b => V5 m (put (outsB m) 6 main_v9 fun c => (dat2 (E2 m (outsB m)) c).arrAt 3 cfg2.N) c b) c).arrAt 3 cfg2.N
    rw [show put (outsB m) 6 main_v9 (fun c => (dat2 (E2 m (outsB m)) c).arrAt 3 cfg2.N) = outsC m from rfl, V5_outsC]

/-- An unscoped buffer of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read at the result and at the arguments: from any memory with zero counters every weakly fair execution
    terminates, nothing faulting; the result array ends at the fold's last contents and every argument as launched. -/
theorem run_result (ρ : Dev nD → PrngReg) :
    θ_run defs (onTc (τ := τ) (main (F := F))) ⟨m, fun _ => 0, ρ⟩ (fun r => ∀ c : Dev nD,
      r.2.mem ((c.tc : Thread nD τ).loc main_v10) = V7 m (outsC m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v10 (by decide)),
     (h c _ (mem_uc main_arg0 (by decide))).trans (V7_main_arg0 m (outsC m) c),
     (h c _ (mem_uc main_arg1 (by decide))).trans (V7_main_arg1 m (outsC m) c),
     (h c _ (mem_uc main_arg2 (by decide))).trans (V7_main_arg2 m (outsC m) c),
     (h c _ (mem_uc main_arg3 (by decide))).trans (V7_main_arg3 m (outsC m) c),
     (h c _ (mem_uc main_arg4 (by decide))).trans (V7_main_arg4 m (outsC m) c)⟩)
    (run_all m (outsC m) (fits m) ρ)

/-- The frame: the arguments end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Run

end
-- ==== Proof.LibFlatten.lean ====
/-
  A reshape that merges the two leading axes of a three-axis array into one, or splits the leading axis of a two-axis
  array into two, read at an index. Row-major order puts entry (p, q, k) of an [a, b, c] array at position
  (p * b + q) * c + k, and entry (R, k) of an [n, c] array at R * c + k: the two agree exactly when R = b * p + q.
-/
import Idealize.ShloMosaic.Lib.Pipeline.Value
import Idealize.ShloMosaic.Lib.ValueIdx

namespace Cert.LibFlatten

open Idealize.ShloMosaic Idealize.ShloMosaic.ValueIdx

/-- Merging the two leading axes: row b * p + q of the result is row (p, q) of the operand. -/
theorem merge_apply {α : Type} {a b c n : ℕ} (x : (⟨3, ![a, b, c]⟩ : Shape).Idx → α)
    (h : (⟨3, ![a, b, c]⟩ : Shape).ShapeCasts ⟨2, ![n, c]⟩) (p : Fin a) (q : Fin b) (k : Fin c) (R : Fin n)
    (hR : R.val = b * p.val + q.val) :
    shapeCast ⟨2, ![n, c]⟩ x h (ix2 R k) = x (ix3 p q k) :=
  shapeCast_apply x h (ix2 R k) (ix3 p q k) (by
    rw [Shape.rowMajor_val_three, Shape.rowMajor_val_two]
    show (p.val * b + q.val) * c + k.val = R.val * c + k.val
    rw [hR, Nat.mul_comm b p.val])

/-- Splitting the leading axis: entry (p, q) of the result is row b * p + q of the operand. -/
theorem split_apply {α : Type} {a b c n : ℕ} (y : (⟨2, ![n, c]⟩ : Shape).Idx → α)
    (h : (⟨2, ![n, c]⟩ : Shape).ShapeCasts ⟨3, ![a, b, c]⟩) (p : Fin a) (q : Fin b) (k : Fin c) (R : Fin n)
    (hR : R.val = b * p.val + q.val) :
    shapeCast ⟨3, ![a, b, c]⟩ y h (ix3 p q k) = y (ix2 R k) :=
  shapeCast_apply y h (ix3 p q k) (ix2 R k) (by
    rw [Shape.rowMajor_val_three, Shape.rowMajor_val_two]
    show R.val * c + k.val = (p.val * b + q.val) * c + k.val
    rw [hR, Nat.mul_comm b p.val])

end Cert.LibFlatten
-- ==== Proof.KIHost.lean ====
/-
  The host stretches of the kernel program read at an index.

  Between its three kernel calls the program only re-lays arrays out: it merges the tokens' two leading axes
  (`[4, 4096, 1024]` to `[16384, 1024]`, row `4096 · b + s`), transposes the two projection weights, views the two biases
  as one-row matrices, splits the first call's `[16384, 3072]` result back into `[4, 4096, 3072]`, merges the second
  call's result again, and splits the third call's result into the final `[4, 4096, 1024]` array. Each of these arrays,
  read at an index with literal coordinates, is one entry of an argument or of what a call left.
-/
import proofs.«131970_j54589034332684_2_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import proofs.«131970_j54589034332684_2_alg».proof.Proof.LibFlatten

noncomputable section

namespace Cert.KernelIdeal.HostVal

open Cert.KernelIdeal Cert.KernelIdeal.Gen Idealize.ShloMosaic Idealize.ShloMosaic.TcCoe Idealize.ShloMosaic.ValueIdx
  Idealize.SL.Sem

/-! ## A vector viewed as a one-row matrix -/

/-- An `[n]` array cast to the one-row matrix `[1, n]` reads, at `(z, e)`, the operand at `e`. -/
theorem cast_row {α : Type} {n : ℕ} (x : (⟨1, ![n]⟩ : Shape).Idx → α) (h : (⟨1, ![n]⟩ : Shape).ShapeCasts ⟨2, ![1, n]⟩)
    (z : Fin 1) (e : Fin n) : shapeCast ⟨2, ![1, n]⟩ x h (ix2 z e) = x (ix1 e) :=
  shapeCast_apply x h _ _ (by
    have hz : z.val = 0 := by have := z.isLt; omega
    rw [Shape.rowMajor_val_one, Shape.rowMajor_val_two]
    show e.val = z.val * n + e.val
    rw [hz, Nat.zero_mul, Nat.zero_add])

/-! ## What each host stretch writes, from any contents -/

section After
variable (V : Valuation τ sig (Elt Ideal))

theorem after0_v0 :
    (StableHlo.after hostOps0 V (Proc.devRef .tc main_v0) : S16384x1024.Idx → EReal)
      = shapeCast S16384x1024 (V (Proc.devRef .tc main_arg0) : S4x4096x1024.Idx → EReal) shapeCasts_S4x4096x1024_S16384x1024 := by
  after_results
  rfl

theorem after0_v1 :
    (StableHlo.after hostOps0 V (Proc.devRef .tc main_v1) : S1024x3072.Idx → EReal)
      = transpose S1024x3072 [1, 0] (V (Proc.devRef .tc main_arg1) : S3072x1024.Idx → EReal) transposes_S3072x1024_S1024x3072_1_0 := by
  after_results

theorem after0_v2 :
    (StableHlo.after hostOps0 V (Proc.devRef .tc main_v2) : S1x3072.Idx → EReal)
      = shapeCast S1x3072 (V (Proc.devRef .tc main_arg2) : S3072.Idx → EReal) shapeCasts_S3072_S1x3072 := by
  after_results
  rfl

theorem after1_v4 :
    (StableHlo.after hostOps1 V (Proc.devRef .tc main_v4) : S4x4096x3072.Idx → EReal)
      = shapeCast S4x4096x3072 (V (Proc.devRef .tc main_v3) : S16384x3072.Idx → EReal) shapeCasts_S16384x3072_S4x4096x3072 := by
  after_results
  rfl

theorem after2_v6 :
    (StableHlo.after hostOps2 V (Proc.devRef .tc main_v6) : S16384x1024.Idx → EReal)
      = shapeCast S16384x1024 (V (Proc.devRef .tc main_v5) : S4x4096x1024.Idx → EReal) shapeCasts_S4x4096x1024_S16384x1024 := by
  after_results
  rfl

theorem after2_v7 :
    (StableHlo.after hostOps2 V (Proc.devRef .tc main_v7) : S1024x1024.Idx → EReal)
      = transpose S1024x1024 [1, 0] (V (Proc.devRef .tc main_arg3) : S1024x1024.Idx → EReal) transposes_S1024x1024_S1024x1024_1_0 := by
  after_results

theorem after2_v8 :
    (StableHlo.after hostOps2 V (Proc.devRef .tc main_v8) : S1x1024.Idx → EReal)
      = shapeCast S1x1024 (V (Proc.devRef .tc main_arg4) : S1024.Idx → EReal) shapeCasts_S1024_S1x1024 := by
  after_results
  rfl

theorem after3_v10 :
    (StableHlo.after hostOps3 V (Proc.devRef .tc main_v10) : S4x4096x1024.Idx → EReal)
      = shapeCast S4x4096x1024 (V (Proc.devRef .tc main_v9) : S16384x1024.Idx → EReal) shapeCasts_S16384x1024_S4x4096x1024 := by
  after_results
  rfl

end After

section At
variable (m : (ℓ : Loc nD τ sig) → Buf (Elt Ideal) ℓ) (outs : Outs (F := Ideal)) (c : Dev nD)

/-- The merged tokens: row `4096 · b + s` is token `(b, s)`. -/
theorem v0_at (b : Fin 4) (s : Fin 4096) (R : Fin 16384) (hR : R.val = 4096 * b.val + s.val) (d : Fin 1024) :
    V1 m c main_v0 (ix2 R d) = m ((c : Thread nD τ).loc main_arg0) (ix3 b s d) := by
  have e := after0_v0 (V0 m c)
  exact (congrFun e (ix2 R d)).trans (Cert.LibFlatten.merge_apply _ _ b s d R hR)

/-- The transposed fused projection weight. -/
theorem v1_at (d : Fin 1024) (e : Fin 3072) :
    V1 m c main_v1 (ix2 d e) = m ((c : Thread nD τ).loc main_arg1) (ix2 e d) := by
  have h := after0_v1 (V0 m c)
  exact (congrFun h (ix2 d e)).trans (transpose_ix2_apply _ _ d e)

/-- The fused projection bias as a one-row matrix. -/
theorem v2_at (z : Fin 1) (e : Fin 3072) :
    V1 m c main_v2 (ix2 z e) = m ((c : Thread nD τ).loc main_arg2) (ix1 e) := by
  have h := after0_v2 (V0 m c)
  exact (congrFun h (ix2 z e)).trans (cast_row _ _ z e)

/-- The first call's result split back into sequences: entry `(b, s)` is its row `4096 · b + s`. -/
theorem v4_at (b : Fin 4) (s : Fin 4096) (R : Fin 16384) (hR : R.val = 4096 * b.val + s.val) (e : Fin 3072) :
    V3 m outs c main_v4 (ix3 b s e) = outs 2 main_v3 c (ix2 R e) := by
  have h := after1_v4 (V2 m outs c)
  have hu : (V2 m outs c main_v3 : S16384x3072.Idx → EReal) = outs 2 main_v3 c := Function.update_self ..
  exact (congrFun h (ix3 b s e)).trans ((Cert.LibFlatten.split_apply _ _ b s e R hR).trans (congrFun hu (ix2 R e)))

/-- The second call's result merged: row `4096 · b + s` is its entry `(b, s)`. -/
theorem v6_at (b : Fin 4) (s : Fin 4096) (R : Fin 16384) (hR : R.val = 4096 * b.val + s.val) (d : Fin 1024) :
    V5 m outs c main_v6 (ix2 R d) = outs 4 main_v5 c (ix3 b s d) := by
  have h := after2_v6 (V4 m outs c)
  have hu : (V4 m outs c main_v5 : S4x4096x1024.Idx → EReal) = outs 4 main_v5 c := Function.update_self ..
  exact (congrFun h (ix2 R d)).trans ((Cert.LibFlatten.merge_apply _ _ b s d R hR).trans (congrFun hu (ix3 b s d)))

/-- The transposed output projection weight. -/
theorem v7_at (d e : Fin 1024) :
    V5 m outs c main_v7 (ix2 d e) = m ((c : Thread nD τ).loc main_arg3) (ix2 e d) := by
  have h := after2_v7 (V4 m outs c)
  have ha : (V4 m outs c main_arg3 : S1024x1024.Idx → EReal) = m ((c : Thread nD τ).loc main_arg3) :=
    (V4_of m outs c main_arg3 (by decide)).trans <| (V3_of m outs c main_arg3 (by decide)).trans <|
      (V2_of m outs c main_arg3 (by decide)).trans <| (V1_of m c main_arg3 (by decide)).trans rfl
  exact (congrFun h (ix2 d e)).trans ((transpose_ix2_apply _ _ d e).trans (congrFun ha (ix2 e d)))

/-- The output projection bias as a one-row matrix. -/
theorem v8_at (z : Fin 1) (e : Fin 1024) :
    V5 m outs c main_v8 (ix2 z e) = m ((c : Thread nD τ).loc main_arg4) (ix1 e) := by
  have h := after2_v8 (V4 m outs c)
  have ha : (V4 m outs c main_arg4 : S1024.Idx → EReal) = m ((c : Thread nD τ).loc main_arg4) :=
    (V4_of m outs c main_arg4 (by decide)).trans <| (V3_of m outs c main_arg4 (by decide)).trans <|
      (V2_of m outs c main_arg4 (by decide)).trans <| (V1_of m c main_arg4 (by decide)).trans rfl
  exact (congrFun h (ix2 z e)).trans ((cast_row _ _ z e).trans (congrFun ha (ix1 e)))

/-- The result: entry `(b, s)` is row `4096 · b + s` of what the third call left. -/
theorem v10_at (b : Fin 4) (s : Fin 4096) (R : Fin 16384) (hR : R.val = 4096 * b.val + s.val) (e : Fin 1024) :
    V7 m outs c main_v10 (ix3 b s e) = outs 6 main_v9 c (ix2 R e) := by
  have h := after3_v10 (V6 m outs c)
  have hu : (V6 m outs c main_v9 : S16384x1024.Idx → EReal) = outs 6 main_v9 c := Function.update_self ..
  exact (congrFun h (ix3 b s e)).trans ((Cert.LibFlatten.split_apply _ _ b s e R hR).trans (congrFun hu (ix2 R e)))

end At

end Cert.KernelIdeal.HostVal

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KIVal0.lean ====
/- What the output array of custom_call 0 holds after the whole grid, at the ideal values: one function of the three
   input arrays, entry by entry over the extended reals — each row of the left matrix against each column of the
   weight, plus the bias of the column. -/
import proofs.«131970_j54589034332684_2_alg».proof.Proof.KIReg0
import proofs.«131970_j54589034332684_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The specification -/

/-- The affine layer over whole arrays: entry `(r, e)` is row `r` of `x` against column `e` of `w`, plus `b` at `e`. -/
def affine0 (x : FVec Ideal S16384x1024 .f32) (w : FVec Ideal S1024x3072 .f32) (b : FVec Ideal S1x3072 .f32) : S16384x3072.Idx → EReal :=
  fun i => (∑ d : Fin 1024, x (ix2 (⟨(i 0).val, (i 0).isLt⟩ : Fin 16384) d) * w (ix2 d (⟨(i 1).val, (i 1).isLt⟩ : Fin 3072)))
    + b (ix2 (0 : Fin 1) (⟨(i 1).val, (i 1).isLt⟩ : Fin 3072))

theorem affine0_ix (x : FVec Ideal S16384x1024 .f32) (w : FVec Ideal S1024x3072 .f32) (b : FVec Ideal S1x3072 .f32)
    (r : Fin 16384) (e : Fin 3072) :
    affine0 x w b (ix2 r e) = (∑ d : Fin 1024, x (ix2 r d) * w (ix2 d e)) + b (ix2 (0 : Fin 1) e) := rfl

/-! ## The body's payload at an entry -/

/-- The printed dimension numbers are the plain ones: rows by columns, one contracted axis. -/
theorem dims_plain0 : dot_S1024x1024_S1024x1024_S1024x1024_1_0_0_1_n_n = DotDims.plain 1024 1024 1024 := rfl

/-- At the ideal values the roundings are the identity, so the payload at `(p, q)` is the inner product of row `p` of
    the left block with column `q` of the weight block, plus the bias row at `q`. -/
theorem pay0_apply (x0 : Vec Ideal S1024x1024 .f32) (x1 : Vec Ideal S1024x1024 .f32) (x2 : Vec Ideal S1x1024 .f32) (p q : Fin 1024) :
    k0_pay1 (F := Ideal) x0 x1 x2 (ix2 p q) = (∑ d : Fin 1024, x0 (ix2 p d) * x1 (ix2 d q)) + x2 (ix2 (0 : Fin 1) q) := by
  unfold k0_pay1
  simp only [shapeCast_self]
  rw [truncf_apply, addf_apply, dims_plain0, LibMatmulPlain.matmul_plain_zero_apply, broadcastTo_1b_ab_apply]
  rfl

/-! ## A block of the output against the whole arrays -/

/-- If the three loaded blocks are the row block `i` of `X`, the column block `j` of `W` and the column block `j` of
    `B`, the payload at `(p, q)` is the affine layer of the whole arrays at `(1024 i + p, 1024 j + q)`. -/
theorem pay0_block (X : FVec Ideal S16384x1024 .f32) (W : FVec Ideal S1024x3072 .f32) (B : FVec Ideal S1x3072 .f32)
    (x0 : Vec Ideal S1024x1024 .f32) (x1 : Vec Ideal S1024x1024 .f32) (x2 : Vec Ideal S1x1024 .f32) (i j : ℕ) (hi : i ≤ 15) (hj : j ≤ 2)
    (h0 : ∀ p d : Fin 1024, x0 (ix2 p d) = X (ix2 (⟨i * 1024 + p.val, by have := p.isLt; omega⟩ : Fin 16384) d))
    (h1 : ∀ d q : Fin 1024, x1 (ix2 d q) = W (ix2 d (⟨j * 1024 + q.val, by have := q.isLt; omega⟩ : Fin 3072)))
    (h2 : ∀ q : Fin 1024, x2 (ix2 (0 : Fin 1) q) = B (ix2 (0 : Fin 1) (⟨j * 1024 + q.val, by have := q.isLt; omega⟩ : Fin 3072)))
    (p q : Fin 1024) :
    k0_pay1 (F := Ideal) x0 x1 x2 (ix2 p q)
      = affine0 X W B (ix2 (⟨i * 1024 + p.val, by have := p.isLt; omega⟩ : Fin 16384) (⟨j * 1024 + q.val, by have := q.isLt; omega⟩ : Fin 3072)) := by
  rw [pay0_apply, affine0_ix, h2]
  refine congrArg (· + _) (Finset.sum_congr rfl fun d _ => ?_)
  rw [h0, h1]

/-! ## The index maps over the grid -/

/-- The printed index maps, decided at every grid point: the left matrix's row block is the output's, its column
    block 0; the weight's and the bias's column block is the output's, their row block 0; and the output's block
    coordinates stay within 16 by 3. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 2 :=
  (by decide +kernel : ∀ t : Fin grid0.N, _)

/-- Every block of the 16 by 3 tiling is some point's. -/
theorem idx_onto0 : ∀ (q0 : Fin 16) (q1 : Fin 3), ∃ t : Fin cfg0.N, win0_3.index t = ![q0.val, q1.val] :=
  (by decide +kernel : ∀ (q0 : Fin 16) (q1 : Fin 3), ∃ t : Fin grid0.N, win0_3.index t = ![q0.val, q1.val])

/-! ## What each point writes back -/

variable (V : (c : Dev nD) → (b : Ref sig .tc) → Buf (Elt Ideal) ((c : Thread nD τ).loc b))

/-- What point `t` writes back is block `t` of the affine layer of the three arrays as the region found them. -/
theorem flushed0_eq (c : Dev nD) (t : Fin cfg0.N) :
    (dat0 (F := Ideal) V c).flushed 3 t
      = ((cfg0.win 3).blk t).view.read (Elt Ideal) (affine0 (V c main_v0) (V c main_v1) (V c main_v2)) := by
  show (cfg0.win 3).cut (grid0.coords t) ((dat0 (F := Ideal) V c).after 3 t) = _
  rw [dat0_after3, res0_eq]
  obtain ⟨e00, e01, e10, e11, e20, e21, b0, b1⟩ := idx_facts0 t
  funext y
  obtain ⟨p, q, rfl⟩ : ∃ (p q : Fin 1024), y = ix2 p q := ⟨y 0, y 1, eq_ix2 y⟩
  show k0_pay1 (F := Ideal) (blk0 V c 0 t) (blk0 V c 1 t) (blk0 V c 2 t) (ix2 p q)
      = affine0 (V c main_v0) (V c main_v1) (V c main_v2) (((cfg0.win 3).blk t).view.emb (ix2 p q))
  rw [pay0_block (V c main_v0) (V c main_v1) (V c main_v2) _ _ _ (win0_3.index t (0 : Fin 2)) (win0_3.index t (1 : Fin 2)) b0 b1 ?_ ?_ ?_ p q]
  · refine congrArg (affine0 (V c main_v0) (V c main_v1) (V c main_v2)) ?_
    funext a; apply Fin.ext
    match a with
    | ⟨0, _⟩ => show win0_3.index t (0 : Fin 2) * 1024 + p.val = win0_3.index t (0 : Fin 2) * 1024 + 1 * p.val; omega
    | ⟨1, _⟩ => show win0_3.index t (1 : Fin 2) * 1024 + q.val = win0_3.index t (1 : Fin 2) * 1024 + 1 * q.val; omega
  · intro p d
    show V c main_v0 (((cfg0.win 0).blk t).view.emb (ix2 p d)) = V c main_v0 (ix2 _ d)
    refine congrArg (V c main_v0) ?_
    funext a; apply Fin.ext
    match a with
    | ⟨0, _⟩ => show win0_0.index t (0 : Fin 2) * 1024 + 1 * p.val = win0_3.index t (0 : Fin 2) * 1024 + p.val; omega
    | ⟨1, _⟩ => show win0_0.index t (1 : Fin 2) * 1024 + 1 * d.val = d.val; omega
  · intro d q
    show V c main_v1 (((cfg0.win 1).blk t).view.emb (ix2 d q)) = V c main_v1 (ix2 d _)
    refine congrArg (V c main_v1) ?_
    funext a; apply Fin.ext
    match a with
    | ⟨0, _⟩ => show win0_1.index t (0 : Fin 2) * 1024 + 1 * d.val = d.val; omega
    | ⟨1, _⟩ => show win0_1.index t (1 : Fin 2) * 1024 + 1 * q.val = win0_3.index t (1 : Fin 2) * 1024 + q.val; omega
  · intro q
    show V c main_v2 (((cfg0.win 2).blk t).view.emb (ix2 (0 : Fin 1) q)) = V c main_v2 (ix2 (0 : Fin 1) _)
    refine congrArg (V c main_v2) ?_
    funext a; apply Fin.ext
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega

/-! ## The output's blocks tile its array -/

/-- An index of the output array lies in point `t`'s block iff each coordinate lies in the block's range on its axis. -/
theorem mem_blk0 (t : Fin cfg0.N) (i : S16384x3072.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3).slice (win0_3.rect t)).set ↔ _
  rw [View.set_slice_whole, Rect.mem_set_unit]
  exact Iff.rfl

/-- Every index is in the block of the point whose block coordinates are its coordinates' quotients by 1024, and every
    point writes its block back. -/
theorem cover0 (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  obtain ⟨t, ht⟩ := idx_onto0 ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-! ## The output array after the whole grid -/

/-- After the last point the output array is the affine layer of the three input arrays as the region found them. -/
theorem final0 (c : Dev nD) :
    (dat0 (F := Ideal) V c).arrAt 3 cfg0.N = affine0 (V c main_v0) (V c main_v1) (V c main_v2) :=
  (dat0 (F := Ideal) V c).arrAt_eq_of_cover 3 (affine0 (V c main_v0) (V c main_v1) (V c main_v2))
    (fun t _ => flushed0_eq V c t) cover0

end Cert.KernelIdeal.HandVal

end
-- ==== Proof.KIVal2.lean ====
/- What the output array of custom_call 2 holds after the whole grid, at the ideal values: one function of the three
   input arrays, entry by entry over the extended reals — each row of the left matrix against each column of the
   weight, plus the bias of the column. -/
import proofs.«131970_j54589034332684_2_alg».proof.Proof.KIReg2
import proofs.«131970_j54589034332684_2_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open scoped BigOperators

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The specification -/

/-- The affine layer over whole arrays: entry `(r, e)` is row `r` of `x` against column `e` of `w`, plus `b` at `e`. -/
def affine2 (x : FVec Ideal S16384x1024 .bf16) (w : FVec Ideal S1024x1024 .f32) (b : FVec Ideal S1x1024 .f32) : S16384x1024.Idx → EReal :=
  fun i => (∑ d : Fin 1024, x (ix2 (⟨(i 0).val, (i 0).isLt⟩ : Fin 16384) d) * w (ix2 d (⟨(i 1).val, (i 1).isLt⟩ : Fin 1024)))
    + b (ix2 (0 : Fin 1) (⟨(i 1).val, (i 1).isLt⟩ : Fin 1024))

theorem affine2_ix (x : FVec Ideal S16384x1024 .bf16) (w : FVec Ideal S1024x1024 .f32) (b : FVec Ideal S1x1024 .f32)
    (r : Fin 16384) (e : Fin 1024) :
    affine2 x w b (ix2 r e) = (∑ d : Fin 1024, x (ix2 r d) * w (ix2 d e)) + b (ix2 (0 : Fin 1) e) := rfl

/-! ## The body's payload at an entry -/

/-- The printed dimension numbers are the plain ones: rows by columns, one contracted axis. -/
theorem dims_plain2 : dot_S1024x1024_S1024x1024_S1024x1024_1_0_0_1_n_n = DotDims.plain 1024 1024 1024 := rfl

/-- At the ideal values the roundings are the identity, so the payload at `(p, q)` is the inner product of row `p` of
    the left block with column `q` of the weight block, plus the bias row at `q`. -/
theorem pay2_apply (x0 : Vec Ideal S1024x1024 .bf16) (x1 : Vec Ideal S1024x1024 .f32) (x2 : Vec Ideal S1x1024 .f32) (p q : Fin 1024) :
    k2_pay1 (F := Ideal) x0 x1 x2 (ix2 p q) = (∑ d : Fin 1024, x0 (ix2 p d) * x1 (ix2 d q)) + x2 (ix2 (0 : Fin 1) q) := by
  unfold k2_pay1
  simp only [shapeCast_self]
  rw [addf_apply, dims_plain2, LibMatmulPlain.matmul_plain_zero_apply, broadcastTo_1b_ab_apply]
  rfl

/-! ## A block of the output against the whole arrays -/

/-- If the three loaded blocks are the row block `i` of `X`, the column block `j` of `W` and the column block `j` of
    `B`, the payload at `(p, q)` is the affine layer of the whole arrays at `(1024 i + p, 1024 j + q)`. -/
theorem pay2_block (X : FVec Ideal S16384x1024 .bf16) (W : FVec Ideal S1024x1024 .f32) (B : FVec Ideal S1x1024 .f32)
    (x0 : Vec Ideal S1024x1024 .bf16) (x1 : Vec Ideal S1024x1024 .f32) (x2 : Vec Ideal S1x1024 .f32) (i j : ℕ) (hi : i ≤ 15) (hj : j ≤ 0)
    (h0 : ∀ p d : Fin 1024, x0 (ix2 p d) = X (ix2 (⟨i * 1024 + p.val, by have := p.isLt; omega⟩ : Fin 16384) d))
    (h1 : ∀ d q : Fin 1024, x1 (ix2 d q) = W (ix2 d (⟨j * 1024 + q.val, by have := q.isLt; omega⟩ : Fin 1024)))
    (h2 : ∀ q : Fin 1024, x2 (ix2 (0 : Fin 1) q) = B (ix2 (0 : Fin 1) (⟨j * 1024 + q.val, by have := q.isLt; omega⟩ : Fin 1024)))
    (p q : Fin 1024) :
    k2_pay1 (F := Ideal) x0 x1 x2 (ix2 p q)
      = affine2 X W B (ix2 (⟨i * 1024 + p.val, by have := p.isLt; omega⟩ : Fin 16384) (⟨j * 1024 + q.val, by have := q.isLt; omega⟩ : Fin 1024)) := by
  rw [pay2_apply, affine2_ix, h2]
  refine congrArg (· + _) (Finset.sum_congr rfl fun d _ => ?_)
  rw [h0, h1]

/-! ## The index maps over the grid -/

/-- The printed index maps, decided at every grid point: the left matrix's row block is the output's, its column
    block 0; the weight's and the bias's column block is the output's, their row block 0; and the output's block
    coordinates stay within 16 by 1. -/
theorem idx_facts2 : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) ≤ 15 ∧ win2_3.index t (1 : Fin 2) ≤ 0 :=
  (by decide +kernel : ∀ t : Fin grid2.N, _)

/-- Every block of the 16 by 1 tiling is some point's. -/
theorem idx_onto2 : ∀ (q0 : Fin 16) (q1 : Fin 1), ∃ t : Fin cfg2.N, win2_3.index t = ![q0.val, q1.val] :=
  (by decide +kernel : ∀ (q0 : Fin 16) (q1 : Fin 1), ∃ t : Fin grid2.N, win2_3.index t = ![q0.val, q1.val])

/-! ## What each point writes back -/

variable (V : (c : Dev nD) → (b : Ref sig .tc) → Buf (Elt Ideal) ((c : Thread nD τ).loc b))

/-- What point `t` writes back is block `t` of the affine layer of the three arrays as the region found them. -/
theorem flushed2_eq (c : Dev nD) (t : Fin cfg2.N) :
    (dat2 (F := Ideal) V c).flushed 3 t
      = ((cfg2.win 3).blk t).view.read (Elt Ideal) (affine2 (V c main_v6) (V c main_v7) (V c main_v8)) := by
  show (cfg2.win 3).cut (grid2.coords t) ((dat2 (F := Ideal) V c).after 3 t) = _
  rw [dat2_after3, res2_eq]
  obtain ⟨e00, e01, e10, e11, e20, e21, b0, b1⟩ := idx_facts2 t
  funext y
  obtain ⟨p, q, rfl⟩ : ∃ (p q : Fin 1024), y = ix2 p q := ⟨y 0, y 1, eq_ix2 y⟩
  show k2_pay1 (F := Ideal) (blk2 V c 0 t) (blk2 V c 1 t) (blk2 V c 2 t) (ix2 p q)
      = affine2 (V c main_v6) (V c main_v7) (V c main_v8) (((cfg2.win 3).blk t).view.emb (ix2 p q))
  rw [pay2_block (V c main_v6) (V c main_v7) (V c main_v8) _ _ _ (win2_3.index t (0 : Fin 2)) (win2_3.index t (1 : Fin 2)) b0 b1 ?_ ?_ ?_ p q]
  · refine congrArg (affine2 (V c main_v6) (V c main_v7) (V c main_v8)) ?_
    funext a; apply Fin.ext
    match a with
    | ⟨0, _⟩ => show win2_3.index t (0 : Fin 2) * 1024 + p.val = win2_3.index t (0 : Fin 2) * 1024 + 1 * p.val; omega
    | ⟨1, _⟩ => show win2_3.index t (1 : Fin 2) * 1024 + q.val = win2_3.index t (1 : Fin 2) * 1024 + 1 * q.val; omega
  · intro p d
    show V c main_v6 (((cfg2.win 0).blk t).view.emb (ix2 p d)) = V c main_v6 (ix2 _ d)
    refine congrArg (V c main_v6) ?_
    funext a; apply Fin.ext
    match a with
    | ⟨0, _⟩ => show win2_0.index t (0 : Fin 2) * 1024 + 1 * p.val = win2_3.index t (0 : Fin 2) * 1024 + p.val; omega
    | ⟨1, _⟩ => show win2_0.index t (1 : Fin 2) * 1024 + 1 * d.val = d.val; omega
  · intro d q
    show V c main_v7 (((cfg2.win 1).blk t).view.emb (ix2 d q)) = V c main_v7 (ix2 d _)
    refine congrArg (V c main_v7) ?_
    funext a; apply Fin.ext
    match a with
    | ⟨0, _⟩ => show win2_1.index t (0 : Fin 2) * 1024 + 1 * d.val = d.val; omega
    | ⟨1, _⟩ => show win2_1.index t (1 : Fin 2) * 1024 + 1 * q.val = win2_3.index t (1 : Fin 2) * 1024 + q.val; omega
  · intro q
    show V c main_v8 (((cfg2.win 2).blk t).view.emb (ix2 (0 : Fin 1) q)) = V c main_v8 (ix2 (0 : Fin 1) _)
    refine congrArg (V c main_v8) ?_
    funext a; apply Fin.ext
    match a with
    | ⟨0, _⟩ => show win2_2.index t (0 : Fin 2) * 1 + 1 * 0 = 0; omega
    | ⟨1, _⟩ => show win2_2.index t (1 : Fin 2) * 1024 + 1 * q.val = win2_3.index t (1 : Fin 2) * 1024 + q.val; omega

/-! ## The output's blocks tile its array -/

/-- An index of the output array lies in point `t`'s block iff each coordinate lies in the block's range on its axis. -/
theorem mem_blk2 (t : Fin cfg2.N) (i : S16384x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v9).slice (win2_3.rect t)).set ↔ _
  rw [View.set_slice_whole, Rect.mem_set_unit]
  exact Iff.rfl

/-- Every index is in the block of the point whose block coordinates are its coordinates' quotients by 1024, and every
    point writes its block back. -/
theorem cover2 (i : S16384x1024.Idx) :
    ∃ t : Fin cfg2.N, (cfg2.win 3).flush t = true ∧ i ∈ ((cfg2.win 3).blk t).view.set := by
  have hi0 : (i 0).val < 16384 := (i 0).isLt
  have hi1 : (i 1).val < 1024 := (i 1).isLt
  obtain ⟨t, ht⟩ := idx_onto2 ⟨(i 0).val / 1024, by omega⟩ ⟨(i 1).val / 1024, by omega⟩
  have q0 : win2_3.index t (0 : Fin 2) = (i 0).val / 1024 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 1024 ≤ (i 1).val ∧ (i 1).val < win2_3.index t (1 : Fin 2) * 1024 + 1024; omega

/-! ## The output array after the whole grid -/

/-- After the last point the output array is the affine layer of the three input arrays as the region found them. -/
theorem final2 (c : Dev nD) :
    (dat2 (F := Ideal) V c).arrAt 3 cfg2.N = affine2 (V c main_v6) (V c main_v7) (V c main_v8) :=
  (dat2 (F := Ideal) V c).arrAt_eq_of_cover 3 (affine2 (V c main_v6) (V c main_v7) (V c main_v8))
    (fun t _ => flushed2_eq V c t) cover2

end Cert.KernelIdeal.HandVal

end
-- ==== Proof.KIFlashPieces.lean ====
/- What the attention body's found pieces are, in each of its three control cases: the state after a point, component
   by component, as the body's payloads of the point's query, key and value blocks and of the state before. -/
import proofs.«131970_j54589034332684_2_alg».proof.Proof.KIFlashData
import Idealize.ShloMosaic.Lib.Pipeline.Value

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The offsets `![0, 0, 0]` are the zero function: every access of the body takes a whole buffer. -/
theorem hz3 : (![0, 0, 0] : Fin 3 → ℕ) = fun _ => 0 := by
  funext a; fin_cases a <;> rfl

/-! ## A middle key block

Each scratch buffer receives one whole-buffer store; every load reads a whole buffer as the point found it. -/

theorem stMid_m (c : Dev nD) (t : Fin cfg1.N) (h0 : ¬t.val % 8 = 0) (h7 : ¬t.val % 8 = 7) (p : St F) :
    (stMid V c t h0 h7 p).m = k1_pay2 (k1_pay8 (blk1 V c 0 t) (blk1 V c 1 t) p.m) := by
  unfold stMid
  dsimp only
  unfold runMid
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stMid_l (c : Dev nD) (t : Fin cfg1.N) (h0 : ¬t.val % 8 = 0) (h7 : ¬t.val % 8 = 7) (p : St F) :
    (stMid V c t h0 h7 p).l = k1_pay11 (blk1 V c 0 t) (blk1 V c 1 t) p.m p.m p.l := by
  unfold stMid
  dsimp only
  unfold runMid
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stMid_a (c : Dev nD) (t : Fin cfg1.N) (h0 : ¬t.val % 8 = 0) (h7 : ¬t.val % 8 = 7) (p : St F) :
    (stMid V c t h0 h7 p).a = k1_pay1 (k1_pay9 (blk1 V c 0 t) (blk1 V c 1 t) p.m p.m) (k1_pay10 (blk1 V c 0 t) (blk1 V c 1 t) p.m) (blk1 V c 2 t) p.a := by
  unfold stMid
  dsimp only
  unfold runMid
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

/-- After a middle key block: the new running maximum, denominator and numerator. -/
theorem stMid_eq (c : Dev nD) (t : Fin cfg1.N) (h0 : ¬t.val % 8 = 0) (h7 : ¬t.val % 8 = 7) (p : St F) :
    (stMid V c t h0 h7 p).m = k1_pay2 (k1_pay8 (blk1 V c 0 t) (blk1 V c 1 t) p.m)
    ∧ (stMid V c t h0 h7 p).l = k1_pay11 (blk1 V c 0 t) (blk1 V c 1 t) p.m p.m p.l
    ∧ (stMid V c t h0 h7 p).a = k1_pay1 (k1_pay9 (blk1 V c 0 t) (blk1 V c 1 t) p.m p.m) (k1_pay10 (blk1 V c 0 t) (blk1 V c 1 t) p.m) (blk1 V c 2 t) p.a :=
  ⟨stMid_m V c t h0 h7 p, stMid_l V c t h0 h7 p, stMid_a V c t h0 h7 p⟩

/-! ## A last key block

The same three stores, then the output buffer receives the quotient of what the numerator and the denominator
buffers read back after their stores. -/

theorem stLast_m (c : Dev nD) (t : Fin cfg1.N) (h0 : ¬t.val % 8 = 0) (h7 : t.val % 8 = 7) (p : St F) :
    (stLast V c t h0 h7 p).m = k1_pay2 (k1_pay8 (blk1 V c 0 t) (blk1 V c 1 t) p.m) := by
  unfold stLast
  dsimp only
  unfold runLast
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stLast_l (c : Dev nD) (t : Fin cfg1.N) (h0 : ¬t.val % 8 = 0) (h7 : t.val % 8 = 7) (p : St F) :
    (stLast V c t h0 h7 p).l = k1_pay11 (blk1 V c 0 t) (blk1 V c 1 t) p.m p.m p.l := by
  unfold stLast
  dsimp only
  unfold runLast
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stLast_a (c : Dev nD) (t : Fin cfg1.N) (h0 : ¬t.val % 8 = 0) (h7 : t.val % 8 = 7) (p : St F) :
    (stLast V c t h0 h7 p).a = k1_pay1 (k1_pay9 (blk1 V c 0 t) (blk1 V c 1 t) p.m p.m) (k1_pay10 (blk1 V c 0 t) (blk1 V c 1 t) p.m) (blk1 V c 2 t) p.a := by
  unfold stLast
  dsimp only
  unfold runLast
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stLast_o (c : Dev nD) (t : Fin cfg1.N) (h0 : ¬t.val % 8 = 0) (h7 : t.val % 8 = 7) (p : St F) :
    (stLast V c t h0 h7 p).o = k1_pay3 (stLast V c t h0 h7 p).a (stLast V c t h0 h7 p).l := by
  unfold stLast
  dsimp only
  unfold runLast
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

/-- After a last key block: the three running quantities as at a middle block, and the output block the quotient of
    the NEW numerator by the NEW denominator. -/
theorem stLast_eq (c : Dev nD) (t : Fin cfg1.N) (h0 : ¬t.val % 8 = 0) (h7 : t.val % 8 = 7) (p : St F) :
    (stLast V c t h0 h7 p).m = k1_pay2 (k1_pay8 (blk1 V c 0 t) (blk1 V c 1 t) p.m)
    ∧ (stLast V c t h0 h7 p).l = k1_pay11 (blk1 V c 0 t) (blk1 V c 1 t) p.m p.m p.l
    ∧ (stLast V c t h0 h7 p).a = k1_pay1 (k1_pay9 (blk1 V c 0 t) (blk1 V c 1 t) p.m p.m) (k1_pay10 (blk1 V c 0 t) (blk1 V c 1 t) p.m) (blk1 V c 2 t) p.a
    ∧ (stLast V c t h0 h7 p).o = k1_pay3 (stLast V c t h0 h7 p).a (stLast V c t h0 h7 p).l :=
  ⟨stLast_m V c t h0 h7 p, stLast_l V c t h0 h7 p, stLast_a V c t h0 h7 p, stLast_o V c t h0 h7 p⟩

/-! ## A first key block

The body first stores the reset values into the three scratch buffers and reads them back, so the update runs from
them instead of from what the point before left. -/

theorem stFirst_m (c : Dev nD) (t : Fin cfg1.N) (h0 : t.val % 8 = 0) :
    (stFirst V c t h0).m = k1_pay2 (k1_pay8 (blk1 V c 0 t) (blk1 V c 1 t) k1_pay4) := by
  unfold stFirst
  dsimp only
  unfold runFirst
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stFirst_l (c : Dev nD) (t : Fin cfg1.N) (h0 : t.val % 8 = 0) :
    (stFirst V c t h0).l = k1_pay11 (blk1 V c 0 t) (blk1 V c 1 t) k1_pay4 k1_pay4 k1_pay5 := by
  unfold stFirst
  dsimp only
  unfold runFirst
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

theorem stFirst_a (c : Dev nD) (t : Fin cfg1.N) (h0 : t.val % 8 = 0) :
    (stFirst V c t h0).a = k1_pay1 (k1_pay9 (blk1 V c 0 t) (blk1 V c 1 t) k1_pay4 k1_pay4) (k1_pay10 (blk1 V c 0 t) (blk1 V c 1 t) k1_pay4) (blk1 V c 2 t) k1_pay6 := by
  unfold stFirst
  dsimp only
  unfold runFirst
  dsimp only
  sl_unfold_words
  simp only [View.canon_cons_unit_zero (S := S1x1024x1) hz3, View.canon_cons_unit_zero (S := S1x1024x1024) hz3,
    View.readCov_unit_zero (S := S1x1024x1) (h := hz3), View.readCov_unit_zero (S := S1x1024x1024) (h := hz3),
    View.readAt_eq_ld, Memref.IsWhole.read_unread, (Memref.isWhole_whole cc1_scratch0).read_unread,
    (Memref.isWhole_whole cc1_scratch1).read_unread, (Memref.isWhole_whole cc1_scratch2).read_unread,
    View.ld_unit_zero (S := S1x1024x1024) hz3, View.ld_unit_zero (S := S1x512x1024) hz3, View.ld_unit_zero (S := S1x1024x1) hz3]

/-- After a first key block: the update from the reset maximum, denominator and numerator. -/
theorem stFirst_eq (c : Dev nD) (t : Fin cfg1.N) (h0 : t.val % 8 = 0) :
    (stFirst V c t h0).m = k1_pay2 (k1_pay8 (blk1 V c 0 t) (blk1 V c 1 t) k1_pay4)
    ∧ (stFirst V c t h0).l = k1_pay11 (blk1 V c 0 t) (blk1 V c 1 t) k1_pay4 k1_pay4 k1_pay5
    ∧ (stFirst V c t h0).a = k1_pay1 (k1_pay9 (blk1 V c 0 t) (blk1 V c 1 t) k1_pay4 k1_pay4) (k1_pay10 (blk1 V c 0 t) (blk1 V c 1 t) k1_pay4) (blk1 V c 2 t) k1_pay6 :=
  ⟨stFirst_m V c t h0, stFirst_l V c t h0, stFirst_a V c t h0⟩

end Cert.KernelIdeal.Flash

end
-- ==== Proof.KIFlashBlocks.lean ====
/- The attention call's three input windows all read ONE array, the fused projection [4, 4096, 3072]: the query
   block is rows of a query tile against its first 1024 columns, the key and value blocks are the rows of a key block
   against the next two runs of 1024 columns. Each block read at an index, as an entry of that array. -/
import proofs.«131970_j54589034332684_2_alg».proof.Proof.KIFlashData
import Idealize.ShloMosaic.Lib.Pipeline.Value
import Idealize.ShloMosaic.Lib.ValueIdx

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Flash

variable (V : (c : Dev nD) → (b : Ref sig .tc) → Buf (Elt Ideal) ((c : Thread nD τ).loc b))

/-- The grid point of batch `b`, query tile `qi`, key block `kv`: the grid runs batch, then query tile, then key block. -/
def pt (b qi : Fin 4) (kv : Fin 8) : Fin cfg1.N :=
  ⟨(b.val * 4 + qi.val) * 8 + kv.val, by
    show _ < grid1.N
    rw [N_1]; have := b.isLt; have := qi.isLt; have := kv.isLt; omega⟩

theorem pt_val (b qi : Fin 4) (kv : Fin 8) : (pt b qi kv).val = (b.val * 4 + qi.val) * 8 + kv.val := rfl

/-- The printed index maps of the three input windows, decided at every grid point: each takes the batch; the query
    window the query tile and column block 0; the key and value windows the key block and column blocks 1 and 2. -/
theorem in_idx_facts1 : ∀ t : Fin cfg1.N,
    win1_0.index t (0 : Fin 3) = t.val / 32 ∧ win1_0.index t (1 : Fin 3) = t.val / 8 % 4 ∧ win1_0.index t (2 : Fin 3) = 0
    ∧ win1_1.index t (0 : Fin 3) = t.val / 32 ∧ win1_1.index t (1 : Fin 3) = t.val % 8 ∧ win1_1.index t (2 : Fin 3) = 1
    ∧ win1_2.index t (0 : Fin 3) = t.val / 32 ∧ win1_2.index t (1 : Fin 3) = t.val % 8 ∧ win1_2.index t (2 : Fin 3) = 2 :=
  (by decide +kernel : ∀ t : Fin grid1.N, _)

/-- The query block at `(0, q, e)`: row `q` of query tile `qi` of batch `b`, column `e` of the first run of columns. -/
theorem blkQ (c : Dev nD) (t : Fin cfg1.N) (b qi : Fin 4) (kv : Fin 8) (ht : t.val = (b.val * 4 + qi.val) * 8 + kv.val)
    (q e : Fin 1024) :
    blk1 V c 0 t (ix3 (0 : Fin 1) q e)
      = V c main_v4 (ix3 b (⟨qi.val * 1024 + q.val, by have := qi.isLt; have := q.isLt; omega⟩ : Fin 4096)
          (⟨e.val, by have := e.isLt; omega⟩ : Fin 3072)) := by
  obtain ⟨e0, e1, e2, -⟩ := in_idx_facts1 t
  have := b.isLt; have := qi.isLt; have := kv.isLt
  show V c main_v4 (((cfg1.win 0).blk t).view.emb (ix3 (0 : Fin 1) q e)) = _
  refine congrArg (V c main_v4) ?_
  funext a; apply Fin.ext
  match a with
  | ⟨0, _⟩ => show win1_0.index t (0 : Fin 3) * 1 + 1 * 0 = b.val; omega
  | ⟨1, _⟩ => show win1_0.index t (1 : Fin 3) * 1024 + 1 * q.val = qi.val * 1024 + q.val; omega
  | ⟨2, _⟩ => show win1_0.index t (2 : Fin 3) * 1024 + 1 * e.val = e.val; omega

/-- The key block at `(0, k, e)`: row `k` of key block `kv` of batch `b`, column `e` of the second run of columns. -/
theorem blkK (c : Dev nD) (t : Fin cfg1.N) (b qi : Fin 4) (kv : Fin 8) (ht : t.val = (b.val * 4 + qi.val) * 8 + kv.val)
    (k : Fin 512) (e : Fin 1024) :
    blk1 V c 1 t (ix3 (0 : Fin 1) k e)
      = V c main_v4 (ix3 b (⟨kv.val * 512 + k.val, by have := kv.isLt; have := k.isLt; omega⟩ : Fin 4096)
          (⟨1024 + e.val, by have := e.isLt; omega⟩ : Fin 3072)) := by
  obtain ⟨-, -, -, e0, e1, e2, -⟩ := in_idx_facts1 t
  have := b.isLt; have := qi.isLt; have := kv.isLt
  show V c main_v4 (((cfg1.win 1).blk t).view.emb (ix3 (0 : Fin 1) k e)) = _
  refine congrArg (V c main_v4) ?_
  funext a; apply Fin.ext
  match a with
  | ⟨0, _⟩ => show win1_1.index t (0 : Fin 3) * 1 + 1 * 0 = b.val; omega
  | ⟨1, _⟩ => show win1_1.index t (1 : Fin 3) * 512 + 1 * k.val = kv.val * 512 + k.val; omega
  | ⟨2, _⟩ => show win1_1.index t (2 : Fin 3) * 1024 + 1 * e.val = 1024 + e.val; omega

/-- The value block at `(0, k, e)`: row `k` of key block `kv` of batch `b`, column `e` of the third run of columns. -/
theorem blkV (c : Dev nD) (t : Fin cfg1.N) (b qi : Fin 4) (kv : Fin 8) (ht : t.val = (b.val * 4 + qi.val) * 8 + kv.val)
    (k : Fin 512) (e : Fin 1024) :
    blk1 V c 2 t (ix3 (0 : Fin 1) k e)
      = V c main_v4 (ix3 b (⟨kv.val * 512 + k.val, by have := kv.isLt; have := k.isLt; omega⟩ : Fin 4096)
          (⟨2048 + e.val, by have := e.isLt; omega⟩ : Fin 3072)) := by
  obtain ⟨-, -, -, -, -, -, e0, e1, e2⟩ := in_idx_facts1 t
  have := b.isLt; have := qi.isLt; have := kv.isLt
  show V c main_v4 (((cfg1.win 2).blk t).view.emb (ix3 (0 : Fin 1) k e)) = _
  refine congrArg (V c main_v4) ?_
  funext a; apply Fin.ext
  match a with
  | ⟨0, _⟩ => show win1_2.index t (0 : Fin 3) * 1 + 1 * 0 = b.val; omega
  | ⟨1, _⟩ => show win1_2.index t (1 : Fin 3) * 512 + 1 * k.val = kv.val * 512 + k.val; omega
  | ⟨2, _⟩ => show win1_2.index t (2 : Fin 3) * 1024 + 1 * e.val = 2048 + e.val; omega

end Cert.KernelIdeal.HandVal

end
-- ==== Proof.LibFolds.lean ====
/-
  Folds and sums over the fibres of a reduction, and maxima of extended reals.

  A reduction over several axes reads, at a result index `j`, the source indices whose kept coordinates are `j`
  (the fibre of `j`). When the fibre is listed without repetition by a map `e` from a finite type, a sum or a
  commutative, associative fold over the fibre is the same sum or fold over that type. A fold of `max` from `⊥`
  commutes with every monotone map that fixes `⊥`, and over a nonempty family of real numbers it is a real number.
-/
import Idealize.ShloMosaic.PureOps.Ideal

namespace Cert.LibFolds

open Finset

section Fibre

variable {ι τ κ : Type} [Fintype ι] [Fintype κ]

/-- The fibre of `j` under `drop` is the image of a map `e` that lands in it and reaches all of it. -/
theorem filter_eq_image [DecidableEq ι] (drop : ι → τ) (j : τ) [DecidablePred fun i => drop i = j] (e : κ → ι)
    (hmem : ∀ k, drop (e k) = j) (hsurj : ∀ i, drop i = j → ∃ k, e k = i) :
    (univ.filter fun i => drop i = j) = univ.image e := by
  ext i
  simp only [mem_filter, mem_univ, true_and, mem_image]
  exact ⟨hsurj i, fun ⟨k, hk⟩ => hk ▸ hmem k⟩

/-- A sum over the fibre is the sum over the parameters of an injective listing of it. -/
theorem sum_fibre {M : Type} [AddCommMonoid M] (drop : ι → τ) (j : τ) [DecidablePred fun i => drop i = j] (e : κ → ι)
    (hinj : Function.Injective e) (hmem : ∀ k, drop (e k) = j) (hsurj : ∀ i, drop i = j → ∃ k, e k = i) (x : ι → M) :
    ∑ i ∈ univ.filter (fun i => drop i = j), x i = ∑ k, x (e k) := by
  classical
  rw [filter_eq_image drop j e hmem hsurj, sum_image fun a _ b _ h => hinj h]

/-- A commutative, associative fold over the fibre is the fold over the parameters of an injective listing of it. -/
theorem fold_fibre {α : Type} (op : α → α → α) [Std.Commutative op] [Std.Associative op] (b : α) (drop : ι → τ) (j : τ)
    [DecidablePred fun i => drop i = j] (e : κ → ι)
    (hinj : Function.Injective e) (hmem : ∀ k, drop (e k) = j) (hsurj : ∀ i, drop i = j → ∃ k, e k = i) (x : ι → α) :
    (univ.filter fun i => drop i = j).fold op b x = univ.fold op b (fun k => x (e k)) := by
  classical
  rw [filter_eq_image drop j e hmem hsurj, fold_image fun a _ b _ h => hinj h]
  rfl

end Fibre

section Max

variable {ι : Type}

/-- A fold of `max` from `⊥` commutes with a monotone map that fixes `⊥`. -/
theorem fold_max_map (g : EReal → EReal) (hg : Monotone g) (hb : g ⊥ = ⊥) (s : Finset ι) (f : ι → EReal) :
    s.fold max ⊥ (fun k => g (f k)) = g (s.fold max ⊥ f) := by
  classical
  induction s using Finset.induction_on with
  | empty => simp [hb]
  | insert a s ha ih => rw [fold_insert ha, fold_insert ha, ih, hg.map_max]

/-- A fold of `max` from `⊥` over pairs is the fold over the first coordinate of the folds over the second. -/
theorem fold_max_prod {α β : Type} [Fintype α] [Fintype β] (f : α × β → EReal) :
    (univ : Finset (α × β)).fold max ⊥ f = univ.fold max ⊥ fun a => univ.fold max ⊥ fun b => f (a, b) := by
  refine le_antisymm ?_ ?_
  · rw [fold_max_le]
    refine ⟨bot_le, fun p _ => ?_⟩
    rw [le_fold_max]
    refine Or.inr ⟨p.1, mem_univ _, ?_⟩
    rw [le_fold_max]
    exact Or.inr ⟨p.2, mem_univ _, le_rfl⟩
  · rw [fold_max_le]
    refine ⟨bot_le, fun a _ => ?_⟩
    rw [fold_max_le]
    refine ⟨bot_le, fun b _ => ?_⟩
    rw [le_fold_max]
    exact Or.inr ⟨(a, b), mem_univ _, le_rfl⟩

/-- An extended real that is a real number. -/
def IsReal (x : EReal) : Prop := ∃ r : ℝ, x = (r : EReal)

/-- The maximum of a nonempty finite family of real numbers is a real number. -/
theorem isReal_fold_max (s : Finset ι) (hs : s.Nonempty) (f : ι → EReal) (hf : ∀ k ∈ s, IsReal (f k)) :
    IsReal (s.fold max ⊥ f) := by
  classical
  induction hs using Finset.Nonempty.cons_induction with
  | singleton a =>
    obtain ⟨r, hr⟩ := hf a (mem_singleton_self a)
    exact ⟨r, by rw [fold_singleton, hr, max_eq_left bot_le]⟩
  | cons a s ha hs ih =>
    obtain ⟨r, hr⟩ := hf a (mem_cons_self a s)
    obtain ⟨p, hp⟩ := ih fun k hk => hf k (mem_cons.2 (Or.inr hk))
    exact ⟨max r p, by rw [fold_cons, hr, hp]; exact (EReal.coe_strictMono.monotone.map_max).symm⟩

end Max

/-- The sum of real numbers, read in the extended reals, is the sum of their readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

end Cert.LibFolds
-- ==== Proof.OnlineSoftmax.lean ====
/-
  The online softmax: a softmax-weighted sum computed one block of keys at a time.

  The keys come in 8 blocks of 512. The computation keeps a running maximum `m`, a running denominator `l` and a running
  numerator `a`, started at `(-∞, 0, 0)`. A block with scores `sⱼ` and values `vⱼ` updates them to

      m' = max m (max over the block of sⱼ),
      l' = exp (m - m') · l + ∑ k, exp (sⱼ k - m'),
      a' = exp (m - m') · a + ∑ k, exp (sⱼ k - m') · vⱼ k,

  and the result is `a / l` after the last block. For real scores and values this is the plain softmax-weighted sum

      ∑ (j, k), (exp (s j k - M) / ∑ (j', k'), exp (s j' k' - M)) · v j k,      M the maximum of all the scores,

  because after `j ≥ 1` blocks `m` is the maximum `mⱼ` of the scores seen, `l = ∑ exp (s - mⱼ)` and
  `a = ∑ exp (s - mⱼ) · v` over the scores seen: rescaling by `exp (m - m')` turns `exp (s - m)` into `exp (s - m')`.
  The first block starts from `-∞`: `exp (-∞ - m') = 0` and `0 · 0 = 0`.

  Everything is stated in the extended reals, the real data read through the coercion. Last, the same statement over
  a flat key index `k : Fin 4096`, the key `512 · j + p` being position `p` of block `j`.
-/
import Idealize.ShloMosaic.PureOps.Ideal
import proofs.«131970_j54589034332684_2_alg».proof.Proof.LibFolds

noncomputable section

open scoped BigOperators

namespace Cert.Attn

open Idealize.ShloMosaic Finset

/-! ## The recurrence -/

/-- One block's update of (running maximum, running denominator, running numerator). -/
def step (sj vj : Fin 512 → EReal) (st : EReal × EReal × EReal) : EReal × EReal × EReal :=
  let m' := max st.1 (Finset.univ.fold max ⊥ sj)
  (m', Ideal.exp (st.1 - m') * st.2.1 + ∑ k, Ideal.exp (sj k - m'),
    Ideal.exp (st.1 - m') * st.2.2 + ∑ k, Ideal.exp (sj k - m') * vj k)

/-- The state after the first `j` blocks, from `(-∞, 0, 0)`; past the eighth block nothing changes. -/
def run (s v : Fin 8 → Fin 512 → EReal) : ℕ → EReal × EReal × EReal
  | 0 => (⊥, 0, 0)
  | j + 1 => if h : j < 8 then step (s ⟨j, h⟩) (v ⟨j, h⟩) (run s v j) else run s v j

theorem run_zero (s v : Fin 8 → Fin 512 → EReal) : run s v 0 = (⊥, 0, 0) := rfl

theorem run_succ (s v : Fin 8 → Fin 512 → EReal) (j : ℕ) (h : j < 8) :
    run s v (j + 1) = step (s ⟨j, h⟩) (v ⟨j, h⟩) (run s v j) := by
  show (if h : j < 8 then step (s ⟨j, h⟩) (v ⟨j, h⟩) (run s v j) else run s v j) = _
  exact dif_pos h

/-! ## Exponentials and sums of real data, read in the extended reals -/

/-- The exponential of a difference of reals is the real exponential of the difference. -/
theorem exp_sub_coe (a b : ℝ) : Ideal.exp ((a : EReal) - (b : EReal)) = ((Real.exp (a - b) : ℝ) : EReal) := by
  rw [← EReal.coe_sub, Ideal.exp_coe]

/-- A sum of such exponentials is the real sum. -/
theorem sum_exp_coe {ι : Type} (t : Finset ι) (σ : ι → ℝ) (M : ℝ) :
    ∑ k ∈ t, Ideal.exp ((σ k : EReal) - (M : EReal)) = ((∑ k ∈ t, Real.exp (σ k - M) : ℝ) : EReal) := by
  rw [LibFolds.coe_sum]
  exact Finset.sum_congr rfl fun k _ => exp_sub_coe _ _

/-- A sum of such exponentials weighted by reals is the real weighted sum. -/
theorem sum_exp_mul_coe {ι : Type} (t : Finset ι) (σ ν : ι → ℝ) (M : ℝ) :
    ∑ k ∈ t, Ideal.exp ((σ k : EReal) - (M : EReal)) * (ν k : EReal)
      = ((∑ k ∈ t, Real.exp (σ k - M) * ν k : ℝ) : EReal) := by
  rw [LibFolds.coe_sum]
  exact Finset.sum_congr rfl fun k _ => by rw [exp_sub_coe, EReal.coe_mul]

/-- The maximum of a block of real scores is a real number. -/
theorem block_max_real (σ : Fin 512 → ℝ) : ∃ μ : ℝ, (univ.fold max ⊥ fun k => (σ k : EReal)) = (μ : EReal) :=
  LibFolds.isReal_fold_max univ univ_nonempty _ fun k _ => ⟨σ k, rfl⟩

/-! ## One step on real data -/

/-- The first block, from `(-∞, 0, 0)`: the block's maximum `μ`, `∑ exp (σ - μ)` and `∑ exp (σ - μ) · ν`. -/
theorem step_bot (σ ν : Fin 512 → ℝ) (μ : ℝ) (hμ : (univ.fold max ⊥ fun k => (σ k : EReal)) = (μ : EReal)) :
    step (fun k => (σ k : EReal)) (fun k => (ν k : EReal)) (⊥, 0, 0)
      = ((μ : EReal), ((∑ k, Real.exp (σ k - μ) : ℝ) : EReal), ((∑ k, Real.exp (σ k - μ) * ν k : ℝ) : EReal)) := by
  have h1 : max (⊥ : EReal) (univ.fold max ⊥ fun k => (σ k : EReal)) = (μ : EReal) := by
    rw [hμ]; exact max_eq_right bot_le
  unfold step
  dsimp only
  rw [h1, EReal.bot_sub, Ideal.exp_bot, zero_mul, zero_add, zero_add, sum_exp_coe, sum_exp_mul_coe]

/-- A later block, from a real state `(m, l, a)`: the maximum `max m μ`, the old sums rescaled by `exp (m - max m μ)`
    plus the block's. -/
theorem step_coe (m l a : ℝ) (σ ν : Fin 512 → ℝ) (μ : ℝ) (hμ : (univ.fold max ⊥ fun k => (σ k : EReal)) = (μ : EReal)) :
    step (fun k => (σ k : EReal)) (fun k => (ν k : EReal)) ((m : EReal), (l : EReal), (a : EReal))
      = (((max m μ : ℝ) : EReal),
          ((Real.exp (m - max m μ) * l + ∑ k, Real.exp (σ k - max m μ) : ℝ) : EReal),
          ((Real.exp (m - max m μ) * a + ∑ k, Real.exp (σ k - max m μ) * ν k : ℝ) : EReal)) := by
  have h1 : max (m : EReal) (univ.fold max ⊥ fun k => (σ k : EReal)) = ((max m μ : ℝ) : EReal) := by
    rw [hμ]; exact (EReal.coe_strictMono.monotone.map_max).symm
  unfold step
  dsimp only
  rw [h1, exp_sub_coe, sum_exp_coe, sum_exp_mul_coe, ← EReal.coe_mul, ← EReal.coe_mul, ← EReal.coe_add, ← EReal.coe_add]

/-! ## The state after `j ≥ 1` blocks -/

/-- The blocks before the `j`-th. -/
def seen (j : ℕ) : Finset (Fin 8) := univ.filter fun i => i.val < j

theorem seen_zero : seen 0 = ∅ := by
  ext i; simp [seen]

theorem seen_eight : seen 8 = univ := by
  ext i; simp [seen]

theorem not_mem_seen (j : ℕ) (h : j < 8) : (⟨j, h⟩ : Fin 8) ∉ seen j := by
  simp [seen]

theorem seen_succ (j : ℕ) (h : j < 8) : seen (j + 1) = insert (⟨j, h⟩ : Fin 8) (seen j) := by
  ext i
  simp only [seen, mem_filter, mem_univ, true_and, mem_insert, Fin.ext_iff]
  omega

/-- After `j ≥ 1` blocks the state is (the maximum `m` of the scores seen, `∑ exp (s - m)`, `∑ exp (s - m) · v`), the
    sums over the scores seen. -/
def Closed (s v : Fin 8 → Fin 512 → ℝ) (j : ℕ) : Prop :=
  ∃ m : ℝ, ((seen j).fold max ⊥ fun i => univ.fold max ⊥ fun k => (s i k : EReal)) = (m : EReal) ∧
    run (fun i k => (s i k : EReal)) (fun i k => (v i k : EReal)) j
      = ((m : EReal), ((∑ i ∈ seen j, ∑ k, Real.exp (s i k - m) : ℝ) : EReal),
          ((∑ i ∈ seen j, ∑ k, Real.exp (s i k - m) * v i k : ℝ) : EReal))

theorem closed_one (s v : Fin 8 → Fin 512 → ℝ) : Closed s v 1 := by
  obtain ⟨μ, hμ⟩ := block_max_real (s ⟨0, by decide⟩)
  refine ⟨μ, ?_, ?_⟩
  · rw [seen_succ 0 (by decide), seen_zero, fold_insert (notMem_empty _), fold_empty, hμ]
    exact max_eq_left bot_le
  · rw [run_succ _ _ 0 (by decide), run_zero, step_bot _ _ μ hμ, seen_succ 0 (by decide), seen_zero,
      sum_insert (notMem_empty _), sum_empty, add_zero, sum_insert (notMem_empty _), sum_empty, add_zero]

theorem closed_succ (s v : Fin 8 → Fin 512 → ℝ) (j : ℕ) (h : j < 8) (hj : Closed s v j) : Closed s v (j + 1) := by
  obtain ⟨m, hm, hrun⟩ := hj
  obtain ⟨μ, hμ⟩ := block_max_real (s ⟨j, h⟩)
  refine ⟨max m μ, ?_, ?_⟩
  · rw [seen_succ j h, fold_insert (not_mem_seen j h), hμ, hm, max_comm]
    exact (EReal.coe_strictMono.monotone.map_max).symm
  · rw [run_succ _ _ j h, hrun, step_coe m _ _ _ _ μ hμ, seen_succ j h, sum_insert (not_mem_seen j h),
      sum_insert (not_mem_seen j h)]
    have e1 : Real.exp (m - max m μ) * ∑ i ∈ seen j, ∑ k, Real.exp (s i k - m)
        = ∑ i ∈ seen j, ∑ k, Real.exp (s i k - max m μ) := by
      rw [mul_sum]
      refine sum_congr rfl fun i _ => ?_
      rw [mul_sum]
      refine sum_congr rfl fun k _ => ?_
      rw [← Real.exp_add]
      congr 1; ring
    have e2 : Real.exp (m - max m μ) * ∑ i ∈ seen j, ∑ k, Real.exp (s i k - m) * v i k
        = ∑ i ∈ seen j, ∑ k, Real.exp (s i k - max m μ) * v i k := by
      rw [mul_sum]
      refine sum_congr rfl fun i _ => ?_
      rw [mul_sum]
      refine sum_congr rfl fun k _ => ?_
      rw [← mul_assoc, ← Real.exp_add]
      congr 2; ring
    rw [e1, e2, add_comm (∑ i ∈ seen j, ∑ k, Real.exp (s i k - max m μ)),
      add_comm (∑ i ∈ seen j, ∑ k, Real.exp (s i k - max m μ) * v i k)]

/-- The closed form holds after every positive number of blocks. -/
theorem closed_all (s v : Fin 8 → Fin 512 → ℝ) (j : ℕ) (h1 : 1 ≤ j) (h8 : j ≤ 8) : Closed s v j := by
  induction j, h1 using Nat.le_induction with
  | base => exact closed_one s v
  | succ n hn ih => exact closed_succ s v n (by omega) (ih (by omega))

/-! ## The result -/

/-- A real softmax numerator over a nonzero real denominator, term by term: `(∑ exp (s - m) · v) / L` is the sum of the
    terms `(exp (s - m) / L) · v`. -/
theorem div_sum_exp {ι κ : Type} [Fintype ι] [Fintype κ] (s v : ι → κ → ℝ) (m L : ℝ) (hL : L ≠ 0) :
    Ideal.div ((∑ i, ∑ k, Real.exp (s i k - m) * v i k : ℝ) : EReal) (L : EReal)
      = ∑ i, ∑ k, Ideal.div (Ideal.exp ((s i k : EReal) - (m : EReal))) (L : EReal) * (v i k : EReal) := by
  have hterm : ∀ i k, Ideal.div (Ideal.exp ((s i k : EReal) - (m : EReal))) (L : EReal) * (v i k : EReal)
      = ((Real.exp (s i k - m) * v i k * (1 / L) : ℝ) : EReal) := fun i k => by
    rw [Ideal.div_coe hL, exp_sub_coe, ← EReal.coe_mul, ← EReal.coe_mul]
    congr 1; ring
  rw [Ideal.div_coe hL, ← EReal.coe_mul, Finset.sum_mul, LibFolds.coe_sum]
  refine Finset.sum_congr rfl fun i _ => ?_
  rw [Finset.sum_mul, LibFolds.coe_sum]
  exact Finset.sum_congr rfl fun k _ => (hterm i k).symm

/-- THE ONLINE SOFTMAX IS THE SOFTMAX: after the eight blocks, numerator over denominator is the softmax-weighted sum of
    the values, the softmax written as it is computed in one pass (the maximum from `-∞` and once more against `-∞`,
    the denominator's sum started at `0`). -/
theorem online_softmax (s v : Fin 8 → Fin 512 → ℝ) :
    Ideal.div (run (fun i k => (s i k : EReal)) (fun i k => (v i k : EReal)) 8).2.2
        (run (fun i k => (s i k : EReal)) (fun i k => (v i k : EReal)) 8).2.1
      = ∑ i : Fin 8, ∑ k : Fin 512,
          Ideal.div
            (Ideal.exp ((s i k : EReal) - max ⊥ (univ.fold max ⊥ fun i' : Fin 8 => univ.fold max ⊥ fun k' : Fin 512 => (s i' k' : EReal))))
            (0 + ∑ i' : Fin 8, ∑ k' : Fin 512,
              Ideal.exp ((s i' k' : EReal) - max ⊥ (univ.fold max ⊥ fun i'' : Fin 8 => univ.fold max ⊥ fun k'' : Fin 512 => (s i'' k'' : EReal))))
          * (v i k : EReal) := by
  obtain ⟨m, hm, hrun⟩ := closed_all s v 8 (by decide) le_rfl
  rw [seen_eight] at hm hrun
  rw [hrun, max_eq_right bot_le, hm]
  dsimp only
  have hL : (0 : ℝ) < ∑ i : Fin 8, ∑ k : Fin 512, Real.exp (s i k - m) :=
    sum_pos (fun i _ => sum_pos (fun k _ => Real.exp_pos _) univ_nonempty) univ_nonempty
  have hden : (0 : EReal) + ∑ i : Fin 8, ∑ k : Fin 512, Ideal.exp ((s i k : EReal) - (m : EReal))
      = ((∑ i : Fin 8, ∑ k : Fin 512, Real.exp (s i k - m) : ℝ) : EReal) := by
    rw [zero_add, LibFolds.coe_sum]
    exact sum_congr rfl fun i _ => sum_exp_coe _ _ _
  rw [hden]
  exact div_sum_exp s v m _ hL.ne'

/-! ## A flat key index -/

/-- Position `p` of block `j` is key `512 · j + p`. -/
def key (j : Fin 8) (p : Fin 512) : Fin 4096 := ⟨512 * j.val + p.val, by have := j.isLt; have := p.isLt; omega⟩

/-- The 4096 keys are the 8 blocks of 512 positions. -/
def blockEquiv : Fin 8 × Fin 512 ≃ Fin 4096 where
  toFun jp := key jp.1 jp.2
  invFun k := (⟨k.val / 512, by have := k.isLt; omega⟩, ⟨k.val % 512, Nat.mod_lt _ (by decide)⟩)
  left_inv jp := by
    obtain ⟨⟨j, hj⟩, ⟨p, hp⟩⟩ := jp
    refine Prod.ext (Fin.ext ?_) (Fin.ext ?_)
    · show (512 * j + p) / 512 = j; omega
    · show (512 * j + p) % 512 = p; omega
  right_inv k := by
    refine Fin.ext ?_
    show 512 * (k.val / 512) + k.val % 512 = k.val
    omega

/-- A sum over the keys is the sum over the blocks of the sums over the positions. -/
theorem sum_keys {M : Type} [AddCommMonoid M] (f : Fin 4096 → M) :
    ∑ k : Fin 4096, f k = ∑ j : Fin 8, ∑ p : Fin 512, f (key j p) := by
  rw [← Equiv.sum_comp blockEquiv f, Fintype.sum_prod_type]
  rfl

/-- A maximum over the keys, from `-∞`, is the maximum over the blocks of the maxima over the positions. -/
theorem fold_max_keys (f : Fin 4096 → EReal) :
    univ.fold max ⊥ f = univ.fold max ⊥ fun j : Fin 8 => univ.fold max ⊥ fun p : Fin 512 => f (key j p) := by
  rw [← LibFolds.fold_max_prod fun jp : Fin 8 × Fin 512 => f (key jp.1 jp.2), ← Finset.map_univ_equiv blockEquiv,
    Finset.fold_map]
  rfl

/-- The online softmax over a flat key index: blocks of the real scores `sc` and values `vl` at the keys
    `512 · j + p`, against the one-pass softmax-weighted sum over `k : Fin 4096`. -/
theorem online_softmax_flat (sc vl : Fin 4096 → ℝ) :
    Ideal.div (run (fun j p => (sc (key j p) : EReal)) (fun j p => (vl (key j p) : EReal)) 8).2.2
        (run (fun j p => (sc (key j p) : EReal)) (fun j p => (vl (key j p) : EReal)) 8).2.1
      = ∑ k : Fin 4096,
          Ideal.div (Ideal.exp ((sc k : EReal) - max ⊥ (univ.fold max ⊥ fun k' : Fin 4096 => (sc k' : EReal))))
            (0 + ∑ k' : Fin 4096,
              Ideal.exp ((sc k' : EReal) - max ⊥ (univ.fold max ⊥ fun k'' : Fin 4096 => (sc k'' : EReal))))
          * (vl k : EReal) := by
  rw [online_softmax (fun j p => sc (key j p)) (fun j p => vl (key j p))]
  simp only [sum_keys (M := EReal), fold_max_keys fun k => (sc k : EReal)]

end Cert.Attn

end
-- ==== Proof.KIFlashPay.lean ====
/-
  The attention kernel's payloads read at an index, at the ideal values.

  One grid point of the attention kernel holds a query tile `xq` (1024 rows of 1024 features), a key block `xk` and a
  value block `xv` (512 rows of 1024 features), and per query row a running maximum `m0`, a running denominator `l0`
  (columns `[1, 1024, 1]`) and a running numerator `a0` (1024 columns per row). Read at an index with literal
  coordinates, its payloads are: the scores (the inner product of a query row with a key row, times `1/32`), the new
  maximum (the old one against the row's maximum from `-∞`), the rescaling factor `exp (old maximum - new maximum)`, the
  weights `exp (score - new maximum)`, the new denominator and numerator (the old ones rescaled, plus the row's sum of
  weights, respectively the weights against a column of the values), and at the last block numerator over
  denominator. Together, for a fixed row and column, the update is one step of the online softmax.
-/
import proofs.«131970_j54589034332684_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«131970_j54589034332684_2_alg».proof.Proof.LibFolds
import proofs.«131970_j54589034332684_2_alg».proof.Proof.OnlineSoftmax

noncomputable section

open scoped BigOperators

namespace Cert.KernelIdeal.FlashVal

open Cert.KernelIdeal Cert.KernelIdeal.Gen Idealize.ShloMosaic Idealize.ShloMosaic.ValueIdx

/-! ## Layout readings -/

section Layout
variable {α : Type}

/-- A `[1, 1024]` array cast to the column `[1, 1024, 1]` reads, at `(z, q, u)`, the operand at `(z, q)`: both have
    row-major position `z · 1024 + q`. -/
theorem cast_col (v : S1x1024.Idx → α) (h : S1x1024.ShapeCasts S1x1024x1) (z : Fin 1) (q : Fin 1024) (u : Fin 1) :
    shapeCast S1x1024x1 v h (ix3 z q u) = v (ix2 z q) :=
  shapeCast_apply v h _ _ (by
    rw [Shape.rowMajor_val_two, Shape.rowMajor_val_three]
    show z.val * 1024 + q.val = (z.val * 1024 + q.val) * 1 + u.val
    omega)

/-- A column `[1, 1024, 1]` broadcast to `[1, 1024, n]` reads, at `(z, q, c)`, the column's entry of row `q`. -/
theorem bcast_col {n : ℕ} (v : S1x1024x1.Idx → α) (h : S1x1024x1.Broadcasts ⟨3, ![1, 1024, n]⟩) (z : Fin 1) (q : Fin 1024)
    (c : Fin n) : broadcastTo ⟨3, ![1, 1024, n]⟩ v h (ix3 z q c) = v (ix3 z q (0 : Fin 1)) := by
  refine broadcastTo_apply v h (ix3 z q c) (ix3 z q (0 : Fin 1)) fun ax => ?_
  match ax with
  | ⟨0, _⟩ =>
    show z.val = if (1 : ℕ) = 1 then 0 else z.val
    rw [if_pos rfl]; have := z.isLt; omega
  | ⟨1, _⟩ =>
    show q.val = if (1024 : ℕ) = 1 then 0 else q.val
    rw [if_neg (by decide)]
  | ⟨2, _⟩ => rfl

/-- A column has one entry per row: its unit coordinate is `0`. -/
theorem col_unit (v : S1x1024x1.Idx → α) (z : Fin 1) (q : Fin 1024) (u : Fin 1) : v (ix3 z q u) = v (ix3 z q (0 : Fin 1)) := by
  have hu : u = 0 := Subsingleton.elim _ _
  rw [hu]

/-- The `(z, q)` index of the row reductions' result with key position `k` put back is `(z, q, k)`. -/
theorem lift_row (z : Fin 1) (q : Fin 1024) (k : Fin (S1x1024x512.size 2)) :
    reduces_S1x1024x512_S1x1024.lift (ix2 z q) k = ix3 z q (⟨k.val, k.isLt⟩ : Fin 512) := by
  funext c; apply Fin.ext
  fin_cases c <;> rfl

end Layout

/-! ## The two row reductions -/

/-- The row maximum from the `-∞` pattern: at `(z, q)`, the maximum from `-∞` of the row's 512 entries. -/
theorem rowmax_apply (src : FVec Ideal S1x1024x512 .f32) (hφ : FKind.Formats .f32)
    (hacc : (0xFF800000#32 : BitVec 32) = 0xFF800000#32) (z : Fin 1) (q : Fin 1024) :
    multiReduction (F := Ideal) .maximumf [2] S1x1024 src 0xFF800000#32 reduces_S1x1024x512_S1x1024 hφ hacc (ix2 z q)
      = Finset.univ.fold max ⊥ fun k : Fin 512 => src (ix3 z q k) := by
  refine (Ideal.multiReduction_maximumf_single src 0xFF800000#32 reduces_S1x1024x512_S1x1024 hφ hacc (ix2 z q)).trans ?_
  have hb : FloatOps.ofBits (F := Ideal) .f32 0xFF800000#32 = (⊥ : EReal) := by
    show Ideal.ofBits .f32 0xFF800000#32 = ⊥
    simp [Ideal.ofBits, Ideal.ieee]
  rw [hb]
  have hf : (src ∘ reduces_S1x1024x512_S1x1024.lift (ix2 z q)) = fun k : Fin 512 => src (ix3 z q k) :=
    funext fun k => congrArg src (lift_row z q k)
  exact congrArg (fun f => Finset.fold max (⊥ : EReal) f (Finset.univ : Finset (Fin 512))) hf

/-- The row sum: at `(z, q)`, the sum of the row's 512 entries. -/
theorem rowsum_apply (src : FVec Ideal S1x1024x512 .f32) (hφ : FKind.Formats .f32)
    (hacc : (0x00000000#32 : BitVec 32) = 0x00000000#32) (z : Fin 1) (q : Fin 1024) :
    multiReduction (F := Ideal) .add [2] S1x1024 src 0x00000000#32 reduces_S1x1024x512_S1x1024 hφ hacc (ix2 z q)
      = ∑ k : Fin 512, src (ix3 z q k) := by
  refine (Ideal.multiReduction_add_single src 0x00000000#32 reduces_S1x1024x512_S1x1024 hφ hacc (ix2 z q)).trans ?_
  exact Finset.sum_congr rfl fun k _ => congrArg src (lift_row z q k)

/-! ## The two batched products -/

section QK
variable (i : S1x1024x512.Idx) (c : dot_S1x1024x1024_S1x512x1024_S1x1024x512_2_2_1_1_0_0.contr.Idx)

theorem qk_lhs_0 : (dot_S1x1024x1024_S1x512x1024_S1x1024x512_2_2_1_1_0_0.lhsIdx i c 0).val = (i 0).val := by
  unfold DotDims.lhsIdx
  rw [dif_pos (show (0 : Fin S1x1024x1024.rank) ∈ dot_S1x1024x1024_S1x512x1024_S1x1024x512_2_2_1_1_0_0.lhsBatch by decide)]
  rfl
theorem qk_lhs_1 : (dot_S1x1024x1024_S1x512x1024_S1x1024x512_2_2_1_1_0_0.lhsIdx i c 1).val = (i 1).val := by
  unfold DotDims.lhsIdx
  rw [dif_neg (show ¬(1 : Fin S1x1024x1024.rank) ∈ dot_S1x1024x1024_S1x512x1024_S1x1024x512_2_2_1_1_0_0.lhsBatch by decide), dif_pos (show (1 : Fin S1x1024x1024.rank) ∈ dot_S1x1024x1024_S1x512x1024_S1x1024x512_2_2_1_1_0_0.lhsNonContracting by decide)]
  rfl
theorem qk_lhs_2 : (dot_S1x1024x1024_S1x512x1024_S1x1024x512_2_2_1_1_0_0.lhsIdx i c 2).val = (c ⟨0, by decide⟩).val :=
  dot_S1x1024x1024_S1x512x1024_S1x1024x512_2_2_1_1_0_0.lhsIdx_val_of_single rfl i c
theorem qk_rhs_0 : (dot_S1x1024x1024_S1x512x1024_S1x1024x512_2_2_1_1_0_0.rhsIdx i c 0).val = (i 0).val := by
  unfold DotDims.rhsIdx
  rw [dif_pos (show (0 : Fin S1x512x1024.rank) ∈ dot_S1x1024x1024_S1x512x1024_S1x1024x512_2_2_1_1_0_0.rhsBatch by decide)]
  rfl
theorem qk_rhs_1 : (dot_S1x1024x1024_S1x512x1024_S1x1024x512_2_2_1_1_0_0.rhsIdx i c 1).val = (i 2).val := by
  unfold DotDims.rhsIdx
  rw [dif_neg (show ¬(1 : Fin S1x512x1024.rank) ∈ dot_S1x1024x1024_S1x512x1024_S1x1024x512_2_2_1_1_0_0.rhsBatch by decide), dif_pos (show (1 : Fin S1x512x1024.rank) ∈ dot_S1x1024x1024_S1x512x1024_S1x1024x512_2_2_1_1_0_0.rhsNonContracting by decide)]
  rfl
theorem qk_rhs_2 : (dot_S1x1024x1024_S1x512x1024_S1x1024x512_2_2_1_1_0_0.rhsIdx i c 2).val = (c ⟨0, by decide⟩).val :=
  dot_S1x1024x1024_S1x512x1024_S1x1024x512_2_2_1_1_0_0.rhsIdx_val_of_single rfl i c

end QK

/-- The product of a query tile with a key block over the feature axis, onto zero: at `(z, q, k)`, the inner product
    of query row `q` with key row `k`. -/
theorem qk_apply (a : FVec Ideal S1x1024x1024 .bf16) (b : FVec Ideal S1x512x1024 .bf16) (z : Fin 1) (q : Fin 1024) (k : Fin 512) :
    FloatOps.matmul dot_S1x1024x1024_S1x512x1024_S1x1024x512_2_2_1_1_0_0 none a b (constant (F := Ideal) S1x1024x512 .f32 0x00000000#32) (ix3 z q k)
      = ∑ e : Fin 1024, a (ix3 z q e) * b (ix3 z k e) := by
  rw [Ideal.matmul_constant_zero_apply, ← Equiv.sum_comp (contrEquiv1 dot_S1x1024x1024_S1x512x1024_S1x1024x512_2_2_1_1_0_0 1024 rfl rfl).symm]
  refine Finset.sum_congr rfl fun e _ => ?_
  have he := contrEquiv1_symm_val dot_S1x1024x1024_S1x512x1024_S1x1024x512_2_2_1_1_0_0 1024 rfl rfl e
  have el : dot_S1x1024x1024_S1x512x1024_S1x1024x512_2_2_1_1_0_0.lhsIdx (ix3 z q k) ((contrEquiv1 dot_S1x1024x1024_S1x512x1024_S1x1024x512_2_2_1_1_0_0 1024 rfl rfl).symm e) = ix3 z q e := funext fun ax => Fin.ext (by
    match ax with
    | ⟨0, _⟩ => exact qk_lhs_0 _ _
    | ⟨1, _⟩ => exact qk_lhs_1 _ _
    | ⟨2, _⟩ => exact (qk_lhs_2 _ _).trans he)
  have er : dot_S1x1024x1024_S1x512x1024_S1x1024x512_2_2_1_1_0_0.rhsIdx (ix3 z q k) ((contrEquiv1 dot_S1x1024x1024_S1x512x1024_S1x1024x512_2_2_1_1_0_0 1024 rfl rfl).symm e) = ix3 z k e := funext fun ax => Fin.ext (by
    match ax with
    | ⟨0, _⟩ => exact qk_rhs_0 _ _
    | ⟨1, _⟩ => exact qk_rhs_1 _ _
    | ⟨2, _⟩ => exact (qk_rhs_2 _ _).trans he)
  rw [el, er]

section PV
variable (i : S1x1024x1024.Idx) (c : dot_S1x1024x512_S1x512x1024_S1x1024x1024_2_1_1_2_0_0.contr.Idx)

theorem pv_lhs_0 : (dot_S1x1024x512_S1x512x1024_S1x1024x1024_2_1_1_2_0_0.lhsIdx i c 0).val = (i 0).val := by
  unfold DotDims.lhsIdx
  rw [dif_pos (show (0 : Fin S1x1024x512.rank) ∈ dot_S1x1024x512_S1x512x1024_S1x1024x1024_2_1_1_2_0_0.lhsBatch by decide)]
  rfl
theorem pv_lhs_1 : (dot_S1x1024x512_S1x512x1024_S1x1024x1024_2_1_1_2_0_0.lhsIdx i c 1).val = (i 1).val := by
  unfold DotDims.lhsIdx
  rw [dif_neg (show ¬(1 : Fin S1x1024x512.rank) ∈ dot_S1x1024x512_S1x512x1024_S1x1024x1024_2_1_1_2_0_0.lhsBatch by decide), dif_pos (show (1 : Fin S1x1024x512.rank) ∈ dot_S1x1024x512_S1x512x1024_S1x1024x1024_2_1_1_2_0_0.lhsNonContracting by decide)]
  rfl
theorem pv_lhs_2 : (dot_S1x1024x512_S1x512x1024_S1x1024x1024_2_1_1_2_0_0.lhsIdx i c 2).val = (c ⟨0, by decide⟩).val :=
  dot_S1x1024x512_S1x512x1024_S1x1024x1024_2_1_1_2_0_0.lhsIdx_val_of_single rfl i c
theorem pv_rhs_0 : (dot_S1x1024x512_S1x512x1024_S1x1024x1024_2_1_1_2_0_0.rhsIdx i c 0).val = (i 0).val := by
  unfold DotDims.rhsIdx
  rw [dif_pos (show (0 : Fin S1x512x1024.rank) ∈ dot_S1x1024x512_S1x512x1024_S1x1024x1024_2_1_1_2_0_0.rhsBatch by decide)]
  rfl
theorem pv_rhs_1 : (dot_S1x1024x512_S1x512x1024_S1x1024x1024_2_1_1_2_0_0.rhsIdx i c 1).val = (c ⟨0, by decide⟩).val :=
  dot_S1x1024x512_S1x512x1024_S1x1024x1024_2_1_1_2_0_0.rhsIdx_val_of_single rfl i c
theorem pv_rhs_2 : (dot_S1x1024x512_S1x512x1024_S1x1024x1024_2_1_1_2_0_0.rhsIdx i c 2).val = (i 2).val := by
  unfold DotDims.rhsIdx
  rw [dif_neg (show ¬(2 : Fin S1x512x1024.rank) ∈ dot_S1x1024x512_S1x512x1024_S1x1024x1024_2_1_1_2_0_0.rhsBatch by decide), dif_pos (show (2 : Fin S1x512x1024.rank) ∈ dot_S1x1024x512_S1x512x1024_S1x1024x1024_2_1_1_2_0_0.rhsNonContracting by decide)]
  rfl

end PV

/-- The product of a weights tile with a value block over the key axis, onto zero: at `(z, q, d)`, the weights of row
    `q` against column `d` of the values. -/
theorem pv_apply (a : FVec Ideal S1x1024x512 .bf16) (b : FVec Ideal S1x512x1024 .bf16) (z : Fin 1) (q : Fin 1024) (d : Fin 1024) :
    FloatOps.matmul dot_S1x1024x512_S1x512x1024_S1x1024x1024_2_1_1_2_0_0 none a b (constant (F := Ideal) S1x1024x1024 .f32 0x00000000#32) (ix3 z q d)
      = ∑ k : Fin 512, a (ix3 z q k) * b (ix3 z k d) := by
  rw [Ideal.matmul_constant_zero_apply, ← Equiv.sum_comp (contrEquiv1 dot_S1x1024x512_S1x512x1024_S1x1024x1024_2_1_1_2_0_0 512 rfl rfl).symm]
  refine Finset.sum_congr rfl fun k _ => ?_
  have hk := contrEquiv1_symm_val dot_S1x1024x512_S1x512x1024_S1x1024x1024_2_1_1_2_0_0 512 rfl rfl k
  have el : dot_S1x1024x512_S1x512x1024_S1x1024x1024_2_1_1_2_0_0.lhsIdx (ix3 z q d) ((contrEquiv1 dot_S1x1024x512_S1x512x1024_S1x1024x1024_2_1_1_2_0_0 512 rfl rfl).symm k) = ix3 z q k := funext fun ax => Fin.ext (by
    match ax with
    | ⟨0, _⟩ => exact pv_lhs_0 _ _
    | ⟨1, _⟩ => exact pv_lhs_1 _ _
    | ⟨2, _⟩ => exact (pv_lhs_2 _ _).trans hk)
  have er : dot_S1x1024x512_S1x512x1024_S1x1024x1024_2_1_1_2_0_0.rhsIdx (ix3 z q d) ((contrEquiv1 dot_S1x1024x512_S1x512x1024_S1x1024x1024_2_1_1_2_0_0 512 rfl rfl).symm k) = ix3 z k d := funext fun ax => Fin.ext (by
    match ax with
    | ⟨0, _⟩ => exact pv_rhs_0 _ _
    | ⟨1, _⟩ => exact (pv_rhs_1 _ _).trans hk
    | ⟨2, _⟩ => exact pv_rhs_2 _ _)
  rw [el, er]

/-! ## The payloads at an index -/

section Payloads
variable (xq : Vec Ideal S1x1024x1024 .bf16) (xk xv : Vec Ideal S1x512x1024 .bf16) (m0 m0' l0 : Vec Ideal S1x1024x1 .f32)
  (a0 : Vec Ideal S1x1024x1024 .f32) (z : Fin 1) (q : Fin 1024) (k : Fin 512) (d : Fin 1024) (u : Fin 1)

/-- The scores' scale, the pattern `0x3D000000`, denotes `1/32`. -/
theorem ofBits_scale : Ideal.ofBits .f32 0x3D000000#32 = ((1 / 32 : ℝ) : EReal) := by
  simp [Ideal.ofBits, Ideal.ieee, -EReal.coe_mul]; norm_num

/-- The scores: at `(z, q, k)`, the inner product of query row `q` with key row `k`, times the scale. -/
theorem sc_at :
    k1_pay7 (F := Ideal) xq xk (ix3 z q k)
      = (∑ e : Fin 1024, xq (ix3 z q e) * xk (ix3 z k e)) * Ideal.ofBits .f32 0x3D000000#32 := by
  unfold k1_pay7
  rw [shapeCast_self, shapeCast_self]
  show FloatOps.matmul dot_S1x1024x1024_S1x512x1024_S1x1024x512_2_2_1_1_0_0 none xq xk (constant (F := Ideal) S1x1024x512 .f32 0x00000000#32) (ix3 z q k)
      * Ideal.ofBits .f32 0x3D000000#32 = _
  rw [qk_apply]

/-- The new running maximum: the old one against the maximum, from `-∞`, of the row's scores. -/
theorem max_at :
    k1_pay8 (F := Ideal) xq xk m0 (ix3 z q u)
      = max (m0 (ix3 z q u)) (Finset.univ.fold max ⊥ fun k : Fin 512 => k1_pay7 (F := Ideal) xq xk (ix3 z q k)) := by
  unfold k1_pay8
  show max (m0 (ix3 z q u)) (shapeCast S1x1024x1 _ shapeCasts_S1x1024_S1x1024x1 (ix3 z q u)) = _
  rw [cast_col, rowmax_apply]

/-- The rescaling factor: the exponential of an old maximum less the new one. -/
theorem alpha_at :
    k1_pay9 (F := Ideal) xq xk m0 m0' (ix3 z q u)
      = Ideal.exp (m0' (ix3 z q u) - k1_pay8 (F := Ideal) xq xk m0 (ix3 z q u)) := by
  unfold k1_pay9
  rfl

/-- The block's weights: the exponential of a score less the new maximum of its row. -/
theorem p_at :
    k1_pay10 (F := Ideal) xq xk m0 (ix3 z q k)
      = Ideal.exp (k1_pay7 (F := Ideal) xq xk (ix3 z q k) - k1_pay8 (F := Ideal) xq xk m0 (ix3 z q (0 : Fin 1))) := by
  unfold k1_pay10
  show Ideal.exp (k1_pay7 (F := Ideal) xq xk (ix3 z q k)
      - broadcastTo S1x1024x512 (k1_pay8 (F := Ideal) xq xk m0) broadcasts_S1x1024x1_S1x1024x512 (ix3 z q k)) = _
  rw [bcast_col]

/-- The new running denominator: the old one rescaled, plus the sum of the row's weights. -/
theorem den_at :
    k1_pay11 (F := Ideal) xq xk m0 m0' l0 (ix3 z q u)
      = k1_pay9 (F := Ideal) xq xk m0 m0' (ix3 z q u) * l0 (ix3 z q u)
        + ∑ k : Fin 512, k1_pay10 (F := Ideal) xq xk m0 (ix3 z q k) := by
  unfold k1_pay11
  rw [shapeCast_self]
  show k1_pay9 (F := Ideal) xq xk m0 m0' (ix3 z q u) * l0 (ix3 z q u)
      + shapeCast S1x1024x1 _ shapeCasts_S1x1024_S1x1024x1 (ix3 z q u) = _
  rw [cast_col, rowsum_apply]

/-- The new running numerator: the old one rescaled, plus the weights against the value block. -/
theorem num_at (al : FVec Ideal S1x1024x1 .f32) (p : FVec Ideal S1x1024x512 .f32) :
    k1_pay1 (F := Ideal) al p xv a0 (ix3 z q d)
      = al (ix3 z q (0 : Fin 1)) * a0 (ix3 z q d) + ∑ k : Fin 512, p (ix3 z q k) * xv (ix3 z k d) := by
  unfold k1_pay1
  rw [shapeCast_self, shapeCast_self]
  show broadcastTo S1x1024x1024 al broadcasts_S1x1024x1_S1x1024x1024 (ix3 z q d) * a0 (ix3 z q d)
      + FloatOps.matmul dot_S1x1024x512_S1x512x1024_S1x1024x1024_2_1_1_2_0_0 none (truncf .bf16 p bitsLt_bf16_f32) xv
          (constant (F := Ideal) S1x1024x1024 .f32 0x00000000#32) (ix3 z q d) = _
  rw [bcast_col, pv_apply]
  rfl

/-- The stored maximum is the maximum. -/
theorem keep_at (v : FVec Ideal S1x1024x1 .f32) : k1_pay2 (F := Ideal) v = v := by
  unfold k1_pay2
  rw [shapeCast_self]

/-- The output: numerator over the row's denominator. -/
theorem quot_at (a : Vec Ideal S1x1024x1024 .f32) (l : Vec Ideal S1x1024x1 .f32) :
    k1_pay3 (F := Ideal) a l (ix3 z q d) = Ideal.div (a (ix3 z q d)) (l (ix3 z q (0 : Fin 1))) := by
  unfold k1_pay3
  show Ideal.div (a (ix3 z q d)) (broadcastTo S1x1024x1024 l broadcasts_S1x1024x1_S1x1024x1024 (ix3 z q d)) = _
  rw [bcast_col]

/-- The reset maximum is `-∞`. -/
theorem reset_max_at (i : S1x1024x1.Idx) : k1_pay4 (F := Ideal) i = (⊥ : EReal) := by
  unfold k1_pay4
  rw [shapeCast_self]
  show Ideal.ofBits .f32 0xFF800000#32 = ⊥
  simp [Ideal.ofBits, Ideal.ieee]

/-- The reset denominator is `0`. -/
theorem reset_den_at (i : S1x1024x1.Idx) : k1_pay5 (F := Ideal) i = (0 : EReal) := by
  unfold k1_pay5
  rw [shapeCast_self]
  exact Ideal.ofBits_zero_f32

/-- The reset numerator is `0`. -/
theorem reset_num_at (i : S1x1024x1024.Idx) : k1_pay6 (F := Ideal) i = (0 : EReal) := by
  unfold k1_pay6
  rw [shapeCast_self]
  exact Ideal.ofBits_zero_f32

/-! ## A point's update is one step of the online softmax -/

/-- For row `q` and column `d`, with the block's scores `sⱼ k` the scores at `(z, q, k)` and its values `vⱼ k` the value
    block at `(z, k, d)`: the new maximum, denominator and numerator are the online softmax's step from the old ones. -/
theorem update_eq_step :
    (k1_pay2 (F := Ideal) (k1_pay8 (F := Ideal) xq xk m0) (ix3 z q (0 : Fin 1)),
      k1_pay11 (F := Ideal) xq xk m0 m0 l0 (ix3 z q (0 : Fin 1)),
      k1_pay1 (F := Ideal) (k1_pay9 (F := Ideal) xq xk m0 m0) (k1_pay10 (F := Ideal) xq xk m0) xv a0 (ix3 z q d))
      = Cert.Attn.step (fun k : Fin 512 => k1_pay7 (F := Ideal) xq xk (ix3 z q k)) (fun k : Fin 512 => xv (ix3 z k d))
          (m0 (ix3 z q (0 : Fin 1)), l0 (ix3 z q (0 : Fin 1)), a0 (ix3 z q d)) := by
  rw [keep_at, den_at, num_at, alpha_at]
  simp only [p_at]
  rw [max_at]
  rfl

end Payloads

end Cert.KernelIdeal.FlashVal

end
-- ==== Proof.KIVal1.lean ====
/- What the output array of the attention call holds after the whole grid, at the ideal values: each query tile's
   block is the output component of the state reached at the tile's last key block. -/
import proofs.«131970_j54589034332684_2_alg».proof.Proof.KIFlashBody
import Idealize.ShloMosaic.Lib.Pipeline.Value
import Idealize.ShloMosaic.Lib.ValueIdx
import Idealize.ShloMosaic.Lib.Tactic

set_option maxRecDepth 16384

noncomputable section

namespace Cert.KernelIdeal.HandVal

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Flash

variable (V : (c : Dev nD) → (b : Ref sig .tc) → Buf (Elt Ideal) ((c : Thread nD τ).loc b))

/-! ## The specification -/

/-- The grid point at which batch `b`'s query tile holding sequence position `s` meets its last key block: the grid
    runs batch, then query tile, then key block, eight key blocks to a tile and four tiles to a batch. -/
def lastPt (b : Fin 4) (s : Fin 4096) : ℕ := (b.val * 4 + s.val / 1024) * 8 + 7

theorem lastPt_lt (b : Fin 4) (s : Fin 4096) : lastPt b s < cfg1.N := by
  show _ < grid1.N
  rw [N_1]; unfold lastPt
  have := b.isLt; have := s.isLt; omega

/-- The output array: at `(b, s, d)` the output component of the state at the last key block of `s`'s tile, read at the
    position's row inside the tile. -/
def attnOut (c : Dev nD) : S4x4096x1024.Idx → EReal :=
  fun i => (stAt V c (lastPt (⟨(i 0).val, (i 0).isLt⟩ : Fin 4) (⟨(i 1).val, (i 1).isLt⟩ : Fin 4096)) (lastPt_lt _ _)).o
    (ix3 (0 : Fin 1) (⟨(i 1).val % 1024, Nat.mod_lt _ (by decide)⟩ : Fin 1024) (⟨(i 2).val, (i 2).isLt⟩ : Fin 1024))

theorem attnOut_ix (c : Dev nD) (b : Fin 4) (s : Fin 4096) (d : Fin 1024) :
    attnOut V c (ix3 b s d)
      = (stAt V c (lastPt b s) (lastPt_lt b s)).o (ix3 (0 : Fin 1) (⟨s.val % 1024, Nat.mod_lt _ (by decide)⟩ : Fin 1024) d) := rfl

/-- The state depends on the point's number only, not on the proof that it is in range. -/
theorem stAt_congr (c : Dev nD) {n n' : ℕ} (h : n = n') (hn : n < cfg1.N) (hn' : n' < cfg1.N) :
    stAt V c n hn = stAt V c n' hn' := by
  subst h; rfl

/-- The output array at `(b, s, d)`, from any name `n` of the tile's last point and any name `r` of the row inside the tile. -/
theorem attnOut_at (c : Dev nD) (n : ℕ) (hn : n < cfg1.N) (b : Fin 4) (s : Fin 4096) (d r : Fin 1024)
    (hb : lastPt b s = n) (hr : s.val % 1024 = r.val) :
    attnOut V c (ix3 b s d) = (stAt V c n hn).o (ix3 (0 : Fin 1) r d) := by
  rw [attnOut_ix, stAt_congr V c hb (lastPt_lt b s) hn]
  exact congrArg (stAt V c n hn).o (congrArg (fun x => ix3 (0 : Fin 1) x d) (Fin.ext hr))

/-! ## The output window's index map over the grid -/

/-- The printed index map of the output window, decided at every grid point: batch, query tile, and column block 0. -/
theorem idx_facts1 : ∀ t : Fin cfg1.N,
    win1_3.index t (0 : Fin 3) = t.val / 32 ∧ win1_3.index t (1 : Fin 3) = t.val / 8 % 4 ∧ win1_3.index t (2 : Fin 3) = 0 :=
  (by decide +kernel : ∀ t : Fin grid1.N, _)

theorem pt_lt (t : Fin cfg1.N) : t.val < 128 := by
  exact Nat.lt_of_lt_of_eq t.isLt (show cfg1.N = 128 from N_1)

/-! ## What a last key block writes back -/

/-- What a point at a last key block writes back is its block of the output array. -/
theorem flushed1_eq (c : Dev nD) (t : Fin cfg1.N) (h7 : t.val % 8 = 7) :
    (dat1 (F := Ideal) V c).flushed 3 t = ((cfg1.win 3).blk t).view.read (Elt Ideal) (attnOut V c) := by
  show (cfg1.win 3).cut (grid1.coords t) ((dat1 (F := Ideal) V c).after 3 t) = _
  rw [dat1_after3]
  obtain ⟨e0, e1, e2⟩ := idx_facts1 t
  have hN := pt_lt t
  funext y
  obtain ⟨y0, y1, y2, rfl⟩ : ∃ (y0 : Fin 1) (y1 : Fin 1024) (y2 : Fin 1024), y = ix3 y0 y1 y2 := ⟨y 0, y 1, y 2, eq_ix3 y⟩
  show (stAt V c t.val t.isLt).o (ix3 y0 y1 y2) = attnOut V c (((cfg1.win 3).blk t).view.emb (ix3 y0 y1 y2))
  have hy0 : y0 = (0 : Fin 1) := Subsingleton.elim _ _
  have he : ((cfg1.win 3).blk t).view.emb (ix3 y0 y1 y2)
      = ix3 (⟨t.val / 32, by omega⟩ : Fin 4) (⟨t.val / 8 % 4 * 1024 + y1.val, by have := y1.isLt; omega⟩ : Fin 4096) y2 := by
    funext a; apply Fin.ext
    match a with
    | ⟨0, _⟩ => show win1_3.index t (0 : Fin 3) * 1 + 1 * y0.val = t.val / 32; have := y0.isLt; omega
    | ⟨1, _⟩ => show win1_3.index t (1 : Fin 3) * 1024 + 1 * y1.val = t.val / 8 % 4 * 1024 + y1.val; omega
    | ⟨2, _⟩ => show win1_3.index t (2 : Fin 3) * 1024 + 1 * y2.val = y2.val; omega
  rw [he, attnOut_at V c t.val t.isLt _ _ y2 y1 (by unfold lastPt; show (t.val / 32 * 4 + (t.val / 8 % 4 * 1024 + y1.val) / 1024) * 8 + 7 = t.val; have := y1.isLt; omega)
    (by show (t.val / 8 % 4 * 1024 + y1.val) % 1024 = y1.val; have := y1.isLt; omega), hy0]

/-! ## The output's blocks tile its array -/

/-- An index of the output array lies in point `t`'s block iff each coordinate lies in the block's range on its axis. -/
theorem mem_blk1 (t : Fin cfg1.N) (i : S4x4096x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v5).slice (win1_3.rect t)).set ↔ _
  rw [View.set_slice_whole, Rect.mem_set_unit]
  exact Iff.rfl

/-- Every index is in the block written back at the last key block of its batch's query tile. -/
theorem cover1 (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  have hlt : ((i 0).val * 4 + (i 1).val / 1024) * 8 + 7 < cfg1.N := by
    show _ < grid1.N
    rw [N_1]; omega
  obtain ⟨e0, e1, e2⟩ := idx_facts1 ⟨((i 0).val * 4 + (i 1).val / 1024) * 8 + 7, hlt⟩
  refine ⟨⟨((i 0).val * 4 + (i 1).val / 1024) * 8 + 7, hlt⟩, (flush1_3 _).mpr (by show (((i 0).val * 4 + (i 1).val / 1024) * 8 + 7) % 8 = 7; omega), ?_⟩
  rw [mem_blk1]
  intro a
  match a with
  | ⟨0, _⟩ =>
    show win1_3.index _ (0 : Fin 3) * 1 ≤ (i 0).val ∧ (i 0).val < win1_3.index _ (0 : Fin 3) * 1 + 1
    rw [e0]; show (((i 0).val * 4 + (i 1).val / 1024) * 8 + 7) / 32 * 1 ≤ (i 0).val ∧ (i 0).val < (((i 0).val * 4 + (i 1).val / 1024) * 8 + 7) / 32 * 1 + 1
    omega
  | ⟨1, _⟩ =>
    show win1_3.index _ (1 : Fin 3) * 1024 ≤ (i 1).val ∧ (i 1).val < win1_3.index _ (1 : Fin 3) * 1024 + 1024
    rw [e1]; show (((i 0).val * 4 + (i 1).val / 1024) * 8 + 7) / 8 % 4 * 1024 ≤ (i 1).val ∧ (i 1).val < (((i 0).val * 4 + (i 1).val / 1024) * 8 + 7) / 8 % 4 * 1024 + 1024
    omega
  | ⟨2, _⟩ =>
    show win1_3.index _ (2 : Fin 3) * 1024 ≤ (i 2).val ∧ (i 2).val < win1_3.index _ (2 : Fin 3) * 1024 + 1024
    rw [e2]; omega

/-! ## The output array after the whole grid -/

/-- After the last point the output array is `attnOut`: every block was written back at its tile's last key block. -/
theorem final1 (c : Dev nD) : (dat1 (F := Ideal) V c).arrAt 3 cfg1.N = attnOut V c :=
  (dat1 (F := Ideal) V c).arrAt_eq_of_cover 3 (attnOut V c)
    (fun t hf => flushed1_eq V c t ((flush1_3 t).mp hf)) cover1

end Cert.KernelIdeal.HandVal

end
-- ==== Proof.AttnSpec.lean ====
/-
  Self-attention over a fused query/key/value projection, written index by index in the extended reals.

  The five arrays: the tokens `x[b, s, d]` (4 sequences of 4096 tokens with 1024 features), the fused projection
  weight `w[e, d]` and bias `bq[e]` (3072 = 3 · 1024 output features: the query part is features 0..1023, the key part
  1024..2047, the value part 2048..3071), and the output projection `ow[e, d]`, `ob[e]`.

    qkv[b, s, e]   = (∑ d, x[b, s, d] · w[e, d]) + bq[e]
    score[b, q, k] = (∑ d, qkv[b, q, d] · qkv[b, k, 1024 + d]) / √1024
    rowMax[b, q]   = max (-∞) (max over k, from -∞, of score[b, q, k])
    ex[b, q, k]    = exp (score[b, q, k] - rowMax[b, q])
    den[b, q]      = 0 + ∑ k, ex[b, q, k]
    attn[b, q, d]  = ∑ k, (ex[b, q, k] / den[b, q]) · qkv[b, k, 2048 + d]
    out[b, s, e]   = (∑ d, attn[b, s, d] · ow[e, d]) + ob[e]

  Every operation is the extended reals' own: sums and products exact, the quotient `Ideal.div`, the exponential
  `Ideal.exp` (`exp (-∞) = 0`), the square root `Ideal.sqrt`. The softmax is written as it is computed: the row maximum
  taken from `-∞` and once more against `-∞`, the row sum started at `0`.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The tokens: an extended real at each (sequence, position, feature). -/
abbrev XArr : Type := (⟨3, ![4, 4096, 1024]⟩ : Shape).Idx → EReal
/-- The fused projection weight: an extended real at each (output feature, input feature). -/
abbrev WArr : Type := (⟨2, ![3072, 1024]⟩ : Shape).Idx → EReal
/-- The fused projection bias: an extended real at each output feature. -/
abbrev BArr : Type := (⟨1, ![3072]⟩ : Shape).Idx → EReal
/-- The output projection weight: an extended real at each (output feature, input feature). -/
abbrev OWArr : Type := (⟨2, ![1024, 1024]⟩ : Shape).Idx → EReal
/-- The output projection bias: an extended real at each output feature. -/
abbrev OBArr : Type := (⟨1, ![1024]⟩ : Shape).Idx → EReal

/-- Feature `d` of the query part of the fused projection: feature `d` of the 3072. -/
abbrev qF (d : Fin 1024) : Fin 3072 := ⟨d.val, by have := d.isLt; omega⟩
/-- Feature `d` of the key part of the fused projection: feature `1024 + d` of the 3072. -/
abbrev kF (d : Fin 1024) : Fin 3072 := ⟨1024 + d.val, by have := d.isLt; omega⟩
/-- Feature `d` of the value part of the fused projection: feature `2048 + d` of the 3072. -/
abbrev vF (d : Fin 1024) : Fin 3072 := ⟨2048 + d.val, by have := d.isLt; omega⟩

/-- The fused projection: `qkv[b, s, e] = (∑ d, x[b, s, d] · w[e, d]) + bq[e]`. -/
def qkv (x : XArr) (w : WArr) (bq : BArr) (b : Fin 4) (s : Fin 4096) (e : Fin 3072) : EReal :=
  (∑ d : Fin 1024, x (ix3 b s d) * w (ix2 e d)) + bq (ix1 e)

/-- The scaled score of query `q` against key `k`: the inner product of the query part at `q` with the key part at
    `k`, divided by the square root of the number `1024` (given by its single-precision pattern). -/
def score (x : XArr) (w : WArr) (bq : BArr) (b : Fin 4) (q k : Fin 4096) : EReal :=
  Ideal.div (∑ d : Fin 1024, qkv x w bq b q (qF d) * qkv x w bq b k (kF d))
    (Ideal.sqrt (Ideal.ofBits .f32 0x44800000#32))

/-- The maximum of a query's scores over the keys, taken from `-∞`, and once more against `-∞`. -/
def rowMax (x : XArr) (w : WArr) (bq : BArr) (b : Fin 4) (q : Fin 4096) : EReal :=
  max ⊥ (Finset.univ.fold max ⊥ fun k : Fin 4096 => score x w bq b q k)

/-- The exponential of a score less its row's maximum. -/
def ex (x : XArr) (w : WArr) (bq : BArr) (b : Fin 4) (q k : Fin 4096) : EReal :=
  Ideal.exp (score x w bq b q k - rowMax x w bq b q)

/-- The softmax denominator: the sum over the keys of those exponentials, started at `0`. -/
def den (x : XArr) (w : WArr) (bq : BArr) (b : Fin 4) (q : Fin 4096) : EReal :=
  0 + ∑ k : Fin 4096, ex x w bq b q k

/-- The attention output: the softmax weights' combination of the value part. -/
def attn (x : XArr) (w : WArr) (bq : BArr) (b : Fin 4) (q : Fin 4096) (d : Fin 1024) : EReal :=
  ∑ k : Fin 4096, Ideal.div (ex x w bq b q k) (den x w bq b q) * qkv x w bq b k (vF d)

/-- The output projection of the attention output: `out[b, s, e] = (∑ d, attn[b, s, d] · ow[e, d]) + ob[e]`. -/
def out (x : XArr) (w : WArr) (bq : BArr) (ow : OWArr) (ob : OBArr) (b : Fin 4) (s : Fin 4096) (e : Fin 1024) : EReal :=
  (∑ d : Fin 1024, attn x w bq b s d * ow (ix2 e d)) + ob (ix1 e)

/-- The single-precision pattern of negative infinity denotes `-∞`. -/
theorem ofBits_neg_inf : Ideal.ofBits .f32 0xFF800000#32 = ⊥ := by simp [Ideal.ofBits, Ideal.ieee]

/-- The single-precision pattern `0x44800000` denotes `1024`. -/
theorem ofBits_1024 : Ideal.ofBits .f32 0x44800000#32 = ((1024 : ℝ) : EReal) := by
  simp [Ideal.ofBits, Ideal.ieee, -EReal.coe_mul]; norm_num

/-- The scores' divisor is `√1024 = 32`. -/
theorem sqrt_1024 : Ideal.sqrt (Ideal.ofBits .f32 0x44800000#32) = ((32 : ℝ) : EReal) := by
  rw [ofBits_1024, Ideal.sqrt_coe, if_neg (by norm_num)]
  have h : (1024 : ℝ) = 32 ^ 2 := by norm_num
  rw [h, Real.sqrt_sq (by norm_num)]

/-- So a score is the inner product times `1/32`. -/
theorem score_eq_mul (x : XArr) (w : WArr) (bq : BArr) (b : Fin 4) (q k : Fin 4096) :
    score x w bq b q k
      = (∑ d : Fin 1024, qkv x w bq b q (qF d) * qkv x w bq b k (kF d)) * ((1 / 32 : ℝ) : EReal) := by
  unfold score
  rw [sqrt_1024, Ideal.div_coe (by norm_num)]

/-- The row maximum is the plain maximum from `-∞`. -/
theorem rowMax_eq (x : XArr) (w : WArr) (bq : BArr) (b : Fin 4) (q : Fin 4096) :
    rowMax x w bq b q = Finset.univ.fold max ⊥ fun k : Fin 4096 => score x w bq b q k := by
  unfold rowMax
  exact max_eq_right bot_le

/-- The denominator is the plain sum. -/
theorem den_eq (x : XArr) (w : WArr) (bq : BArr) (b : Fin 4) (q : Fin 4096) :
    den x w bq b q = ∑ k : Fin 4096, ex x w bq b q k := by
  unfold den
  exact zero_add _

end Cert.Attn

end
-- ==== Proof.AttnOnline.lean ====
/-
  The specification's attention output is the online softmax of its scores and values.

  When every entry of the tokens, of the fused projection weight and of its bias is a real number, every entry of the
  fused projection `qkv` is a real number (a finite sum of products of reals, plus a real) and so is every score (an
  inner product of such entries times `1/32`). The attention output `attn[b, q, d]` is then the result of the online
  recurrence over the 8 blocks of 512 keys, run on the scores `score[b, q, 512 · j + p]` and the values
  `qkv[b, 512 · j + p, 2048 + d]`: numerator over denominator after the last block.

  Also here: the single-precision pattern `0x3D000000` denotes `1/32`, so a score is the inner product times that
  constant.
-/
import proofs.«131970_j54589034332684_2_alg».proof.Proof.AttnSpec
import proofs.«131970_j54589034332684_2_alg».proof.Proof.OnlineSoftmax

noncomputable section

open scoped BigOperators

namespace Cert.Attn

open Idealize.ShloMosaic Idealize.ShloMosaic.ValueIdx Finset

/-- The single-precision pattern `0x3D000000` denotes `1/32`. -/
theorem ofBits_inv32 : Ideal.ofBits .f32 0x3D000000#32 = ((1 / 32 : ℝ) : EReal) := by
  simp [Ideal.ofBits, Ideal.ieee, -EReal.coe_mul]; norm_num

/-- A score is the inner product of the query part with the key part times the constant `0x3D000000`. -/
theorem score_eq_mul_ofBits (x : XArr) (w : WArr) (bq : BArr) (b : Fin 4) (q k : Fin 4096) :
    score x w bq b q k
      = (∑ d : Fin 1024, qkv x w bq b q (qF d) * qkv x w bq b k (kF d)) * Ideal.ofBits .f32 0x3D000000#32 := by
  rw [score_eq_mul, ofBits_inv32]

section Real
variable {x : XArr} {w : WArr} {bq : BArr}

/-- Real tokens, weight and bias give a real fused projection. -/
theorem qkv_real (hx : ∀ i, ∃ r : ℝ, x i = (r : EReal)) (hw : ∀ i, ∃ r : ℝ, w i = (r : EReal))
    (hb : ∀ i, ∃ r : ℝ, bq i = (r : EReal)) (b : Fin 4) (s : Fin 4096) (e : Fin 3072) :
    ∃ r : ℝ, qkv x w bq b s e = (r : EReal) := by
  choose xr hxr using hx
  choose wr hwr using hw
  choose br hbr using hb
  refine ⟨(∑ d : Fin 1024, xr (ix3 b s d) * wr (ix2 e d)) + br (ix1 e), ?_⟩
  unfold qkv
  simp only [hxr, hwr, hbr, EReal.coe_add, EReal.coe_mul, LibFolds.coe_sum]

/-- … and real scores. -/
theorem score_real (hx : ∀ i, ∃ r : ℝ, x i = (r : EReal)) (hw : ∀ i, ∃ r : ℝ, w i = (r : EReal))
    (hb : ∀ i, ∃ r : ℝ, bq i = (r : EReal)) (b : Fin 4) (q k : Fin 4096) :
    ∃ r : ℝ, score x w bq b q k = (r : EReal) := by
  choose f hf using qkv_real hx hw hb
  refine ⟨(∑ d : Fin 1024, f b q (qF d) * f b k (kF d)) * (1 / 32), ?_⟩
  rw [score_eq_mul]
  simp only [hf, EReal.coe_mul, LibFolds.coe_sum]

/-- THE ATTENTION OUTPUT IS THE ONLINE RECURRENCE'S RESULT: on real data, `attn[b, q, d]` is numerator over denominator
    after the eight blocks, the recurrence run on the row's scores and on column `d` of the value part, block by
    block. -/
theorem attn_eq_online (hx : ∀ i, ∃ r : ℝ, x i = (r : EReal)) (hw : ∀ i, ∃ r : ℝ, w i = (r : EReal))
    (hb : ∀ i, ∃ r : ℝ, bq i = (r : EReal)) (b : Fin 4) (q : Fin 4096) (d : Fin 1024) :
    attn x w bq b q d
      = Ideal.div
          (run (fun j p => score x w bq b q (key j p)) (fun j p => qkv x w bq b (key j p) (vF d)) 8).2.2
          (run (fun j p => score x w bq b q (key j p)) (fun j p => qkv x w bq b (key j p) (vF d)) 8).2.1 := by
  choose sc hsc using fun k => score_real hx hw hb b q k
  choose vl hvl using fun k => qkv_real hx hw hb b k (vF d)
  have h := online_softmax_flat sc vl
  simp only [← hsc, ← hvl] at h
  exact h.symm

end Real

end Cert.Attn

end
-- ==== Proof.KIFlashInd.lean ====
/- The attention call against the specification. Over the eight key blocks of one query tile, for a fixed row of the
   tile and a fixed output column, the three running quantities the body keeps in scratch follow the online softmax
   recurrence on the row's scores and on the column of the values; at the last block the output entry is numerator
   over denominator; and when the fused projection array holds the specification's projection, that is the
   specification's attention output. -/
import proofs.«131970_j54589034332684_2_alg».proof.Proof.KIFlashPieces
import proofs.«131970_j54589034332684_2_alg».proof.Proof.KIFlashBlocks
import proofs.«131970_j54589034332684_2_alg».proof.Proof.KIFlashPay
import proofs.«131970_j54589034332684_2_alg».proof.Proof.KIVal1
import proofs.«131970_j54589034332684_2_alg».proof.Proof.AttnOnline

set_option maxRecDepth 16384

noncomputable section

open scoped BigOperators

namespace Cert.KernelIdeal.HandVal

open Idealize.ShloMosaic Idealize.ShloMosaic.TcCoe Idealize.ShloMosaic.ValueIdx Idealize.SL.Sem
open Cert.KernelIdeal Cert.KernelIdeal.Gen Cert.KernelIdeal.Flash

variable (V : (c : Dev nD) → (b : Ref sig .tc) → Buf (Elt Ideal) ((c : Thread nD τ).loc b))

/-! ## The state after a point, by the point's place in its query tile -/

/-- After a tile's first key block the three running quantities are the update from the reset values. -/
theorem stAt_start (c : Dev nD) (t : Fin cfg1.N) (h0 : t.val % 8 = 0) :
    (stAt V c t.val t.isLt).m = k1_pay2 (k1_pay8 (blk1 V c 0 t) (blk1 V c 1 t) (k1_pay4 (F := Ideal)))
    ∧ (stAt V c t.val t.isLt).l = k1_pay11 (blk1 V c 0 t) (blk1 V c 1 t) (k1_pay4 (F := Ideal)) (k1_pay4 (F := Ideal)) (k1_pay5 (F := Ideal))
    ∧ (stAt V c t.val t.isLt).a = k1_pay1 (k1_pay9 (blk1 V c 0 t) (blk1 V c 1 t) (k1_pay4 (F := Ideal)) (k1_pay4 (F := Ideal))) (k1_pay10 (blk1 V c 0 t) (blk1 V c 1 t) (k1_pay4 (F := Ideal))) (blk1 V c 2 t) (k1_pay6 (F := Ideal)) := by
  rw [stAt_first V c t h0]
  exact stFirst_eq V c t h0

/-- After any later key block they are the update from what the point before left. -/
theorem stAt_next (c : Dev nD) (t : Fin cfg1.N) (h0 : ¬t.val % 8 = 0) :
    (stAt V c t.val t.isLt).m
      = k1_pay2 (k1_pay8 (blk1 V c 0 t) (blk1 V c 1 t) (stAt V c (t.val - 1) (Nat.lt_of_le_of_lt (Nat.sub_le _ _) t.isLt)).m)
    ∧ (stAt V c t.val t.isLt).l
      = k1_pay11 (blk1 V c 0 t) (blk1 V c 1 t) (stAt V c (t.val - 1) (Nat.lt_of_le_of_lt (Nat.sub_le _ _) t.isLt)).m
          (stAt V c (t.val - 1) (Nat.lt_of_le_of_lt (Nat.sub_le _ _) t.isLt)).m (stAt V c (t.val - 1) (Nat.lt_of_le_of_lt (Nat.sub_le _ _) t.isLt)).l
    ∧ (stAt V c t.val t.isLt).a
      = k1_pay1 (k1_pay9 (blk1 V c 0 t) (blk1 V c 1 t) (stAt V c (t.val - 1) (Nat.lt_of_le_of_lt (Nat.sub_le _ _) t.isLt)).m
            (stAt V c (t.val - 1) (Nat.lt_of_le_of_lt (Nat.sub_le _ _) t.isLt)).m)
          (k1_pay10 (blk1 V c 0 t) (blk1 V c 1 t) (stAt V c (t.val - 1) (Nat.lt_of_le_of_lt (Nat.sub_le _ _) t.isLt)).m)
          (blk1 V c 2 t) (stAt V c (t.val - 1) (Nat.lt_of_le_of_lt (Nat.sub_le _ _) t.isLt)).a := by
  by_cases h7 : t.val % 8 = 7
  · rw [stAt_last V c t h0 h7]
    exact ⟨stLast_m V c t h0 h7 _, stLast_l V c t h0 h7 _, stLast_a V c t h0 h7 _⟩
  · rw [stAt_mid V c t h0 h7]
    exact stMid_eq V c t h0 h7 _

/-- After a tile's last key block the output block is the new numerator over the new denominator. -/
theorem stAt_out (c : Dev nD) (t : Fin cfg1.N) (h0 : ¬t.val % 8 = 0) (h7 : t.val % 8 = 7) :
    (stAt V c t.val t.isLt).o = k1_pay3 (stAt V c t.val t.isLt).a (stAt V c t.val t.isLt).l := by
  rw [stAt_last V c t h0 h7]
  exact stLast_o V c t h0 h7 _

/-! ## One row of one query tile across its eight key blocks -/

/-- The scaled scores of row `q` of query tile `qi` of batch `b` against the 512 keys of key block `j`. -/
def rowScore (c : Dev nD) (b qi : Fin 4) (q : Fin 1024) (j : Fin 8) (p : Fin 512) : EReal :=
  k1_pay7 (F := Ideal) (blk1 V c 0 (pt b qi j)) (blk1 V c 1 (pt b qi j)) (ix3 (0 : Fin 1) q p)

/-- Column `d` of the 512 values of key block `j` (as staged at the points of query tile `qi`). -/
def colValue (c : Dev nD) (b qi : Fin 4) (d : Fin 1024) (j : Fin 8) (p : Fin 512) : EReal :=
  blk1 V c 2 (pt b qi j) (ix3 (0 : Fin 1) p d)

/-- THE SCRATCH FOLLOWS THE ONLINE RECURRENCE: after key block `j` of the tile, the running maximum and denominator of
    row `q` and the running numerator at `(q, d)` are the recurrence's state after `j + 1` blocks. -/
theorem scratch_run (c : Dev nD) (b qi : Fin 4) (q d : Fin 1024) : ∀ (j : ℕ) (hj : j < 8),
    ((stAt V c (pt b qi ⟨j, hj⟩).val (pt b qi ⟨j, hj⟩).isLt).m (ix3 (0 : Fin 1) q (0 : Fin 1)),
      (stAt V c (pt b qi ⟨j, hj⟩).val (pt b qi ⟨j, hj⟩).isLt).l (ix3 (0 : Fin 1) q (0 : Fin 1)),
      (stAt V c (pt b qi ⟨j, hj⟩).val (pt b qi ⟨j, hj⟩).isLt).a (ix3 (0 : Fin 1) q d))
      = Cert.Attn.run (rowScore V c b qi q) (colValue V c b qi d) (j + 1)
  | 0, hj => by
    have h0 : (pt b qi ⟨0, hj⟩).val % 8 = 0 := by
      show ((b.val * 4 + qi.val) * 8 + 0) % 8 = 0
      omega
    obtain ⟨em, el, ea⟩ := stAt_start V c (pt b qi ⟨0, hj⟩) h0
    rw [em, el, ea, Cert.Attn.run_succ _ _ 0 hj, Cert.Attn.run_zero]
    refine (FlashVal.update_eq_step (xq := blk1 V c 0 (pt b qi ⟨0, hj⟩)) (xk := blk1 V c 1 (pt b qi ⟨0, hj⟩))
      (xv := blk1 V c 2 (pt b qi ⟨0, hj⟩)) (m0 := k1_pay4 (F := Ideal)) (l0 := k1_pay5 (F := Ideal)) (a0 := k1_pay6 (F := Ideal)) (z := (0 : Fin 1)) (q := q) (d := d)).trans ?_
    rw [FlashVal.reset_max_at, FlashVal.reset_den_at, FlashVal.reset_num_at]
    rfl
  | j + 1, hj => by
    have hj' : j < 8 := by omega
    have h0 : ¬(pt b qi ⟨j + 1, hj⟩).val % 8 = 0 := by
      show ¬((b.val * 4 + qi.val) * 8 + (j + 1)) % 8 = 0
      omega
    obtain ⟨em, el, ea⟩ := stAt_next V c (pt b qi ⟨j + 1, hj⟩) h0
    have hp : stAt V c ((pt b qi ⟨j + 1, hj⟩).val - 1) (Nat.lt_of_le_of_lt (Nat.sub_le _ _) (pt b qi ⟨j + 1, hj⟩).isLt)
        = stAt V c (pt b qi ⟨j, hj'⟩).val (pt b qi ⟨j, hj'⟩).isLt :=
      stAt_congr V c (by
        show (b.val * 4 + qi.val) * 8 + (j + 1) - 1 = (b.val * 4 + qi.val) * 8 + j
        omega) _ _
    rw [em, el, ea, hp, Cert.Attn.run_succ _ _ (j + 1) hj, ← scratch_run c b qi q d j hj']
    exact FlashVal.update_eq_step (xq := blk1 V c 0 (pt b qi ⟨j + 1, hj⟩)) (xk := blk1 V c 1 (pt b qi ⟨j + 1, hj⟩))
      (xv := blk1 V c 2 (pt b qi ⟨j + 1, hj⟩)) (m0 := (stAt V c (pt b qi ⟨j, hj'⟩).val (pt b qi ⟨j, hj'⟩).isLt).m)
      (l0 := (stAt V c (pt b qi ⟨j, hj'⟩).val (pt b qi ⟨j, hj'⟩).isLt).l)
      (a0 := (stAt V c (pt b qi ⟨j, hj'⟩).val (pt b qi ⟨j, hj'⟩).isLt).a) (z := (0 : Fin 1)) (q := q) (d := d)

/-- THE OUTPUT ENTRY: after the tile's last key block, numerator over denominator of the recurrence's final state. -/
theorem out_run (c : Dev nD) (b qi : Fin 4) (q d : Fin 1024) :
    (stAt V c (pt b qi ⟨7, by decide⟩).val (pt b qi ⟨7, by decide⟩).isLt).o (ix3 (0 : Fin 1) q d)
      = Ideal.div (Cert.Attn.run (rowScore V c b qi q) (colValue V c b qi d) 8).2.2
          (Cert.Attn.run (rowScore V c b qi q) (colValue V c b qi d) 8).2.1 := by
  have h := scratch_run V c b qi q d 7 (by decide)
  have ha : (stAt V c (pt b qi ⟨7, by decide⟩).val (pt b qi ⟨7, by decide⟩).isLt).a (ix3 (0 : Fin 1) q d)
      = (Cert.Attn.run (rowScore V c b qi q) (colValue V c b qi d) 8).2.2 := congrArg (fun x => x.2.2) h
  have hl : (stAt V c (pt b qi ⟨7, by decide⟩).val (pt b qi ⟨7, by decide⟩).isLt).l (ix3 (0 : Fin 1) q (0 : Fin 1))
      = (Cert.Attn.run (rowScore V c b qi q) (colValue V c b qi d) 8).2.1 := congrArg (fun x => x.2.1) h
  rw [← ha, ← hl, stAt_out V c (pt b qi ⟨7, by decide⟩)
    (by show ¬((b.val * 4 + qi.val) * 8 + 7) % 8 = 0; omega) (by show ((b.val * 4 + qi.val) * 8 + 7) % 8 = 7; omega)]
  exact FlashVal.quot_at (z := (0 : Fin 1)) (q := q) (d := d) _ _

/-! ## Against the specification -/

section Spec
variable (x : Cert.Attn.XArr) (w : Cert.Attn.WArr) (bq : Cert.Attn.BArr)

/-- The fused projection array at an entry, from any names of the position and of the feature. -/
theorem qkv_at (c : Dev nD) (hV : ∀ (b : Fin 4) (s : Fin 4096) (e : Fin 3072), V c main_v4 (ix3 b s e) = Cert.Attn.qkv x w bq b s e)
    (b : Fin 4) (s s' : Fin 4096) (e e' : Fin 3072) (hs : s.val = s'.val) (he : e.val = e'.val) :
    V c main_v4 (ix3 b s e) = Cert.Attn.qkv x w bq b s' e' := by
  obtain rfl := Fin.ext hs
  obtain rfl := Fin.ext he
  exact hV b s e

/-- The row's scores are the specification's scores of position `s` against the keys of block `j`. -/
theorem rowScore_eq (c : Dev nD) (hV : ∀ (b : Fin 4) (s : Fin 4096) (e : Fin 3072), V c main_v4 (ix3 b s e) = Cert.Attn.qkv x w bq b s e)
    (b qi : Fin 4) (q : Fin 1024) (s : Fin 4096) (hs : qi.val * 1024 + q.val = s.val) (j : Fin 8) (p : Fin 512) :
    rowScore V c b qi q j p = Cert.Attn.score x w bq b s (Cert.Attn.key j p) := by
  unfold rowScore
  rw [FlashVal.sc_at, Cert.Attn.score_eq_mul_ofBits]
  refine congrArg (· * Ideal.ofBits .f32 0x3D000000#32) (Finset.sum_congr rfl fun e _ => ?_)
  rw [blkQ V c (pt b qi j) b qi j (pt_val b qi j) q e, blkK V c (pt b qi j) b qi j (pt_val b qi j) p e,
    qkv_at V x w bq c hV b _ s _ (Cert.Attn.qF e) hs rfl,
    qkv_at V x w bq c hV b _ (Cert.Attn.key j p) _ (Cert.Attn.kF e) (by show j.val * 512 + p.val = 512 * j.val + p.val; omega) rfl]

/-- The column of values is the specification's value part at the keys of block `j`. -/
theorem colValue_eq (c : Dev nD) (hV : ∀ (b : Fin 4) (s : Fin 4096) (e : Fin 3072), V c main_v4 (ix3 b s e) = Cert.Attn.qkv x w bq b s e)
    (b qi : Fin 4) (d : Fin 1024) (j : Fin 8) (p : Fin 512) :
    colValue V c b qi d j p = Cert.Attn.qkv x w bq b (Cert.Attn.key j p) (Cert.Attn.vF d) := by
  unfold colValue
  rw [blkV V c (pt b qi j) b qi j (pt_val b qi j) p d,
    qkv_at V x w bq c hV b _ (Cert.Attn.key j p) _ (Cert.Attn.vF d) (by show j.val * 512 + p.val = 512 * j.val + p.val; omega) rfl]

/-- THE CALL'S RESULT IS THE SPECIFICATION'S ATTENTION OUTPUT, wherever the fused projection array holds the
    specification's projection of real tokens, weight and bias. -/
theorem attnOut_eq_attn (c : Dev nD) (hx : ∀ i, ∃ r : ℝ, x i = (r : EReal)) (hw : ∀ i, ∃ r : ℝ, w i = (r : EReal))
    (hb : ∀ i, ∃ r : ℝ, bq i = (r : EReal))
    (hV : ∀ (b : Fin 4) (s : Fin 4096) (e : Fin 3072), V c main_v4 (ix3 b s e) = Cert.Attn.qkv x w bq b s e)
    (b : Fin 4) (s : Fin 4096) (d : Fin 1024) :
    attnOut V c (ix3 b s d) = Cert.Attn.attn x w bq b s d := by
  have hs := s.isLt
  have hqi : s.val / 1024 < 4 := by omega
  rw [attnOut_at V c (pt b ⟨s.val / 1024, hqi⟩ ⟨7, by decide⟩).val (pt b ⟨s.val / 1024, hqi⟩ ⟨7, by decide⟩).isLt b s d
      ⟨s.val % 1024, Nat.mod_lt _ (by decide)⟩ rfl rfl,
    out_run V c b ⟨s.val / 1024, hqi⟩ ⟨s.val % 1024, Nat.mod_lt _ (by decide)⟩ d,
    Cert.Attn.attn_eq_online hx hw hb b s d]
  have eS : rowScore V c b ⟨s.val / 1024, hqi⟩ ⟨s.val % 1024, Nat.mod_lt _ (by decide)⟩
      = fun j p => Cert.Attn.score x w bq b s (Cert.Attn.key j p) :=
    funext fun j => funext fun p => rowScore_eq V x w bq c hV b _ _ s (by show s.val / 1024 * 1024 + s.val % 1024 = s.val; omega) j p
  have eW : colValue V c b ⟨s.val / 1024, hqi⟩ d
      = fun j p => Cert.Attn.qkv x w bq b (Cert.Attn.key j p) (Cert.Attn.vF d) :=
    funext fun j => funext fun p => colValue_eq V x w bq c hV b _ d j p
  rw [eS, eW]

end Spec

end Cert.KernelIdeal.HandVal

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.FiniteArgs.lean ====
/-
  The precondition says that every entry of each of the five argument arrays is a real number.

  The printed precondition is the conjunction, array by array, of "every entry has absolute value below +∞". Its value
  at the one index of the scalar shape is 1; a conjunction of bits that is 1 has both bits 1; a reduction by "and" over
  all axes that is 1 met only 1s; and one entry of the test `|a| < +∞` that is 1 says that entry of `a` is neither
  infinity, hence a real number.
-/
import proofs.«131970_j54589034332684_2_alg».proof.Defs
import proofs.«131970_j54589034332684_2_alg».proof.Proof.Gen.Pre_finite_inputs
import proofs.«131970_j54589034332684_2_alg».proof.Proof.LibFiniteEntry
import Idealize.ShloMosaic.Lib.ReduceAll
import Idealize.ShloMosaic.Lib.ValueIdx

noncomputable section

namespace Cert.Attn.Fin

open Idealize.ShloMosaic Idealize.SL.Sem Cert.Pre_finite_inputs Cert.Pre_finite_inputs.Gen

/-- The scalar shape has one index. -/
instance subsingleton_scalar_idx : Subsingleton S_.Idx := ⟨fun _ _ => funext fun d => d.elim0⟩

/-- If the printed test of five arrays is 1, every entry of each is a real number. -/
theorem real_of_fn (a0 : FVec Ideal S4x4096x1024 .f32) (a1 : FVec Ideal S3072x1024 .f32) (a2 : FVec Ideal S3072 .f32)
    (a3 : FVec Ideal S1024x1024 .f32) (a4 : FVec Ideal S1024 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, h4⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  exact ⟨fun i => LibFiniteEntry.real_of_finite_test a0 _ i (Host.reduce_andi_all _ _ _ _ _ h00 i),
    fun i => LibFiniteEntry.real_of_finite_test a1 _ i (Host.reduce_andi_all _ _ _ _ _ h1 i),
    fun i => LibFiniteEntry.real_of_finite_test a2 _ i (Host.reduce_andi_all _ _ _ _ _ h2 i),
    fun i => LibFiniteEntry.real_of_finite_test a3 _ i (Host.reduce_andi_all _ _ _ _ _ h3 i),
    fun i => LibFiniteEntry.real_of_finite_test a4 _ i (Host.reduce_andi_all _ _ _ _ _ h4 i)⟩

section Args
variable (m : (ℓ : Loc Cert.KernelIdeal.nD Cert.KernelIdeal.τ Cert.KernelIdeal.sig) → Buf (Elt Ideal) ℓ)
  (h : Cert.Pre_KernelIdeal m)
include h

/-- Under the precondition every entry of each of the five argument arrays is a real number. -/
theorem args_real (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  real_of_fn _ _ _ _ _ (h c)

/-- Every entry of the tokens is a real number. -/
theorem arg0_real (c : Dev Cert.KernelIdeal.nD) (i) :
    ∃ r : ℝ, m ((c.tc : Thread Cert.KernelIdeal.nD Cert.KernelIdeal.τ).loc Cert.KernelIdeal.main_arg0) i = (r : EReal) :=
  (args_real m h c).1 i

/-- Every entry of the fused projection weight is a real number. -/
theorem arg1_real (c : Dev Cert.KernelIdeal.nD) (i) :
    ∃ r : ℝ, m ((c.tc : Thread Cert.KernelIdeal.nD Cert.KernelIdeal.τ).loc Cert.KernelIdeal.main_arg1) i = (r : EReal) :=
  (args_real m h c).2.1 i

/-- Every entry of the fused projection bias is a real number. -/
theorem arg2_real (c : Dev Cert.KernelIdeal.nD) (i) :
    ∃ r : ℝ, m ((c.tc : Thread Cert.KernelIdeal.nD Cert.KernelIdeal.τ).loc Cert.KernelIdeal.main_arg2) i = (r : EReal) :=
  (args_real m h c).2.2.1 i

/-- Every entry of the output projection weight is a real number. -/
theorem arg3_real (c : Dev Cert.KernelIdeal.nD) (i) :
    ∃ r : ℝ, m ((c.tc : Thread Cert.KernelIdeal.nD Cert.KernelIdeal.τ).loc Cert.KernelIdeal.main_arg3) i = (r : EReal) :=
  (args_real m h c).2.2.2.1 i

/-- Every entry of the output projection bias is a real number. -/
theorem arg4_real (c : Dev Cert.KernelIdeal.nD) (i) :
    ∃ r : ℝ, m ((c.tc : Thread Cert.KernelIdeal.nD Cert.KernelIdeal.τ).loc Cert.KernelIdeal.main_arg4) i = (r : EReal) :=
  (args_real m h c).2.2.2.2 i

end Args

end Cert.Attn.Fin

end
-- ==== Proof.KIFinalChain.lean ====
/-
  The kernel program's result array, entry by entry, is the attention specification of its arguments — for any record
  of what the three calls leave that fits the calls' own write-backs.

  The chain, at an entry `(b, s, e)` with `R = 4096 · b + s`: the result is row `R` of what the third call left; that is
  the affine layer of the merged second result, the transposed output weight and the output bias; the merged second
  result at row `R` is the second call's result at `(b, s)`, which is the specification's attention output as soon as
  the array the second call reads holds the specification's fused projection; and it does, being the first call's
  result split back, that is the affine layer of the merged tokens, the transposed projection weight and the
  projection bias. The arguments' entries are real numbers by the precondition.
-/
import proofs.«131970_j54589034332684_2_alg».proof.Proof.KIHost
import proofs.«131970_j54589034332684_2_alg».proof.Proof.KIRun
import proofs.«131970_j54589034332684_2_alg».proof.Proof.KIVal0
import proofs.«131970_j54589034332684_2_alg».proof.Proof.KIVal2
import proofs.«131970_j54589034332684_2_alg».proof.Proof.KIFlashInd
import proofs.«131970_j54589034332684_2_alg».proof.Proof.FiniteArgs
import proofs.«131970_j54589034332684_2_alg».proof.Proof.AttnSpec

set_option maxRecDepth 16384

noncomputable section

open scoped BigOperators

namespace Cert.KernelIdeal.Final

open Idealize.ShloMosaic Idealize.ShloMosaic.TcCoe Idealize.ShloMosaic.ValueIdx Idealize.SL.Sem
open Cert.KernelIdeal Cert.KernelIdeal.Gen Cert.KernelIdeal.Run Cert.KernelIdeal.HandVal Cert.KernelIdeal.HostVal

variable (m : (ℓ : Loc nD τ sig) → Buf (Elt Ideal) ℓ) (outs : Outs (F := Ideal))

/-- Token `(b, s)` is row `4096 · b + s` of the merged arrays. -/
def row (b : Fin 4) (s : Fin 4096) : Fin 16384 := ⟨4096 * b.val + s.val, by have := b.isLt; have := s.isLt; omega⟩

/-- The array the attention call reads holds the specification's fused projection of the arguments. -/
theorem qkv_value (hf : Fits m outs) (c : Dev nD) (b : Fin 4) (s : Fin 4096) (e : Fin 3072) :
    V3 m outs c main_v4 (ix3 b s e)
      = Cert.Attn.qkv (m ((c : Thread nD τ).loc main_arg0)) (m ((c : Thread nD τ).loc main_arg1))
          (m ((c : Thread nD τ).loc main_arg2)) b s e := by
  have h4 := v4_at m outs c b s (row b s) rfl e
  have ho : (outs 2 main_v3 c : S16384x3072.Idx → EReal) = affine0 (V1 m c main_v0) (V1 m c main_v1) (V1 m c main_v2) :=
    (hf.o0 c).trans (final0 (E0 m) c)
  rw [h4, ho, affine0_ix, v2_at m c (0 : Fin 1) e]
  unfold Cert.Attn.qkv
  refine congrArg (· + _) (Finset.sum_congr rfl fun d _ => ?_)
  rw [v0_at m c b s (row b s) rfl d, v1_at m c d e]

/-- What the attention call leaves is the specification's attention output of the arguments. -/
theorem attn_value (hpre : Cert.Pre_KernelIdeal m) (hf : Fits m outs) (c : Dev nD) (b : Fin 4) (s : Fin 4096) (d : Fin 1024) :
    outs 4 main_v5 c (ix3 b s d)
      = Cert.Attn.attn (m ((c : Thread nD τ).loc main_arg0)) (m ((c : Thread nD τ).loc main_arg1))
          (m ((c : Thread nD τ).loc main_arg2)) b s d := by
  have ho : (outs 4 main_v5 c : S4x4096x1024.Idx → EReal) = attnOut (E1 m outs) c :=
    (hf.o1 c).trans (final1 (E1 m outs) c)
  rw [ho]
  obtain ⟨hx, hw, hb, -, -⟩ := Cert.Attn.Fin.args_real m hpre c
  exact attnOut_eq_attn (E1 m outs) _ _ _ c hx hw hb (fun b s e => qkv_value m outs hf c b s e) b s d

/-- THE RESULT ARRAY IS THE SPECIFICATION'S OUTPUT, for a record that fits. -/
theorem kernel_value_of_fits (hpre : Cert.Pre_KernelIdeal m) (hf : Fits m outs) (c : Dev nD) (b : Fin 4) (s : Fin 4096)
    (e : Fin 1024) :
    V7 m outs c main_v10 (ix3 b s e)
      = Cert.Attn.out (m ((c : Thread nD τ).loc main_arg0)) (m ((c : Thread nD τ).loc main_arg1))
          (m ((c : Thread nD τ).loc main_arg2)) (m ((c : Thread nD τ).loc main_arg3)) (m ((c : Thread nD τ).loc main_arg4)) b s e := by
  have h10 := v10_at m outs c b s (row b s) rfl e
  have ho : (outs 6 main_v9 c : S16384x1024.Idx → EReal)
      = affine2 (V5 m outs c main_v6) (V5 m outs c main_v7) (V5 m outs c main_v8) :=
    (hf.o2 c).trans (final2 (E2 m outs) c)
  rw [h10, ho, affine2_ix, v8_at m outs c (0 : Fin 1) e]
  unfold Cert.Attn.out
  refine congrArg (· + _) (Finset.sum_congr rfl fun d _ => ?_)
  rw [v6_at m outs c b s (row b s) rfl d, v7_at m outs c d e, attn_value m outs hpre hf c b s d]

end Cert.KernelIdeal.Final

end
-- ==== Proof.KIFinal.lean ====
/-
  The kernel program's result array is the attention specification of its arguments.

  The record of what the three calls leave, chosen call by call from the calls' own write-backs, fits; so the result
  array, entry by entry and as a whole, is the specification's output at the arguments' launch contents.
-/
import proofs.«131970_j54589034332684_2_alg».proof.Proof.KIFinalChain
import proofs.«131970_j54589034332684_2_alg».proof.Proof.KIOuts

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ)

/-- THE KERNEL PROGRAM'S RESULT AT AN ENTRY: the specification's output of the arguments. -/
theorem kernel_value (hpre : Cert.Pre_KernelIdeal m) (c : Dev nD) (b : Fin 4) (s : Fin 4096) (e : Fin 1024) :
    V7 m (outsC m) c main_v10 (ix3 b s e)
      = Cert.Attn.out (m ((c : Thread nD τ).loc main_arg0)) (m ((c : Thread nD τ).loc main_arg1))
          (m ((c : Thread nD τ).loc main_arg2)) (m ((c : Thread nD τ).loc main_arg3)) (m ((c : Thread nD τ).loc main_arg4)) b s e :=
  kernel_value_of_fits m (outsC m) hpre (fits m) c b s e

/-- THE KERNEL PROGRAM'S RESULT AS AN ARRAY. -/
theorem kernel_value_fun (hpre : Cert.Pre_KernelIdeal m) (c : Dev nD) :
    (V7 m (outsC m) c main_v10 : S4x4096x1024.Idx → EReal)
      = fun i => Cert.Attn.out (m ((c : Thread nD τ).loc main_arg0)) (m ((c : Thread nD τ).loc main_arg1))
          (m ((c : Thread nD τ).loc main_arg2)) (m ((c : Thread nD τ).loc main_arg3)) (m ((c : Thread nD τ).loc main_arg4))
          (i 0) (i 1) (i 2) := by
  funext i
  obtain ⟨b, s, e, rfl⟩ : ∃ (b : Fin 4) (s : Fin 4096) (e : Fin 1024), i = ix3 b s e := ⟨i 0, i 1, i 2, eq_ix3 i⟩
  exact kernel_value m hpre c b s e

end Cert.KernelIdeal.Final

end
-- ==== Proof.RefIsSpec.lean ====
/-
  The reference program computes the attention specification.

  The reference is read one operation at a time, each result at an index with literal coordinates: the fused
  projection with its bias is `qkv`; its three slices are the query, key and value parts; the first batched product
  divided by `√1024` is `score`; the row maximum (a reduction from `-∞`, then a maximum against a `-∞` broadcast) is
  `rowMax`; the exponential of the difference is `ex`; the row sum from `0` is `den`; the quotient times the value
  part, summed over the keys, is `attn`; the output projection with its bias is `out`. No algebra is involved: each
  stage is the specification's definition, with the operations' index maps evaluated at literal coordinates.
-/
import proofs.«131970_j54589034332684_2_alg».proof.Proof.Gen.ReferenceIdeal.Read
import proofs.«131970_j54589034332684_2_alg».proof.Proof.AttnSpec

noncomputable section

open scoped BigOperators

namespace Cert.Attn.Ref

open Cert.ReferenceIdeal Cert.ReferenceIdeal.Gen Cert.ReferenceIdeal.Read Idealize.ShloMosaic Idealize.ShloMosaic.ValueIdx
  Idealize.SL.Sem Cert.Attn

/-- The contents of the five arguments. -/
abbrev X0 : Type := (⟨S4x4096x1024, .f32⟩ : BufTy).Contents (Elt Ideal)
abbrev X1 : Type := (⟨S3072x1024, .f32⟩ : BufTy).Contents (Elt Ideal)
abbrev X2 : Type := (⟨S3072, .f32⟩ : BufTy).Contents (Elt Ideal)
abbrev X3 : Type := (⟨S1024x1024, .f32⟩ : BufTy).Contents (Elt Ideal)
abbrev X4 : Type := (⟨S1024, .f32⟩ : BufTy).Contents (Elt Ideal)

/-! ## The operations' index maps at literal coordinates -/

section Idx
variable (b : Fin 4) (s q k : Fin 4096) (e : Fin 3072) (d c : Fin 1024)

theorem lidx_v0 : lidx_main_v0 (ix3 b s e) d = ix3 b s d := by
  funext a; match a with | ⟨0, _⟩ => rfl | ⟨1, _⟩ => rfl | ⟨2, _⟩ => rfl
theorem ridx_v0 : ridx_main_v0 (ix3 b s e) d = ix2 e d := by
  funext a; match a with | ⟨0, _⟩ => rfl | ⟨1, _⟩ => rfl
theorem idx_v1_v2 : idx_main_v1 (idx_main_v2 (ix3 b s e)) = ix1 e := by
  funext a; match a with | ⟨0, _⟩ => rfl
theorem idx_v4 : idx_main_v4 (ix3 b s d) = ix3 b s (qF d) := by
  funext a; match a with | ⟨0, _⟩ => rfl | ⟨1, _⟩ => rfl | ⟨2, _⟩ => rfl
theorem idx_v5 : idx_main_v5 (ix3 b s d) = ix3 b s (kF d) := by
  funext a; match a with | ⟨0, _⟩ => rfl | ⟨1, _⟩ => rfl | ⟨2, _⟩ => rfl
theorem idx_v6 : idx_main_v6 (ix3 b s d) = ix3 b s (vF d) := by
  funext a; match a with | ⟨0, _⟩ => rfl | ⟨1, _⟩ => rfl | ⟨2, _⟩ => rfl
theorem lidx_v7 : lidx_main_v7 (ix3 b q k) d = ix3 b q d := by
  funext a; match a with | ⟨0, _⟩ => rfl | ⟨1, _⟩ => rfl | ⟨2, _⟩ => rfl
theorem ridx_v7 : ridx_main_v7 (ix3 b q k) d = ix3 b k d := by
  funext a; match a with | ⟨0, _⟩ => rfl | ⟨1, _⟩ => rfl | ⟨2, _⟩ => rfl
theorem idx_v14_v15 : idx_main_v14 (idx_main_v15 (ix3 b q k)) = ix2 b q := by
  funext a; match a with | ⟨0, _⟩ => rfl | ⟨1, _⟩ => rfl
theorem idx_v18 : idx_main_v18 (ix2 b q) k = ix3 b q k := by
  funext a; match a with | ⟨0, _⟩ => rfl | ⟨1, _⟩ => rfl | ⟨2, _⟩ => rfl
theorem idx_v19_v20 : idx_main_v19 (idx_main_v20 (ix3 b q k)) = ix2 b q := by
  funext a; match a with | ⟨0, _⟩ => rfl | ⟨1, _⟩ => rfl
theorem lidx_v22 : lidx_main_v22 (ix3 b q d) k = ix3 b q k := by
  funext a; match a with | ⟨0, _⟩ => rfl | ⟨1, _⟩ => rfl | ⟨2, _⟩ => rfl
theorem ridx_v22 : ridx_main_v22 (ix3 b q d) k = ix3 b k d := by
  funext a; match a with | ⟨0, _⟩ => rfl | ⟨1, _⟩ => rfl | ⟨2, _⟩ => rfl
theorem lidx_v23 : lidx_main_v23 (ix3 b s c) d = ix3 b s d := by
  funext a; match a with | ⟨0, _⟩ => rfl | ⟨1, _⟩ => rfl | ⟨2, _⟩ => rfl
theorem ridx_v23 : ridx_main_v23 (ix3 b s c) d = ix2 c d := by
  funext a; match a with | ⟨0, _⟩ => rfl | ⟨1, _⟩ => rfl
theorem idx_v24_v25 : idx_main_v24 (idx_main_v25 (ix3 b s c)) = ix1 c := by
  funext a; match a with | ⟨0, _⟩ => rfl

end Idx

/-- The scores array reduces over its key axis to the (sequence, query) array. -/
theorem reduces_d2 : S4x4096x4096.Reduces [2] S4x4096 := by decide

/-- The (sequence, query) index with key `k` put back on the reduced axis is (sequence, query, `k`). -/
theorem lift_d2 (b : Fin 4) (q : Fin 4096) (k : Fin (S4x4096x4096.size 2)) :
    reduces_d2.lift (ix2 b q) k = ix3 b q (⟨k.val, k.isLt⟩ : Fin 4096) := by
  funext c; apply Fin.ext
  fin_cases c <;> rfl

/-! ## The stages -/

section Stages
variable (x0 : X0) (x1 : X1) (x2 : X2) (x3 : X3) (x4 : X4)

/-- The fused projection with its bias is `qkv`. -/
theorem v3_at (b : Fin 4) (s : Fin 4096) (e : Fin 3072) :
    val_main_v3 (F := Ideal) x0 x1 x2 (ix3 b s e) = qkv x0 x1 x2 b s e := by
  rw [val_main_v3_apply, val_main_v0_apply, val_main_v2_apply, val_main_v1_apply, idx_v1_v2, Ideal.addf_def]
  unfold qkv
  refine congrArg (· + x2 (ix1 e)) (Finset.sum_congr rfl fun d _ => ?_)
  rw [lidx_v0, ridx_v0]

/-- The first slice is the query part. -/
theorem v4_at (b : Fin 4) (s : Fin 4096) (d : Fin 1024) :
    val_main_v4 (F := Ideal) x0 x1 x2 (ix3 b s d) = qkv x0 x1 x2 b s (qF d) := by
  rw [val_main_v4_apply, idx_v4, v3_at]

/-- The second slice is the key part. -/
theorem v5_at (b : Fin 4) (s : Fin 4096) (d : Fin 1024) :
    val_main_v5 (F := Ideal) x0 x1 x2 (ix3 b s d) = qkv x0 x1 x2 b s (kF d) := by
  rw [val_main_v5_apply, idx_v5, v3_at]

/-- The third slice is the value part. -/
theorem v6_at (b : Fin 4) (s : Fin 4096) (d : Fin 1024) :
    val_main_v6 (F := Ideal) x0 x1 x2 (ix3 b s d) = qkv x0 x1 x2 b s (vF d) := by
  rw [val_main_v6_apply, idx_v6, v3_at]

/-- The scaled product of the query and key parts is `score`. -/
theorem v10_at (b : Fin 4) (q k : Fin 4096) :
    val_main_v10 (F := Ideal) x0 x1 x2 (ix3 b q k) = score x0 x1 x2 b q k := by
  rw [val_main_v10_apply, val_main_v7_apply, val_main_v9_apply, val_main_v8_apply, val_main_cst_apply,
    Ideal.hostDivf_def, Ideal.hostUnary_sqrt_def, Ideal.ofBits_def]
  unfold score
  refine congrArg (Ideal.div · (Ideal.sqrt (Ideal.ofBits .f32 0x44800000#32))) (Finset.sum_congr rfl fun d _ => ?_)
  rw [lidx_v7, ridx_v7, v4_at, v5_at]

/-- The reduction of the scores over the keys, from the `-∞` pattern, is their maximum from `-∞`. -/
theorem v11_at (b : Fin 4) (q : Fin 4096) :
    val_main_v11 (F := Ideal) x0 x1 x2 (ix2 b q)
      = Finset.univ.fold max ⊥ fun k : Fin 4096 => score x0 x1 x2 b q k := by
  unfold val_main_v11
  rw [Host.reduce_eq_fold_single FloatOps.maximumf _ _ reducesTo_S4x4096x4096_S4x4096_d2 reduces_d2 h_S_]
  have hf : (val_main_v10 (F := Ideal) x0 x1 x2 ∘ reduces_d2.lift (ix2 b q))
      = fun k : Fin 4096 => score x0 x1 x2 b q k :=
    funext fun k => by rw [Function.comp_apply, lift_d2, v10_at]; rfl
  have hinit : val_main_cst_0 (F := Ideal) (Shape.Idx.first h_S_) = (⊥ : EReal) := by
    rw [val_main_cst_0_apply, Ideal.ofBits_def, ofBits_neg_inf]
  rw [hinit]
  exact congrArg (fun f => Finset.fold max (⊥ : EReal) f (Finset.univ : Finset (Fin 4096))) hf

/-- The maximum of that against the `-∞` broadcast is `rowMax`. -/
theorem v13_at (b : Fin 4) (q : Fin 4096) :
    val_main_v13 (F := Ideal) x0 x1 x2 (ix2 b q) = rowMax x0 x1 x2 b q := by
  rw [val_main_v13_apply, val_main_v12_apply, val_main_cst_1_apply, v11_at, Ideal.maximumf_def, Ideal.ofBits_def,
    ofBits_neg_inf]
  rfl

/-- The exponential of a score less its row's maximum is `ex`. -/
theorem v17_at (b : Fin 4) (q k : Fin 4096) :
    val_main_v17 (F := Ideal) x0 x1 x2 (ix3 b q k) = ex x0 x1 x2 b q k := by
  rw [val_main_v17_apply, val_main_v16_apply, val_main_v15_apply, val_main_v14_apply, idx_v14_v15, v13_at, v10_at,
    Ideal.hostUnary_exp_def, Ideal.subf_def]
  rfl

/-- The row sum from `0` is `den`. -/
theorem v18_at (b : Fin 4) (q : Fin 4096) :
    val_main_v18 (F := Ideal) x0 x1 x2 (ix2 b q) = den x0 x1 x2 b q := by
  rw [val_main_v18_apply, val_main_cst_2_apply, Ideal.ofBits_def, Ideal.ofBits_zero_f32]
  unfold den
  refine congrArg ((0 : EReal) + ·) (Finset.sum_congr rfl fun k _ => ?_)
  rw [idx_v18, v17_at]

/-- The softmax weights' combination of the value part is `attn`. -/
theorem v22_at (b : Fin 4) (q : Fin 4096) (d : Fin 1024) :
    val_main_v22 (F := Ideal) x0 x1 x2 (ix3 b q d) = attn x0 x1 x2 b q d := by
  rw [val_main_v22_apply]
  unfold attn
  refine Finset.sum_congr rfl fun k _ => ?_
  rw [lidx_v22, ridx_v22, val_main_v21_apply, val_main_v20_apply, val_main_v19_apply, idx_v19_v20, v17_at, v18_at,
    v6_at, Ideal.hostDivf_def]

/-- The output projection with its bias is `out`. -/
theorem v26_at (b : Fin 4) (s : Fin 4096) (e : Fin 1024) :
    val_main_v26 (F := Ideal) x0 x1 x2 x3 x4 (ix3 b s e) = out x0 x1 x2 x3 x4 b s e := by
  rw [val_main_v26_apply, val_main_v23_apply, val_main_v25_apply, val_main_v24_apply, idx_v24_v25, Ideal.addf_def]
  unfold out
  refine congrArg (· + x4 (ix1 e)) (Finset.sum_congr rfl fun d _ => ?_)
  rw [lidx_v23, ridx_v23, v22_at]

/-- THE REFERENCE IS THE SPECIFICATION, at an index with literal coordinates. -/
theorem ref_eq_spec_at (b : Fin 4) (s : Fin 4096) (e : Fin 1024) :
    val_main_v26 (F := Ideal) x0 x1 x2 x3 x4 (ix3 b s e) = out x0 x1 x2 x3 x4 b s e :=
  v26_at x0 x1 x2 x3 x4 b s e

/-- THE REFERENCE IS THE SPECIFICATION, as arrays: the result at an index is `out` at the index's coordinates. -/
theorem ref_eq_spec :
    val_main_v26 (F := Ideal) x0 x1 x2 x3 x4 = fun i => out x0 x1 x2 x3 x4 (i 0) (i 1) (i 2) := by
  funext i
  obtain ⟨b, s, e, rfl⟩ : ∃ (b : Fin 4) (s : Fin 4096) (e : Fin 1024), i = ix3 b s e := ⟨i 0, i 1, i 2, eq_ix3 i⟩
  exact v26_at x0 x1 x2 x3 x4 b s e

end Stages

end Cert.Attn.Ref

end
-- ==== Proof.lean ====
/-
  A transformer self-attention layer: a fused query/key/value projection, full softmax attention with scores scaled by
  1/sqrt(1024) = 1/32, and an output projection. The kernel program does it in three tiled calls — a matrix product plus
  bias, a flash-attention (the softmax taken online over eight blocks of 512 keys, with a running maximum, a running
  denominator and a running numerator per query row, the quotient taken at the last block) and another matrix product
  plus bias — between reshapes and transposes; the reference does it with whole-array operations.

  At the extended reals a change of float format is the identity, a tiled matrix product is the whole product, and
  for finite inputs every score is a real number, so rescaling the running sums by exp(old maximum - new maximum)
  keeps them equal to the sums of exp(score - maximum) over the keys seen so far; after the last block their
  quotient is the softmax-weighted sum of the values, which is what the reference computes. Hence the two programs
  end with equal results, index by index.

  The three frames: each program runs to the end, faults nowhere and leaves its arguments unchanged — for the kernel
  programs by running the three calls' bodies at every grid point (the attention body in its three cases: first,
  middle and last key block) under the pipeline library's launch of a program of several calls; for the reference by
  its run as a list of host operations. The idealization rewrote nothing, so there is nothing to preserve.
-/
import proofs.«131970_j54589034332684_2_alg».proof.Defs
import proofs.«131970_j54589034332684_2_alg».proof.Proof.Gen.Kernel
import proofs.«131970_j54589034332684_2_alg».proof.Proof.Gen.KernelIdeal
import proofs.«131970_j54589034332684_2_alg».proof.Proof.Gen.ReferenceIdeal
import proofs.«131970_j54589034332684_2_alg».proof.Proof.Gen.ReferenceIdeal.Run
import proofs.«131970_j54589034332684_2_alg».proof.Proof.Gen.ReferenceIdeal.Read
import proofs.«131970_j54589034332684_2_alg».proof.Proof.Gen.Pre_finite_inputs
import proofs.«131970_j54589034332684_2_alg».proof.Proof.KOuts
import proofs.«131970_j54589034332684_2_alg».proof.Proof.KIOuts
import proofs.«131970_j54589034332684_2_alg».proof.Proof.KIFinal
import proofs.«131970_j54589034332684_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Run.frame m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both idealized programs end, from memories agreeing on the arguments, with the same result array: the kernel's
    is the fold's last contents, which index by index is the specification; the reference's run ends at its composed
    term, which is the specification too. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.V7 m (Cert.KernelIdeal.Run.outsC m) c Cert.KernelIdeal.main_v10, Cert.KernelIdeal.Run.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1, (hagree c).2.2.2.2,
    Cert.Attn.Ref.ref_eq_spec]
  exact (Cert.KernelIdeal.Final.kernel_value_fun m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
